-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v133)) (v1 : (c : Dev Cert.KernelIdeal.nD) → Buf (Elt Ideal) ((c.tc : Thread Cert.KernelIdeal.nD Cert.KernelIdeal.τ).loc Cert.KernelIdeal.main_v129)) (v2 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_v129) = v1 c
          ∧ r.2.mem ((c.tc : Thread Cert.KernelIdeal.nD Cert.KernelIdeal.τ).loc Cert.KernelIdeal.main_v49) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S2x1x2048 : Shape := ⟨3, ![2, 1, 2048]⟩
abbrev S1x200x256 : Shape := ⟨3, ![1, 200, 256]⟩
abbrev S100x2048 : Shape := ⟨2, ![100, 2048]⟩
abbrev S3x4096 : Shape := ⟨2, ![3, 4096]⟩
abbrev S3 : Shape := ⟨1, ![3]⟩
abbrev S256x4096 : Shape := ⟨2, ![256, 4096]⟩
abbrev S256 : Shape := ⟨1, ![256]⟩
abbrev S6144x2304 : Shape := ⟨2, ![6144, 2304]⟩
abbrev S6144x2048 : Shape := ⟨2, ![6144, 2048]⟩
abbrev S6144 : Shape := ⟨1, ![6144]⟩
abbrev S100 : Shape := ⟨1, ![100]⟩
abbrev S_ : Shape := ⟨0, ![]⟩

class Facts : Prop where
  bcast_S_S2x1x2048 : S_.BroadcastsInDim S2x1x2048 (![] : Fin 0 → Fin S2x1x2048.rank)
  reducesTo_S2x1x2048_S_d0_1_2 : S2x1x2048.ReducesTo [0, 1, 2] S_
  h_S_ : 0 < S_.numel
  bcast_S_S1x200x256 : S_.BroadcastsInDim S1x200x256 (![] : Fin 0 → Fin S1x200x256.rank)
  reducesTo_S1x200x256_S_d0_1_2 : S1x200x256.ReducesTo [0, 1, 2] S_
  bcast_S_S100x2048 : S_.BroadcastsInDim S100x2048 (![] : Fin 0 → Fin S100x2048.rank)
  reducesTo_S100x2048_S_d0_1 : S100x2048.ReducesTo [0, 1] S_
  bcast_S_S3x4096 : S_.BroadcastsInDim S3x4096 (![] : Fin 0 → Fin S3x4096.rank)
  reducesTo_S3x4096_S_d0_1 : S3x4096.ReducesTo [0, 1] S_
  bcast_S_S3 : S_.BroadcastsInDim S3 (![] : Fin 0 → Fin S3.rank)
  reducesTo_S3_S_d0 : S3.ReducesTo [0] S_
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_
  bcast_S_S6144x2304 : S_.BroadcastsInDim S6144x2304 (![] : Fin 0 → Fin S6144x2304.rank)
  reducesTo_S6144x2304_S_d0_1 : S6144x2304.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S100 : S_.BroadcastsInDim S100 (![] : Fin 0 → Fin S100.rank)
  reducesTo_S100_S_d0 : S100.ReducesTo [0] S_

variable [Facts]

def fn_part4 {F : FTy → Type} [FloatOps F] (main_arg15 : FVec F S6144 .f32) (main_arg16 : FVec F S100x2048 .f32) (main_arg17 : FVec F S100 .f32) (main_v63 : IVec S_ 1) (main_v67 : IVec S_ 1) : IVec S_ 1 :=
  let main_v68 : IVec S_ 1 := andi main_v63 main_v67
  let main_v69 : FVec F S6144 .f32 := Host.absf main_arg15
  let main_cst_26 : FVec F S_ .f32 := constant S_ .f32 0x7F800000#32
  let main_v70 : FVec F S6144 .f32 := broadcastInDim S6144 ![] bcast_S_S6144 main_cst_26
  let main_v71 : IVec S6144 1 := cmpf .olt main_v69 main_v70
  let main_c_27 : IVec S_ 1 := constantI S_ 1 1#1
  let main_v72 : IVec S_ 1 := (fun x v => Host.reduce IntOp.andi x v reducesTo_S6144_S_d0 h_S_) main_v71 main_c_27
  let main_v73 : IVec S_ 1 := andi main_v68 main_v72
  let main_v74 : FVec F S100x2048 .f32 := Host.absf main_arg16
  let main_cst_28 : FVec F S_ .f32 := constant S_ .f32 0x7F800000#32
  let main_v75 : FVec F S100x2048 .f32 := broadcastInDim S100x2048 ![] bcast_S_S100x2048 main_cst_28
  let main_v76 : IVec S100x2048 1 := cmpf .olt main_v74 main_v75
  let main_c_29 : IVec S_ 1 := constantI S_ 1 1#1
  let main_v77 : IVec S_ 1 := (fun x v => Host.reduce IntOp.andi x v reducesTo_S100x2048_S_d0_1 h_S_) main_v76 main_c_29
  let main_v78 : IVec S_ 1 := andi main_v73 main_v77
  let main_v79 : FVec F S100 .f32 := Host.absf main_arg17
  let main_cst_30 : FVec F S_ .f32 := constant S_ .f32 0x7F800000#32
  let main_v80 : FVec F S100 .f32 := broadcastInDim S100 ![] bcast_S_S100 main_cst_30
  let main_v81 : IVec S100 1 := cmpf .olt main_v79 main_v80
  let main_c_31 : IVec S_ 1 := constantI S_ 1 1#1
  let main_v82 : IVec S_ 1 := (fun x v => Host.reduce IntOp.andi x v reducesTo_S100_S_d0 h_S_) main_v81 main_c_31
  let main_v83 : IVec S_ 1 := andi main_v78 main_v82
  main_v83

def fn_part3 {F : FTy → Type} [FloatOps F] (main_arg12 : FVec F S6144x2048 .f32) (main_arg13 : FVec F S6144x2048 .f32) (main_arg14 : FVec F S6144 .f32) (main_arg15 : FVec F S6144 .f32) (main_arg16 : FVec F S100x2048 .f32) (main_arg17 : FVec F S100 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S6144x2048 .f32 := Host.absf main_arg12
  let main_cst_20 : FVec F S_ .f32 := constant S_ .f32 0x7F800000#32
  let main_v55 : FVec F S6144x2048 .f32 := broadcastInDim S6144x2048 ![] bcast_S_S6144x2048 main_cst_20
  let main_v56 : IVec S6144x2048 1 := cmpf .olt main_v54 main_v55
  let main_c_21 : IVec S_ 1 := constantI S_ 1 1#1
  let main_v57 : IVec S_ 1 := (fun x v => Host.reduce IntOp.andi x v reducesTo_S6144x2048_S_d0_1 h_S_) main_v56 main_c_21
  let main_v58 : IVec S_ 1 := andi main_v53 main_v57
  let main_v59 : FVec F S6144x2048 .f32 := Host.absf main_arg13
  let main_cst_22 : FVec F S_ .f32 := constant S_ .f32 0x7F800000#32
  let main_v60 : FVec F S6144x2048 .f32 := broadcastInDim S6144x2048 ![] bcast_S_S6144x2048 main_cst_22
  let main_v61 : IVec S6144x2048 1 := cmpf .olt main_v59 main_v60
  let main_c_23 : IVec S_ 1 := constantI S_ 1 1#1
  let main_v62 : IVec S_ 1 := (fun x v => Host.reduce IntOp.andi x v reducesTo_S6144x2048_S_d0_1 h_S_) main_v61 main_c_23
  let main_v63 : IVec S_ 1 := andi main_v58 main_v62
  let main_v64 : FVec F S6144 .f32 := Host.absf main_arg14
  let main_cst_24 : FVec F S_ .f32 := constant S_ .f32 0x7F800000#32
  let main_v65 : FVec F S6144 .f32 := broadcastInDim S6144 ![] bcast_S_S6144 main_cst_24
  let main_v66 : IVec S6144 1 := cmpf .olt main_v64 main_v65
  let main_c_25 : IVec S_ 1 := constantI S_ 1 1#1
  let main_v67 : IVec S_ 1 := (fun x v => Host.reduce IntOp.andi x v reducesTo_S6144_S_d0 h_S_) main_v66 main_c_25
  fn_part4 (F := F) main_arg15 main_arg16 main_arg17 main_v63 main_v67

def fn_part2 {F : FTy → Type} [FloatOps F] (main_arg8 : FVec F S6144x2304 .f32) (main_arg9 : FVec F S6144x2048 .f32) (main_arg10 : FVec F S6144 .f32) (main_arg11 : FVec F S6144 .f32) (main_arg12 : FVec F S6144x2048 .f32) (main_arg13 : FVec F S6144x2048 .f32) (main_arg14 : FVec F S6144 .f32) (main_arg15 : FVec F S6144 .f32) (main_arg16 : FVec F S100x2048 .f32) (main_arg17 : FVec F S100 .f32) (main_v33 : IVec S_ 1) : IVec S_ 1 :=
  let main_v34 : FVec F S6144x2304 .f32 := Host.absf main_arg8
  let main_cst_12 : FVec F S_ .f32 := constant S_ .f32 0x7F800000#32
  let main_v35 : FVec F S6144x2304 .f32 := broadcastInDim S6144x2304 ![] bcast_S_S6144x2304 main_cst_12
  let main_v36 : IVec S6144x2304 1 := cmpf .olt main_v34 main_v35
  let main_c_13 : IVec S_ 1 := constantI S_ 1 1#1
  let main_v37 : IVec S_ 1 := (fun x v => Host.reduce IntOp.andi x v reducesTo_S6144x2304_S_d0_1 h_S_) main_v36 main_c_13
  let main_v38 : IVec S_ 1 := andi main_v33 main_v37
  let main_v39 : FVec F S6144x2048 .f32 := Host.absf main_arg9
  let main_cst_14 : FVec F S_ .f32 := constant S_ .f32 0x7F800000#32
  let main_v40 : FVec F S6144x2048 .f32 := broadcastInDim S6144x2048 ![] bcast_S_S6144x2048 main_cst_14
  let main_v41 : IVec S6144x2048 1 := cmpf .olt main_v39 main_v40
  let main_c_15 : IVec S_ 1 := constantI S_ 1 1#1
  let main_v42 : IVec S_ 1 := (fun x v => Host.reduce IntOp.andi x v reducesTo_S6144x2048_S_d0_1 h_S_) main_v41 main_c_15
  let main_v43 : IVec S_ 1 := andi main_v38 main_v42
  let main_v44 : FVec F S6144 .f32 := Host.absf main_arg10
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S6144 .f32 := Host.absf main_arg11
  let main_cst_18 : FVec F S_ .f32 := constant S_ .f32 0x7F800000#32
  let main_v50 : FVec F S6144 .f32 := broadcastInDim S6144 ![] bcast_S_S6144 main_cst_18
  fn_part3 (F := F) main_arg12 main_arg13 main_arg14 main_arg15 main_arg16 main_arg17 main_v48 main_v49 main_v50

def fn_part1 {F : FTy → Type} [FloatOps F] (main_arg5 : FVec F S3 .f32) (main_arg6 : FVec F S256x4096 .f32) (main_arg7 : FVec F S256 .f32) (main_arg8 : FVec F S6144x2304 .f32) (main_arg9 : FVec F S6144x2048 .f32) (main_arg10 : FVec F S6144 .f32) (main_arg11 : FVec F S6144 .f32) (main_arg12 : FVec F S6144x2048 .f32) (main_arg13 : FVec F S6144x2048 .f32) (main_arg14 : FVec F S6144 .f32) (main_arg15 : FVec F S6144 .f32) (main_arg16 : FVec F S100x2048 .f32) (main_arg17 : FVec F S100 .f32) (main_v13 : IVec S_ 1) (main_v16 : IVec S3x4096 1) : IVec S_ 1 :=
  let main_c_5 : IVec S_ 1 := constantI S_ 1 1#1
  let main_v17 : IVec S_ 1 := (fun x v => Host.reduce IntOp.andi x v reducesTo_S3x4096_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S256x4096 .f32 := Host.absf main_arg6
  let main_cst_8 : FVec F S_ .f32 := constant S_ .f32 0x7F800000#32
  let main_v25 : FVec F S256x4096 .f32 := broadcastInDim S256x4096 ![] bcast_S_S256x4096 main_cst_8
  let main_v26 : IVec S256x4096 1 := cmpf .olt main_v24 main_v25
  let main_c_9 : IVec S_ 1 := constantI S_ 1 1#1
  let main_v27 : IVec S_ 1 := (fun x v => Host.reduce IntOp.andi x v reducesTo_S256x4096_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : IVec S1 32) (main_arg1 : FVec F S2x1x2048 .f32) (main_arg2 : FVec F S1x200x256 .f32) (main_arg3 : FVec F S100x2048 .f32) (main_arg4 : FVec F S3x4096 .f32) (main_arg5 : FVec F S3 .f32) (main_arg6 : FVec F S256x4096 .f32) (main_arg7 : FVec F S256 .f32) (main_arg8 : FVec F S6144x2304 .f32) (main_arg9 : FVec F S6144x2048 .f32) (main_arg10 : FVec F S6144 .f32) (main_arg11 : FVec F S6144 .f32) (main_arg12 : FVec F S6144x2048 .f32) (main_arg13 : FVec F S6144x2048 .f32) (main_arg14 : FVec F S6144 .f32) (main_arg15 : FVec F S6144 .f32) (main_arg16 : FVec F S100x2048 .f32) (main_arg17 : FVec F S100 .f32) : IVec S_ 1 :=
  let main_v0 : FVec F S2x1x2048 .f32 := Host.absf main_arg1
  let main_cst : FVec F S_ .f32 := constant S_ .f32 0x7F800000#32
  let main_v1 : FVec F S2x1x2048 .f32 := broadcastInDim S2x1x2048 ![] bcast_S_S2x1x2048 main_cst
  let main_v2 : IVec S2x1x2048 1 := cmpf .olt main_v0 main_v1
  let main_c : IVec S_ 1 := constantI S_ 1 1#1
  let main_v3 : IVec S_ 1 := (fun x v => Host.reduce IntOp.andi x v reducesTo_S2x1x2048_S_d0_1_2 h_S_) main_v2 main_c
  let main_v4 : FVec F S1x200x256 .f32 := Host.absf main_arg2
  let main_cst_0 : FVec F S_ .f32 := constant S_ .f32 0x7F800000#32
  let main_v5 : FVec F S1x200x256 .f32 := broadcastInDim S1x200x256 ![] bcast_S_S1x200x256 main_cst_0
  let main_v6 : IVec S1x200x256 1 := cmpf .olt main_v4 main_v5
  let main_c_1 : IVec S_ 1 := constantI S_ 1 1#1
  let main_v7 : IVec S_ 1 := (fun x v => Host.reduce IntOp.andi x v reducesTo_S1x200x256_S_d0_1_2 h_S_) main_v6 main_c_1
  let main_v8 : IVec S_ 1 := andi main_v3 main_v7
  let main_v9 : FVec F S100x2048 .f32 := Host.absf main_arg3
  let main_cst_2 : FVec F S_ .f32 := constant S_ .f32 0x7F800000#32
  let main_v10 : FVec F S100x2048 .f32 := broadcastInDim S100x2048 ![] bcast_S_S100x2048 main_cst_2
  let main_v11 : IVec S100x2048 1 := cmpf .olt main_v9 main_v10
  let main_c_3 : IVec S_ 1 := constantI S_ 1 1#1
  let main_v12 : IVec S_ 1 := (fun x v => Host.reduce IntOp.andi x v reducesTo_S100x2048_S_d0_1 h_S_) main_v11 main_c_3
  let main_v13 : IVec S_ 1 := andi main_v8 main_v12
  let main_v14 : FVec F S3x4096 .f32 := Host.absf main_arg4
  let main_cst_4 : FVec F S_ .f32 := constant S_ .f32 0x7F800000#32
  let main_v15 : FVec F S3x4096 .f32 := broadcastInDim S3x4096 ![] bcast_S_S3x4096 main_cst_4
  let main_v16 : IVec S3x4096 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S1 : Shape := ⟨1, ![1]⟩
abbrev S2x1x2048 : Shape := ⟨3, ![2, 1, 2048]⟩
abbrev S1x200x256 : Shape := ⟨3, ![1, 200, 256]⟩
abbrev S100x2048 : Shape := ⟨2, ![100, 2048]⟩
abbrev S3x4096 : Shape := ⟨2, ![3, 4096]⟩
abbrev S3 : Shape := ⟨1, ![3]⟩
abbrev S256x4096 : Shape := ⟨2, ![256, 4096]⟩
abbrev S256 : Shape := ⟨1, ![256]⟩
abbrev S6144x2304 : Shape := ⟨2, ![6144, 2304]⟩
abbrev S6144x2048 : Shape := ⟨2, ![6144, 2048]⟩
abbrev S6144 : Shape := ⟨1, ![6144]⟩
abbrev S100 : Shape := ⟨1, ![100]⟩
abbrev S_ : Shape := ⟨0, ![]⟩
abbrev S1x1 : Shape := ⟨2, ![1, 1]⟩
abbrev S1x2048 : Shape := ⟨2, ![1, 2048]⟩
abbrev S1x1x2048 : Shape := ⟨3, ![1, 1, 2048]⟩
abbrev S1x2x2048 : Shape := ⟨3, ![1, 2, 2048]⟩
abbrev S1x4096 : Shape := ⟨2, ![1, 4096]⟩
abbrev S4096x3 : Shape := ⟨2, ![4096, 3]⟩
abbrev S1x3 : Shape := ⟨2, ![1, 3]⟩
abbrev S4096x256 : Shape := ⟨2, ![4096, 256]⟩
abbrev S1x256 : Shape := ⟨2, ![1, 256]⟩
abbrev S1x1x256 : Shape := ⟨3, ![1, 1, 256]⟩
abbrev S1x199x256 : Shape := ⟨3, ![1, 199, 256]⟩
abbrev S1x1x2304 : Shape := ⟨3, ![1, 1, 2304]⟩
abbrev S1x2304 : Shape := ⟨2, ![1, 2304]⟩
abbrev S1x6144 : Shape := ⟨2, ![1, 6144]⟩
abbrev S1024x2304 : Shape := ⟨2, ![1024, 2304]⟩
abbrev S1024x2048 : Shape := ⟨2, ![1024, 2048]⟩
abbrev S1x1024 : Shape := ⟨2, ![1, 1024]⟩
abbrev S2048x100 : Shape := ⟨2, ![2048, 100]⟩
abbrev S1x100 : Shape := ⟨2, ![1, 100]⟩

abbrev nBuf : Space → Nat
  | .hbm => 170
  | .vmem => 28
  | .smem => 0
  | _ => 0

abbrev hbmTy0_0 (i : Nat) : BufTy := match i % 128 with
  | 0 => ⟨S1, .i32⟩
  | 1 => ⟨S2x1x2048, .f32⟩
  | 2 => ⟨S1x200x256, .f32⟩
  | 3 => ⟨S100x2048, .f32⟩
  | 4 => ⟨S3x4096, .f32⟩
  | 5 => ⟨S3, .f32⟩
  | 6 => ⟨S256x4096, .f32⟩
  | 7 => ⟨S256, .f32⟩
  | 8 => ⟨S6144x2304, .f32⟩
  | 9 => ⟨S6144x2048, .f32⟩
  | 10 => ⟨S6144, .f32⟩
  | 11 => ⟨S6144, .f32⟩
  | 12 => ⟨S6144x2048, .f32⟩
  | 13 => ⟨S6144x2048, .f32⟩
  | 14 => ⟨S6144, .f32⟩
  | 15 => ⟨S6144, .f32⟩
  | 16 => ⟨S100x2048, .f32⟩
  | 17 => ⟨S100, .f32⟩
  | 18 => ⟨S_, .i32⟩
  | 19 => ⟨S1, .i32⟩
  | 20 => ⟨S1, .i1⟩
  | 21 => ⟨S_, .i32⟩
  | 22 => ⟨S1, .i32⟩
  | 23 => ⟨S1, .i32⟩
  | 24 => ⟨S1, .i32⟩
  | 25 => ⟨S1x1, .i32⟩
  | 26 => ⟨S1x2048, .f32⟩
  | 27 => ⟨S1x1x2048, .f32⟩
  | 28 => ⟨S1x2x2048, .f32⟩
  | 29 => ⟨S1x4096, .f32⟩
  | 30 => ⟨S4096x3, .f32⟩
  | 31 => ⟨S1x3, .f32⟩
  | 32 => ⟨S1x3, .f32⟩
  | 33 => ⟨S1x3, .f32⟩
  | 34 => ⟨S_, .f32⟩
  | 35 => ⟨S1, .f32⟩
  | 36 => ⟨S_, .f32⟩
  | 37 => ⟨S1, .f32⟩
  | 38 => ⟨S1, .f32⟩
  | 39 => ⟨S1x1, .f32⟩
  | 40 => ⟨S1x3, .f32⟩
  | 41 => ⟨S1x3, .f32⟩
  | 42 => ⟨S1x3, .f32⟩
  | 43 => ⟨S_, .f32⟩
  | 44 => ⟨S1, .f32⟩
  | 45 => ⟨S1x1, .f32⟩
  | 46 => ⟨S1x3, .f32⟩
  | 47 => ⟨S1x3, .f32⟩
  | 48 => ⟨S4096x256, .f32⟩
  | 49 => ⟨S1x256, .f32⟩
  | 50 => ⟨S1x256, .f32⟩
  | 51 => ⟨S1x256, .f32⟩
  | 52 => ⟨S1x256, .f32⟩
  | 53 => ⟨S1x1x256, .f32⟩
  | 54 => ⟨S1x1, .f32⟩
  | 55 => ⟨S_, .f32⟩
  | 56 => ⟨S1x1, .f32⟩
  | 57 => ⟨S_, .f32⟩
  | 58 => ⟨S1x1, .f32⟩
  | 59 => ⟨S_, .f32⟩
  | 60 => ⟨S1x199x256, .f32⟩
  | 61 => ⟨S1x200x256, .f32⟩
  | 62 => ⟨S1x199x256, .f32⟩
  | 63 => ⟨S_, .f32⟩
  | 64 => ⟨S1x1x256, .f32⟩
  | 65 => ⟨S1x200x256, .f32⟩
  | 66 => ⟨S1x200x256, .f32⟩
  | 67 => ⟨S1x200x256, .f32⟩
  | 68 => ⟨S1x200x256, .f32⟩
  | 69 => ⟨S1x200x256, .f32⟩
  | 70 => ⟨S1x200x256, .f32⟩
  | 71 => ⟨S1x200x256, .f32⟩
  | 72 => ⟨S1x200x256, .f32⟩
  | 73 => ⟨S1x200x256, .f32⟩
  | 74 => ⟨S1x1x256, .f32⟩
  | 75 => ⟨S1x1x2304, .f32⟩
  | 76 => ⟨S1x2304, .f32⟩
  | 77 => ⟨S1x1x2048, .f32⟩
  | 78 => ⟨S1x2048, .f32⟩
  | 79 => ⟨S1x1x2048, .f32⟩
  | 80 => ⟨S1x2048, .f32⟩
  | 81 => ⟨S1x2304, .bf16⟩
  | 82 => ⟨S1x2048, .bf16⟩
  | 83 => ⟨S1x2048, .bf16⟩
  | 84 => ⟨S6144x2304, .bf16⟩
  | 85 => ⟨S6144x2048, .bf16⟩
  | 86 => ⟨S6144x2048, .bf16⟩
  | 87 => ⟨S6144x2048, .bf16⟩
  | 88 => ⟨S1x6144, .f32⟩
  | 89 => ⟨S1x6144, .f32⟩
  | 90 => ⟨S1x6144, .f32⟩
  | 91 => ⟨S1x6144, .f32⟩
  | 92 => ⟨S1x6144, .f32⟩
  | 93 => ⟨S1x6144, .f32⟩
  | 94 => ⟨S1x2048, .f32⟩
  | 95 => ⟨S1x2048, .f32⟩
  | 96 => ⟨S1x2048, .f32⟩
  | 97 => ⟨S1x2048, .f32⟩
  | 98 => ⟨S1x2048, .f32⟩
  | 99 => ⟨S1x2048, .f32⟩
  | 100 => ⟨S1x2048, .f32⟩
  | 101 => ⟨S1x2048, .f32⟩
  | 102 => ⟨S1x2048, .f32⟩
  | 103 => ⟨S_, .f32⟩
  | 104 => ⟨S1x2048, .f32⟩
  | 105 => ⟨S1x2048, .f32⟩
  | 106 => ⟨S_, .f32⟩
  | 107 => ⟨S1x2048, .f32⟩
  | 108 => ⟨S1x2048, .f32⟩
  | 109 => ⟨S1x2048, .f32⟩
  | 110 => ⟨S1x2048, .f32⟩
  | 111 => ⟨S1x2048, .f32⟩
  | 112 => ⟨S_, .f32⟩
  | 113 => ⟨S1x2048, .f32⟩
  | 114 => ⟨S1x2048, .f32⟩
  | 115 => ⟨S_, .f32⟩
  | 116 => ⟨S1x2048, .f32⟩
  | 117 => ⟨S1x2048, .f32⟩
  | 118 => ⟨S1x2048, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S1x2048, .f32⟩
  | 125 => ⟨S1x2048, .f32⟩
  | 126 => ⟨S1x2048, .f32⟩
  | 127 => ⟨S1x2048, .bf16⟩
  | _ => ⟨S1, .i32⟩

abbrev hbmTy0_1 (i : Nat) : BufTy := match i % 128 with
  | 0 => ⟨S1x6144, .f32⟩
  | 1 => ⟨S1x6144, .f32⟩
  | 2 => ⟨S1x2048, .f32⟩
  | 3 => ⟨S1x2048, .f32⟩
  | 4 => ⟨S1x2048, .f32⟩
  | 5 => ⟨S1x2048, .f32⟩
  | 6 => ⟨S1x2048, .f32⟩
  | 7 => ⟨S1x2048, .f32⟩
  | 8 => ⟨S1x2048, .f32⟩
  | 9 => ⟨S1x2048, .f32⟩
  | 10 => ⟨S1x2048, .f32⟩
  | 11 => ⟨S_, .f32⟩
  | 12 => ⟨S1x2048, .f32⟩
  | 13 => ⟨S1x2048, .f32⟩
  | 14 => ⟨S_, .f32⟩
  | 15 => ⟨S1x2048, .f32⟩
  | 16 => ⟨S1x2048, .f32⟩
  | 17 => ⟨S1x2048, .f32⟩
  | 18 => ⟨S1x2048, .f32⟩
  | 19 => ⟨S1x2048, .f32⟩
  | 20 => ⟨S_, .f32⟩
  | 21 => ⟨S1x2048, .f32⟩
  | 22 => ⟨S1x2048, .f32⟩
  | 23 => ⟨S_, .f32⟩
  | 24 => ⟨S1x2048, .f32⟩
  | 25 => ⟨S1x2048, .f32⟩
  | 26 => ⟨S1x2048, .f32⟩
  | 27 => ⟨S1x2048, .f32⟩
  | 28 => ⟨S1x2048, .f32⟩
  | 29 => ⟨S_, .f32⟩
  | 30 => ⟨S1x2048, .f32⟩
  | 31 => ⟨S1x2048, .f32⟩
  | 32 => ⟨S1x2048, .f32⟩
  | 33 => ⟨S1x2048, .f32⟩
  | 34 => ⟨S1x2048, .f32⟩
  | 35 => ⟨S1x1x2048, .f32⟩
  | 36 => ⟨S1x1x2048, .f32⟩
  | 37 => ⟨S2x1x2048, .f32⟩
  | 38 => ⟨S2048x100, .f32⟩
  | 39 => ⟨S1x100, .f32⟩
  | 40 => ⟨S1x100, .f32⟩
  | 41 => ⟨S1x100, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | .local _ .vmem, ⟨0, _⟩ => ⟨S1x2304, .bf16⟩
  | .local _ .vmem, ⟨1, _⟩ => ⟨S1x2048, .bf16⟩
  | .local _ .vmem, ⟨2, _⟩ => ⟨S1x2048, .bf16⟩
  | .local _ .vmem, ⟨3, _⟩ => ⟨S1024x2304, .bf16⟩
  | .local _ .vmem, ⟨4, _⟩ => ⟨S1024x2304, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x2048, .bf16⟩
  | .local _ .vmem, ⟨22, _⟩ => ⟨S1024x2048, .bf16⟩
  | .local _ .vmem, ⟨23, _⟩ => ⟨S1024x2048, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67_0 : Ref sig .tc := ⟨.hbm, 91, rfl⟩
abbrev main_v67_1 : Ref sig .tc := ⟨.hbm, 92, rfl⟩
abbrev main_v67_2 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_4 : Ref sig .tc := ⟨.hbm, 103, rfl⟩
abbrev main_v77 : Ref sig .tc := ⟨.hbm, 104, rfl⟩
abbrev main_v78 : Ref sig .tc := ⟨.hbm, 105, rfl⟩
abbrev main_cst_5 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_6 : Ref sig .tc := ⟨.hbm, 112, rfl⟩
abbrev main_v84 : Ref sig .tc := ⟨.hbm, 113, rfl⟩
abbrev main_v85 : Ref sig .tc := ⟨.hbm, 114, rfl⟩
abbrev main_cst_7 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_8 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_9 : Ref sig .tc := ⟨.hbm, 139, rfl⟩
abbrev main_v108 : Ref sig .tc := ⟨.hbm, 140, rfl⟩
abbrev main_v109 : Ref sig .tc := ⟨.hbm, 141, rfl⟩
abbrev main_cst_10 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_11 : Ref sig .tc := ⟨.hbm, 148, rfl⟩
abbrev main_v115 : Ref sig .tc := ⟨.hbm, 149, rfl⟩
abbrev main_v116 : Ref sig .tc := ⟨.hbm, 150, rfl⟩
abbrev main_cst_12 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_13 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc1_stg0_0 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc1_sem0_0 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x2048_S1x1x2048 : S1x2048.ShapeCasts S1x1x2048
  transposes_S2x1x2048_S1x2x2048_1_0_2 : S2x1x2048.Transposes [1, 0, 2] S1x2x2048
  shapeCasts_S1x2x2048_S1x4096 : S1x2x2048.ShapeCasts S1x4096
  transposes_S3x4096_S4096x3_1_0 : S3x4096.Transposes [1, 0] S4096x3
  bcast_S3_S1x3_1 : S3.BroadcastsInDim S1x3 (![1] : Fin 1 → Fin S1x3.rank)
  reducesTo_S1x3_S1_d1 : S1x3.ReducesTo [1] S1
  h_S_ : 0 < S_.numel
  bcast_S1x1_S1x3_0_1 : S1x1.BroadcastsInDim S1x3 (![0, 1] : Fin 2 → Fin S1x3.rank)
  transposes_S256x4096_S4096x256_1_0 : S256x4096.Transposes [1, 0] S4096x256
  bcast_S256_S1x256_1 : S256.BroadcastsInDim S1x256 (![1] : Fin 1 → Fin S1x256.rank)
  shapeCasts_S1x256_S1x1x256 : S1x256.ShapeCasts S1x1x256
  slices_S1x3_S1x1_0_0 : S1x3.Slices ![0, 0] S1x1
  shapeCasts_S1x1_S_ : S1x1.ShapeCasts S_
  slices_S1x3_S1x1_0_1 : S1x3.Slices ![0, 1] S1x1
  slices_S1x3_S1x1_0_2 : S1x3.Slices ![0, 2] S1x1
  slices_S1x200x256_S1x199x256_0_0_0 : S1x200x256.Slices ![0, 0, 0] S1x199x256
  concatenates_S1x1x256_S1x199x256_S1x200x256_d1 : Shape.Concatenates [S1x1x256, S1x199x256] S1x200x256 1
  slices_S1x200x256_S1x199x256_0_1_0 : S1x200x256.Slices ![0, 1, 0] S1x199x256
  bcast_S_S1x1x256 : S_.BroadcastsInDim S1x1x256 (![] : Fin 0 → Fin S1x1x256.rank)
  concatenates_S1x199x256_S1x1x256_S1x200x256_d1 : Shape.Concatenates [S1x199x256, S1x1x256] S1x200x256 1
  bcast_S_S1x200x256 : S_.BroadcastsInDim S1x200x256 (![] : Fin 0 → Fin S1x200x256.rank)
  slices_S1x200x256_S1x1x256_0_0_0 : S1x200x256.Slices ![0, 0, 0] S1x1x256
  concatenates_S1x1x2048_S1x1x256_S1x1x2304_d2 : Shape.Concatenates [S1x1x2048, S1x1x256] S1x1x2304 2
  shapeCasts_S1x1x2304_S1x2304 : S1x1x2304.ShapeCasts S1x2304
  slices_S2x1x2048_S1x1x2048_0_0_0 : S2x1x2048.Slices ![0, 0, 0] S1x1x2048
  shapeCasts_S1x1x2048_S1x2048 : S1x1x2048.ShapeCasts S1x2048
  slices_S2x1x2048_S1x1x2048_1_0_0 : S2x1x2048.Slices ![1, 0, 0] S1x1x2048
  bitsLt_bf16_f32 : FTy.bits .bf16 < FTy.bits .f32
  shapeCasts_S6144_S1x6144 : S6144.ShapeCasts S1x6144
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2304_S1024x2304_0_0 : ∀ a, (![0, 0] : Fin 2 → Nat) a + S1024x2304.size a ≤ S1024x2304.size a
  h_S1024x2304 : 0 < S1024x2304.numel
  shapeCasts_S1024x2304_S1024x2304 : S1024x2304.ShapeCasts S1024x2304
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S_S1x2048 : S_.BroadcastsInDim S1x2048 (![] : Fin 0 → Fin S1x2048.rank)
  bcast_S1x2048_S1x1x2048_1_2 : S1x2048.BroadcastsInDim S1x1x2048 (![1, 2] : Fin 2 → Fin S1x1x2048.rank)
  concatenates_S1x1x2048_S1x1x2048_S2x1x2048_d0 : Shape.Concatenates [S1x1x2048, S1x1x2048] S2x1x2048 0
  transposes_S100x2048_S2048x100_1_0 : S100x2048.Transposes [1, 0] S2048x100
  bcast_S100_S1x100_1 : S100.BroadcastsInDim S1x100 (![1] : Fin 1 → Fin S1x100.rank)
  gather_S100x2048_S1x1_S1x2048_1_0_n_n_0_1_12048_wf : GatherDims.WF S100x2048 S1x1 S1x2048 [1] [0] [] [0] [] 1 ![1, 2048]
  dot_S1x4096_S4096x3_S1x3_1_0_0_1_n_n_wf : DotDims.WF S1x4096 S4096x3 S1x3 [1] [0] [0] [1] [] []
  dot_S1x4096_S4096x256_S1x256_1_0_0_1_n_n_wf : DotDims.WF S1x4096 S4096x256 S1x256 [1] [0] [0] [1] [] []
  dot_S1x2304_S1024x2304_S1x1024_1_1_0_0_n_n_wf : DotDims.WF S1x2304 S1024x2304 S1x1024 [1] [1] [0] [0] [] []
  dot_S1x2048_S1024x2048_S1x1024_1_1_0_0_n_n_wf : DotDims.WF S1x2048 S1024x2048 S1x1024 [1] [1] [0] [0] [] []
  dot_S1x2048_S2048x100_S1x100_1_0_0_1_n_n_wf : DotDims.WF S1x2048 S2048x100 S1x100 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2304.size a ≤ S1x2304.size a
  hwx0_0 : ∀ i : grid0.Coords, EltTy.bits .bf16 = 32 ∨ (Rect.block (s := S1x2304) S1x2304.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .bf16 = 32 ∨ (Rect.block (s := S1x2048) S1x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .bf16 = 32 ∨ (Rect.block (s := S1x2048) S1x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2304.size a ≤ S6144x2304.size a
  hwx0_3 : ∀ i : grid0.Coords, EltTy.bits .bf16 = 32 ∨ (Rect.block (s := S6144x2304) S1024x2304.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S6144x2048.size a
  hwx0_4 : ∀ i : grid0.Coords, EltTy.bits .bf16 = 32 ∨ (Rect.block (s := S6144x2048) S1024x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S6144x2048.size a
  hwx0_5 : ∀ i : grid0.Coords, EltTy.bits .bf16 = 32 ∨ (Rect.block (s := S6144x2048) S1024x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x6144.size a
  hwx0_6 : ∀ i : grid0.Coords, EltTy.bits .f32 = 32 ∨ (Rect.block (s := S1x6144) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x6144.size a
  hwx0_7 : ∀ i : grid0.Coords, EltTy.bits .f32 = 32 ∨ (Rect.block (s := S1x6144) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x6144.size a
  hwx0_8 : ∀ i : grid0.Coords, EltTy.bits .f32 = 32 ∨ (Rect.block (s := S1x6144) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x6144.size a
  hwx0_9 : ∀ i : grid0.Coords, EltTy.bits .f32 = 32 ∨ (Rect.block (s := S1x6144) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x6144.size a
  hwx0_10 : ∀ i : grid0.Coords, EltTy.bits .f32 = 32 ∨ (Rect.block (s := S1x6144) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x6144.size a
  hwx0_11 : ∀ i : grid0.Coords, EltTy.bits .f32 = 32 ∨ (Rect.block (s := S1x6144) S1x1024.size (cc0_transform_11 i) (hinb0_11 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .bf16 = 32 ∨ (Rect.block (s := S1x2048) S1x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S6144x2048.size a
  hwx1_1 : ∀ i : grid1.Coords, EltTy.bits .bf16 = 32 ∨ (Rect.block (s := S6144x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x6144.size a
  hwx1_2 : ∀ i : grid1.Coords, EltTy.bits .f32 = 32 ∨ (Rect.block (s := S1x6144) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x6144.size a
  hwx1_3 : ∀ i : grid1.Coords, EltTy.bits .f32 = 32 ∨ (Rect.block (s := S1x6144) S1x1024.size (cc1_transform_3 i) (hinb1_3 i)).WholeWords (EltTy.packing .f32)

variable [Facts₀]

def gather_S100x2048_S1x1_S1x2048_1_0_n_n_0_1_12048 : GatherDims S100x2048 S1x1 S1x2048 where
  offsetDims := [1]
  collapsedSliceDims := [0]
  operandBatchingDims := []
  startIndicesBatchingDims := []
  startIndexMap := [0]
  indexVectorDim := 1
  sliceSizes := ![1, 2048]
  wf := gather_S100x2048_S1x1_S1x2048_1_0_n_n_0_1_12048_wf
def dot_S1x4096_S4096x3_S1x3_1_0_0_1_n_n : DotDims S1x4096 S4096x3 S1x3 where
  lhsContracting := [1]
  rhsContracting := [0]
  lhsNonContracting := [0]
  rhsNonContracting := [1]
  lhsBatch := []
  rhsBatch := []
  wf := dot_S1x4096_S4096x3_S1x3_1_0_0_1_n_n_wf
def dot_S1x4096_S4096x256_S1x256_1_0_0_1_n_n : DotDims S1x4096 S4096x256 S1x256 where
  lhsContracting := [1]
  rhsContracting := [0]
  lhsNonContracting := [0]
  rhsNonContracting := [1]
  lhsBatch := []
  rhsBatch := []
  wf := dot_S1x4096_S4096x256_S1x256_1_0_0_1_n_n_wf
def dot_S1x2304_S1024x2304_S1x1024_1_1_0_0_n_n : DotDims S1x2304 S1024x2304 S1x1024 where
  lhsContracting := [1]
  rhsContracting := [1]
  lhsNonContracting := [0]
  rhsNonContracting := [0]
  lhsBatch := []
  rhsBatch := []
  wf := dot_S1x2304_S1024x2304_S1x1024_1_1_0_0_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x2048_S2048x100_S1x100_1_0_0_1_n_n : DotDims S1x2048 S2048x100 S1x100 where
  lhsContracting := [1]
  rhsContracting := [0]
  lhsNonContracting := [0]
  rhsNonContracting := [1]
  lhsBatch := []
  rhsBatch := []
  wf := dot_S1x2048_S2048x100_S1x100_1_0_0_1_n_n_wf

abbrev win0_0 : Pipeline.Window sig grid0 :=
  Pipeline.Window.ofSpec (Memref.whole main_v57) S1x2304.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v58) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v59) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60) S1024x2304.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v61) S1024x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v62) S1024x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v64) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v65) S1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v66) S1x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v67_0) S1x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v67_1) S1x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v67_2) S1x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v96) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v63) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v97) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v98) S1x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1 : Shape := ⟨1, ![1]⟩
abbrev S2x1x2048 : Shape := ⟨3, ![2, 1, 2048]⟩
abbrev S1x200x256 : Shape := ⟨3, ![1, 200, 256]⟩
abbrev S100x2048 : Shape := ⟨2, ![100, 2048]⟩
abbrev S3x4096 : Shape := ⟨2, ![3, 4096]⟩
abbrev S3 : Shape := ⟨1, ![3]⟩
abbrev S256x4096 : Shape := ⟨2, ![256, 4096]⟩
abbrev S256 : Shape := ⟨1, ![256]⟩
abbrev S6144x2304 : Shape := ⟨2, ![6144, 2304]⟩
abbrev S6144x2048 : Shape := ⟨2, ![6144, 2048]⟩
abbrev S6144 : Shape := ⟨1, ![6144]⟩
abbrev S100 : Shape := ⟨1, ![100]⟩
abbrev S_ : Shape := ⟨0, ![]⟩
abbrev S1x1 : Shape := ⟨2, ![1, 1]⟩
abbrev S1x2048 : Shape := ⟨2, ![1, 2048]⟩
abbrev S1x1x2048 : Shape := ⟨3, ![1, 1, 2048]⟩
abbrev S1x2x2048 : Shape := ⟨3, ![1, 2, 2048]⟩
abbrev S1x4096 : Shape := ⟨2, ![1, 4096]⟩
abbrev S4096x3 : Shape := ⟨2, ![4096, 3]⟩
abbrev S1x3 : Shape := ⟨2, ![1, 3]⟩
abbrev S4096x256 : Shape := ⟨2, ![4096, 256]⟩
abbrev S1x256 : Shape := ⟨2, ![1, 256]⟩
abbrev S1x1x256 : Shape := ⟨3, ![1, 1, 256]⟩
abbrev S1x199x256 : Shape := ⟨3, ![1, 199, 256]⟩
abbrev S1x1x2304 : Shape := ⟨3, ![1, 1, 2304]⟩
abbrev S1x2304 : Shape := ⟨2, ![1, 2304]⟩
abbrev S2304x6144 : Shape := ⟨2, ![2304, 6144]⟩
abbrev S1x6144 : Shape := ⟨2, ![1, 6144]⟩
abbrev S2048x6144 : Shape := ⟨2, ![2048, 6144]⟩
abbrev S2048x100 : Shape := ⟨2, ![2048, 100]⟩
abbrev S1x100 : Shape := ⟨2, ![1, 100]⟩

abbrev nBuf : Space → Nat
  | .hbm => 170
  | .vmem => 0
  | .smem => 0
  | _ => 0

abbrev hbmTy0_0 (i : Nat) : BufTy := match i % 128 with
  | 0 => ⟨S1, .i32⟩
  | 1 => ⟨S2x1x2048, .f32⟩
  | 2 => ⟨S1x200x256, .f32⟩
  | 3 => ⟨S100x2048, .f32⟩
  | 4 => ⟨S3x4096, .f32⟩
  | 5 => ⟨S3, .f32⟩
  | 6 => ⟨S256x4096, .f32⟩
  | 7 => ⟨S256, .f32⟩
  | 8 => ⟨S6144x2304, .f32⟩
  | 9 => ⟨S6144x2048, .f32⟩
  | 10 => ⟨S6144, .f32⟩
  | 11 => ⟨S6144, .f32⟩
  | 12 => ⟨S6144x2048, .f32⟩
  | 13 => ⟨S6144x2048, .f32⟩
  | 14 => ⟨S6144, .f32⟩
  | 15 => ⟨S6144, .f32⟩
  | 16 => ⟨S100x2048, .f32⟩
  | 17 => ⟨S100, .f32⟩
  | 18 => ⟨S_, .i32⟩
  | 19 => ⟨S1, .i32⟩
  | 20 => ⟨S1, .i1⟩
  | 21 => ⟨S_, .i32⟩
  | 22 => ⟨S1, .i32⟩
  | 23 => ⟨S1, .i32⟩
  | 24 => ⟨S1, .i32⟩
  | 25 => ⟨S1x1, .i32⟩
  | 26 => ⟨S1x2048, .f32⟩
  | 27 => ⟨S1x1x2048, .f32⟩
  | 28 => ⟨S1x2x2048, .f32⟩
  | 29 => ⟨S1x4096, .f32⟩
  | 30 => ⟨S4096x3, .f32⟩
  | 31 => ⟨S1x3, .f32⟩
  | 32 => ⟨S1x3, .f32⟩
  | 33 => ⟨S1x3, .f32⟩
  | 34 => ⟨S_, .f32⟩
  | 35 => ⟨S1, .f32⟩
  | 36 => ⟨S_, .f32⟩
  | 37 => ⟨S1, .f32⟩
  | 38 => ⟨S1, .f32⟩
  | 39 => ⟨S1x1, .f32⟩
  | 40 => ⟨S1x3, .f32⟩
  | 41 => ⟨S1x3, .f32⟩
  | 42 => ⟨S1x3, .f32⟩
  | 43 => ⟨S_, .f32⟩
  | 44 => ⟨S1, .f32⟩
  | 45 => ⟨S1x1, .f32⟩
  | 46 => ⟨S1x3, .f32⟩
  | 47 => ⟨S1x3, .f32⟩
  | 48 => ⟨S4096x256, .f32⟩
  | 49 => ⟨S1x256, .f32⟩
  | 50 => ⟨S1x256, .f32⟩
  | 51 => ⟨S1x256, .f32⟩
  | 52 => ⟨S1x256, .f32⟩
  | 53 => ⟨S1x1x256, .f32⟩
  | 54 => ⟨S1x1, .f32⟩
  | 55 => ⟨S_, .f32⟩
  | 56 => ⟨S1x1, .f32⟩
  | 57 => ⟨S_, .f32⟩
  | 58 => ⟨S1x1, .f32⟩
  | 59 => ⟨S_, .f32⟩
  | 60 => ⟨S1x199x256, .f32⟩
  | 61 => ⟨S1x200x256, .f32⟩
  | 62 => ⟨S1x199x256, .f32⟩
  | 63 => ⟨S_, .f32⟩
  | 64 => ⟨S1x1x256, .f32⟩
  | 65 => ⟨S1x200x256, .f32⟩
  | 66 => ⟨S1x200x256, .f32⟩
  | 67 => ⟨S1x200x256, .f32⟩
  | 68 => ⟨S1x200x256, .f32⟩
  | 69 => ⟨S1x200x256, .f32⟩
  | 70 => ⟨S1x200x256, .f32⟩
  | 71 => ⟨S1x200x256, .f32⟩
  | 72 => ⟨S1x200x256, .f32⟩
  | 73 => ⟨S1x200x256, .f32⟩
  | 74 => ⟨S1x1x256, .f32⟩
  | 75 => ⟨S1x1x2304, .f32⟩
  | 76 => ⟨S1x2304, .f32⟩
  | 77 => ⟨S1x1x2048, .f32⟩
  | 78 => ⟨S1x2048, .f32⟩
  | 79 => ⟨S2304x6144, .f32⟩
  | 80 => ⟨S1x6144, .f32⟩
  | 81 => ⟨S1x6144, .f32⟩
  | 82 => ⟨S1x6144, .f32⟩
  | 83 => ⟨S2048x6144, .f32⟩
  | 84 => ⟨S1x6144, .f32⟩
  | 85 => ⟨S1x6144, .f32⟩
  | 86 => ⟨S1x6144, .f32⟩
  | 87 => ⟨S1x2048, .f32⟩
  | 88 => ⟨S1x2048, .f32⟩
  | 89 => ⟨S1x2048, .f32⟩
  | 90 => ⟨S1x2048, .f32⟩
  | 91 => ⟨S1x2048, .f32⟩
  | 92 => ⟨S1x2048, .f32⟩
  | 93 => ⟨S1x2048, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S1x2048, .f32⟩
  | 103 => ⟨S1x2048, .f32⟩
  | 104 => ⟨S1x2048, .f32⟩
  | 105 => ⟨S_, .f32⟩
  | 106 => ⟨S1x2048, .f32⟩
  | 107 => ⟨S1x2048, .f32⟩
  | 108 => ⟨S_, .f32⟩
  | 109 => ⟨S1x2048, .f32⟩
  | 110 => ⟨S1x2048, .f32⟩
  | 111 => ⟨S1x2048, .f32⟩
  | 112 => ⟨S1x2048, .f32⟩
  | 113 => ⟨S1x2048, .f32⟩
  | 114 => ⟨S_, .f32⟩
  | 115 => ⟨S1x2048, .f32⟩
  | 116 => ⟨S1x2048, .f32⟩
  | 117 => ⟨S1x2048, .f32⟩
  | 118 => ⟨S1x2048, .f32⟩
  | 119 => ⟨S1x2048, .f32⟩
  | 120 => ⟨S1x1x2048, .f32⟩
  | 121 => ⟨S1x2048, .f32⟩
  | 122 => ⟨S2048x6144, .f32⟩
  | 123 => ⟨S1x6144, .f32⟩
  | 124 => ⟨S1x6144, .f32⟩
  | 125 => ⟨S1x6144, .f32⟩
  | 126 => ⟨S2048x6144, .f32⟩
  | 127 => ⟨S1x6144, .f32⟩
  | _ => ⟨S1, .i32⟩

abbrev hbmTy0_1 (i : Nat) : BufTy := match i % 128 with
  | 0 => ⟨S1x6144, .f32⟩
  | 1 => ⟨S1x6144, .f32⟩
  | 2 => ⟨S1x2048, .f32⟩
  | 3 => ⟨S1x2048, .f32⟩
  | 4 => ⟨S1x2048, .f32⟩
  | 5 => ⟨S1x2048, .f32⟩
  | 6 => ⟨S1x2048, .f32⟩
  | 7 => ⟨S1x2048, .f32⟩
  | 8 => ⟨S1x2048, .f32⟩
  | 9 => ⟨S1x2048, .f32⟩
  | 10 => ⟨S1x2048, .f32⟩
  | 11 => ⟨S_, .f32⟩
  | 12 => ⟨S1x2048, .f32⟩
  | 13 => ⟨S1x2048, .f32⟩
  | 14 => ⟨S_, .f32⟩
  | 15 => ⟨S1x2048, .f32⟩
  | 16 => ⟨S1x2048, .f32⟩
  | 17 => ⟨S1x2048, .f32⟩
  | 18 => ⟨S1x2048, .f32⟩
  | 19 => ⟨S1x2048, .f32⟩
  | 20 => ⟨S_, .f32⟩
  | 21 => ⟨S1x2048, .f32⟩
  | 22 => ⟨S1x2048, .f32⟩
  | 23 => ⟨S_, .f32⟩
  | 24 => ⟨S1x2048, .f32⟩
  | 25 => ⟨S1x2048, .f32⟩
  | 26 => ⟨S1x2048, .f32⟩
  | 27 => ⟨S1x2048, .f32⟩
  | 28 => ⟨S1x2048, .f32⟩
  | 29 => ⟨S_, .f32⟩
  | 30 => ⟨S1x2048, .f32⟩
  | 31 => ⟨S1x2048, .f32⟩
  | 32 => ⟨S1x2048, .f32⟩
  | 33 => ⟨S1x2048, .f32⟩
  | 34 => ⟨S1x2048, .f32⟩
  | 35 => ⟨S1x1x2048, .f32⟩
  | 36 => ⟨S1x1x2048, .f32⟩
  | 37 => ⟨S2x1x2048, .f32⟩
  | 38 => ⟨S2048x100, .f32⟩
  | 39 => ⟨S1x100, .f32⟩
  | 40 => ⟨S1x100, .f32⟩
  | 41 => ⟨S1x100, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_4 : Ref sig .tc := ⟨.hbm, 96, rfl⟩
abbrev main_v72 : Ref sig .tc := ⟨.hbm, 97, rfl⟩
abbrev main_v73 : Ref sig .tc := ⟨.hbm, 98, rfl⟩
abbrev main_cst_5 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_6 : Ref sig .tc := ⟨.hbm, 105, rfl⟩
abbrev main_v79 : Ref sig .tc := ⟨.hbm, 106, rfl⟩
abbrev main_v80 : Ref sig .tc := ⟨.hbm, 107, rfl⟩
abbrev main_cst_7 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_8 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_9 : Ref sig .tc := ⟨.hbm, 139, rfl⟩
abbrev main_v110 : Ref sig .tc := ⟨.hbm, 140, rfl⟩
abbrev main_v111 : Ref sig .tc := ⟨.hbm, 141, rfl⟩
abbrev main_cst_10 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_11 : Ref sig .tc := ⟨.hbm, 148, rfl⟩
abbrev main_v117 : Ref sig .tc := ⟨.hbm, 149, rfl⟩
abbrev main_v118 : Ref sig .tc := ⟨.hbm, 150, rfl⟩
abbrev main_cst_12 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_13 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x2048_S1x1x2048 : S1x2048.ShapeCasts S1x1x2048
  transposes_S2x1x2048_S1x2x2048_1_0_2 : S2x1x2048.Transposes [1, 0, 2] S1x2x2048
  shapeCasts_S1x2x2048_S1x4096 : S1x2x2048.ShapeCasts S1x4096
  transposes_S3x4096_S4096x3_1_0 : S3x4096.Transposes [1, 0] S4096x3
  bcast_S3_S1x3_1 : S3.BroadcastsInDim S1x3 (![1] : Fin 1 → Fin S1x3.rank)
  reducesTo_S1x3_S1_d1 : S1x3.ReducesTo [1] S1
  h_S_ : 0 < S_.numel
  bcast_S1x1_S1x3_0_1 : S1x1.BroadcastsInDim S1x3 (![0, 1] : Fin 2 → Fin S1x3.rank)
  transposes_S256x4096_S4096x256_1_0 : S256x4096.Transposes [1, 0] S4096x256
  bcast_S256_S1x256_1 : S256.BroadcastsInDim S1x256 (![1] : Fin 1 → Fin S1x256.rank)
  shapeCasts_S1x256_S1x1x256 : S1x256.ShapeCasts S1x1x256
  slices_S1x3_S1x1_0_0 : S1x3.Slices ![0, 0] S1x1
  shapeCasts_S1x1_S_ : S1x1.ShapeCasts S_
  slices_S1x3_S1x1_0_1 : S1x3.Slices ![0, 1] S1x1
  slices_S1x3_S1x1_0_2 : S1x3.Slices ![0, 2] S1x1
  slices_S1x200x256_S1x199x256_0_0_0 : S1x200x256.Slices ![0, 0, 0] S1x199x256
  concatenates_S1x1x256_S1x199x256_S1x200x256_d1 : Shape.Concatenates [S1x1x256, S1x199x256] S1x200x256 1
  slices_S1x200x256_S1x199x256_0_1_0 : S1x200x256.Slices ![0, 1, 0] S1x199x256
  bcast_S_S1x1x256 : S_.BroadcastsInDim S1x1x256 (![] : Fin 0 → Fin S1x1x256.rank)
  concatenates_S1x199x256_S1x1x256_S1x200x256_d1 : Shape.Concatenates [S1x199x256, S1x1x256] S1x200x256 1
  bcast_S_S1x200x256 : S_.BroadcastsInDim S1x200x256 (![] : Fin 0 → Fin S1x200x256.rank)
  slices_S1x200x256_S1x1x256_0_0_0 : S1x200x256.Slices ![0, 0, 0] S1x1x256
  concatenates_S1x1x2048_S1x1x256_S1x1x2304_d2 : Shape.Concatenates [S1x1x2048, S1x1x256] S1x1x2304 2
  shapeCasts_S1x1x2304_S1x2304 : S1x1x2304.ShapeCasts S1x2304
  slices_S2x1x2048_S1x1x2048_0_0_0 : S2x1x2048.Slices ![0, 0, 0] S1x1x2048
  shapeCasts_S1x1x2048_S1x2048 : S1x1x2048.ShapeCasts S1x2048
  transposes_S6144x2304_S2304x6144_1_0 : S6144x2304.Transposes [1, 0] S2304x6144
  bcast_S6144_S1x6144_1 : S6144.BroadcastsInDim S1x6144 (![1] : Fin 1 → Fin S1x6144.rank)
  transposes_S6144x2048_S2048x6144_1_0 : S6144x2048.Transposes [1, 0] S2048x6144
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S_S1x2048 : S_.BroadcastsInDim S1x2048 (![] : Fin 0 → Fin S1x2048.rank)
  slices_S2x1x2048_S1x1x2048_1_0_0 : S2x1x2048.Slices ![1, 0, 0] S1x1x2048
  bcast_S1x2048_S1x1x2048_1_2 : S1x2048.BroadcastsInDim S1x1x2048 (![1, 2] : Fin 2 → Fin S1x1x2048.rank)
  concatenates_S1x1x2048_S1x1x2048_S2x1x2048_d0 : Shape.Concatenates [S1x1x2048, S1x1x2048] S2x1x2048 0
  transposes_S100x2048_S2048x100_1_0 : S100x2048.Transposes [1, 0] S2048x100
  bcast_S100_S1x100_1 : S100.BroadcastsInDim S1x100 (![1] : Fin 1 → Fin S1x100.rank)
  gather_S100x2048_S1x1_S1x2048_1_0_n_n_0_1_12048_wf : GatherDims.WF S100x2048 S1x1 S1x2048 [1] [0] [] [0] [] 1 ![1, 2048]
  dot_S1x4096_S4096x3_S1x3_1_0_0_1_n_n_wf : DotDims.WF S1x4096 S4096x3 S1x3 [1] [0] [0] [1] [] []
  dot_S1x4096_S4096x256_S1x256_1_0_0_1_n_n_wf : DotDims.WF S1x4096 S4096x256 S1x256 [1] [0] [0] [1] [] []
  dot_S1x2304_S2304x6144_S1x6144_1_0_0_1_n_n_wf : DotDims.WF S1x2304 S2304x6144 S1x6144 [1] [0] [0] [1] [] []
  dot_S1x2048_S2048x6144_S1x6144_1_0_0_1_n_n_wf : DotDims.WF S1x2048 S2048x6144 S1x6144 [1] [0] [0] [1] [] []
  dot_S1x2048_S2048x100_S1x100_1_0_0_1_n_n_wf : DotDims.WF S1x2048 S2048x100 S1x100 [1] [0] [0] [1] [] []

variable [Facts₀]

def gather_S100x2048_S1x1_S1x2048_1_0_n_n_0_1_12048 : GatherDims S100x2048 S1x1 S1x2048 where
  offsetDims := [1]
  collapsedSliceDims := [0]
  operandBatchingDims := []
  startIndicesBatchingDims := []
  startIndexMap := [0]
  indexVectorDim := 1
  sliceSizes := ![1, 2048]
  wf := gather_S100x2048_S1x1_S1x2048_1_0_n_n_0_1_12048_wf
def dot_S1x4096_S4096x3_S1x3_1_0_0_1_n_n : DotDims S1x4096 S4096x3 S1x3 where
  lhsContracting := [1]
  rhsContracting := [0]
  lhsNonContracting := [0]
  rhsNonContracting := [1]
  lhsBatch := []
  rhsBatch := []
  wf := dot_S1x4096_S4096x3_S1x3_1_0_0_1_n_n_wf
def dot_S1x4096_S4096x256_S1x256_1_0_0_1_n_n : DotDims S1x4096 S4096x256 S1x256 where
  lhsContracting := [1]
  rhsContracting := [0]
  lhsNonContracting := [0]
  rhsNonContracting := [1]
  lhsBatch := []
  rhsBatch := []
  wf := dot_S1x4096_S4096x256_S1x256_1_0_0_1_n_n_wf
def dot_S1x2304_S2304x6144_S1x6144_1_0_0_1_n_n : DotDims S1x2304 S2304x6144 S1x6144 where
  lhsContracting := [1]
  rhsContracting := [0]
  lhsNonContracting := [0]
  rhsNonContracting := [1]
  lhsBatch := []
  rhsBatch := []
  wf := dot_S1x2304_S2304x6144_S1x6144_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x100_S1x100_1_0_0_1_n_n : DotDims S1x2048 S2048x100 S1x100 where
  lhsContracting := [1]
  rhsContracting := [0]
  lhsNonContracting := [0]
  rhsNonContracting := [1]
  lhsBatch := []
  rhsBatch := []
  wf := dot_S1x2048_S2048x100_S1x100_1_0_0_1_n_n_wf

class Facts : Prop extends Facts₀ where

variable [Facts]
-- ==== Proof.KernelRun.lean ====
/-
  The kernel program's run with its three results NAMED.

  The program is five segments: a stretch of host operations, the first pallas_call (three gate rows), a second
  stretch (the first cell's combine), the second pallas_call (one gate row), a last stretch (the second cell's
  combine, the stacked hidden state, the output projection). The buffer contents at the segment boundaries are the
  fold `W0 … W5` of the generated frame: a host stretch applies its operations in order, a pallas_call leaves its
  output arrays at what its grid points write back and every other buffer as it found it. Every weakly fair
  execution terminates with EVERY unscoped buffer at the last boundary's contents `W5`; the frame claim keeps of
  that only the argument arrays, and here the three result buffers are kept too — each at `W5` read at its
  reference, which the value proof then computes stretch by stretch.
-/
import proofs.«168239_j3753801416872_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the logits, the stacked hidden state
    and the updated stack each at the last boundary's contents, and the argument arrays as launched. -/
theorem run : θ_run defs (onTc (τ := τ) (main (F := F))) ⟨m, fun _ => 0, ρ⟩ (fun r => ∀ c : Dev nD,
      r.2.mem ((c.tc : Thread nD τ).loc main_v133) = W5 m ρ c (Proc.devRef .tc main_v133)
      ∧ r.2.mem ((c.tc : Thread nD τ).loc main_v129) = W5 m ρ c (Proc.devRef .tc main_v129)
      ∧ r.2.mem ((c.tc : Thread nD τ).loc main_v49) = W5 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v133 (by decide)),
       h c _ (mem_uc main_v129 (by decide)),
       h c _ (mem_uc main_v49 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c)⟩)

end Cert.KernelIdeal.Results

end
-- ==== Proof.CellSpec.lean ====
/-
  The host arithmetic both programs share after the gate rows, as functions of arrays.

  A GRU cell at batch size one takes the two gate rows gi = x · Wihᵀ + bih and gh = h · Whhᵀ + bhh (each 1 × 6144:
  the reset, update and candidate thirds of 2048 lanes) and the old hidden row h (1 × 2048):
      r  = 1 / (1 + exp (-(gi[0:2048] + gh[0:2048])))
      z  = 1 / (1 + exp (-(gi[2048:4096] + gh[2048:4096])))
      n  = tanh (gi[4096:6144] + r * gh[4096:6144])
      h' = (1 - z) * n + z * h.
  `combine` is that, operation for operation as both programs spell it; `logits` is the output projection
  h · Wdᵀ + bd and `hidden` the two new hidden rows stacked. Nothing is proved about them: the kernel program and
  the reference apply these same operations, and the value proof only has to show they are applied to equal gate rows.
-/
import proofs.«168239_j3753801416872_2_alg».proof.Proof.Gen.KernelIdeal

noncomputable section

namespace Cert.KernelIdeal.Cell

open Cert.KernelIdeal Cert.KernelIdeal.Gen Idealize.ShloMosaic

variable {F : FTy → Type} [FloatOps F]

/-- The new hidden row of one GRU cell from its two gate rows and the old hidden row. -/
def combine (gi gh : FVec F S1x6144 .f32) (h : FVec F S1x2048 .f32) : FVec F S1x2048 .f32 :=
  addf (mulf (subf (broadcastInDim S1x2048 ![] bcast_S_S1x2048 (constant S_ .f32 0x3F800000#32)) (Host.divf (broadcastInDim S1x2048 ![] bcast_S_S1x2048 (constant S_ .f32 0x3F800000#32)) (addf (broadcastInDim S1x2048 ![] bcast_S_S1x2048 (constant S_ .f32 0x3F800000#32)) (Host.exp (Host.negf (addf (extractStridedSlice S1x2048 ![0, 2048] gi slices_S1x6144_S1x2048_0_2048) (extractStridedSlice S1x2048 ![0, 2048] gh slices_S1x6144_S1x2048_0_2048))))))) (Host.tanh (addf (extractStridedSlice S1x2048 ![0, 4096] gi slices_S1x6144_S1x2048_0_4096) (mulf (Host.divf (broadcastInDim S1x2048 ![] bcast_S_S1x2048 (constant S_ .f32 0x3F800000#32)) (addf (broadcastInDim S1x2048 ![] bcast_S_S1x2048 (constant S_ .f32 0x3F800000#32)) (Host.exp (Host.negf (addf (extractStridedSlice S1x2048 ![0, 0] gi slices_S1x6144_S1x2048_0_0) (extractStridedSlice S1x2048 ![0, 0] gh slices_S1x6144_S1x2048_0_0)))))) (extractStridedSlice S1x2048 ![0, 4096] gh slices_S1x6144_S1x2048_0_4096))))) (mulf (Host.divf (broadcastInDim S1x2048 ![] bcast_S_S1x2048 (constant S_ .f32 0x3F800000#32)) (addf (broadcastInDim S1x2048 ![] bcast_S_S1x2048 (constant S_ .f32 0x3F800000#32)) (Host.exp (Host.negf (addf (extractStridedSlice S1x2048 ![0, 2048] gi slices_S1x6144_S1x2048_0_2048) (extractStridedSlice S1x2048 ![0, 2048] gh slices_S1x6144_S1x2048_0_2048)))))) h)

/-- The output projection of the second cell's new hidden row. -/
def logits (h : FVec F S1x2048 .f32) (wd : FVec F S100x2048 .f32) (bd : FVec F S100 .f32) : FVec F S1x100 .f32 :=
  addf (Host.dotGeneral dot_S1x2048_S2048x100_S1x100_1_0_0_1_n_n none h (transpose S2048x100 [1, 0] wd transposes_S100x2048_S2048x100_1_0)) (broadcastInDim S1x100 ![1] bcast_S100_S1x100_1 bd)

/-- The two cells' new hidden rows, stacked. -/
def hidden (h0 h1 : FVec F S1x2048 .f32) : FVec F S2x1x2048 .f32 :=
  concatenate S2x1x2048 0 [⟨S1x1x2048, broadcastInDim S1x1x2048 ![1, 2] bcast_S1x2048_S1x1x2048_1_2 h0⟩, ⟨S1x1x2048, broadcastInDim S1x1x2048 ![1, 2] bcast_S1x2048_S1x1x2048_1_2 h1⟩] concatenates_S1x1x2048_S1x1x2048_S2x1x2048_d0

end Cert.KernelIdeal.Cell

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowDot.lean ====
/-
  A matrix product against a row-major weight, read at an index.

  The dimension numbers of an [a, c] × [b, c] → [a, b] product contract axis 1 of BOTH operands and have no batch
  axis: the right operand is a stack of b rows of length c, and result entry (p, q) is the inner product of the left
  operand's row p with the right operand's row q. At result index (p, q) and contraction position k the left operand
  is read at (p, k) and the right operand at (q, k), so the sum over the contraction shape's one-axis index set is
  the sum over k : Fin c of lhs (p, k) * rhs (q, k) — in any commutative additive monoid with a product, the
  extended reals included. The statement is over variable extents; a printed record with these six lists is this
  one by reflexivity.
-/
import Idealize.ShloMosaic.Lib.ValueIdx
import Idealize.ShloMosaic.PureOps.Ideal.Laws

noncomputable section

namespace Cert.Lib.RowDot

open Idealize.ShloMosaic Idealize.ShloMosaic.ValueIdx
open scoped BigOperators

variable {a c b : Nat}

/-- The dimension numbers of the product [a, c] × [b, c] → [a, b] that contracts the second axis of both. -/
abbrev dims (wf : DotDims.WF ⟨2, ![a, c]⟩ ⟨2, ![b, c]⟩ ⟨2, ![a, b]⟩ [1] [1] [0] [0] [] []) :
    DotDims ⟨2, ![a, c]⟩ ⟨2, ![b, c]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, c]⟩ ⟨2, ![b, c]⟩ ⟨2, ![a, b]⟩ [1] [1] [0] [0] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the result's column. -/
theorem rhs_row (i : (⟨2, ![a, b]⟩ : Shape).Idx) (k : (dims wf).contr.Idx) :
    ((dims wf).rhsIdx i k 0).val = (i 1).val := by
  unfold DotDims.rhsIdx
  rw [dif_neg (show ¬(0 : Fin 2) ∈ (dims wf).rhsBatch from List.not_mem_nil),
    dif_pos (show (0 : Fin 2) ∈ (dims wf).rhsNonContracting from List.mem_singleton.mpr rfl)]
  rfl

/-- The right operand's column is the contraction position. -/
theorem rhs_col (i : (⟨2, ![a, b]⟩ : Shape).Idx) (k : (dims wf).contr.Idx) :
    ((dims wf).rhsIdx i k 1).val = (k ⟨0, Nat.one_pos⟩).val :=
  (dims wf).rhsIdx_val_of_single rfl i k

/-- The product's sum at (p, q): over k, the left operand at (p, k) times the right operand at (q, k). -/
theorem sum_apply {M : Type*} [AddCommMonoid M] [Mul M] (lhs : (⟨2, ![a, c]⟩ : Shape).Idx → M)
    (rhs : (⟨2, ![b, c]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 q k) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 q k :=
    funext fun ax => Fin.ext (by
      match ax with
      | ⟨0, _⟩ => exact rhs_row wf _ _
      | ⟨1, _⟩ => exact (rhs_col wf _ _).trans hk)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![b, c]⟩ φ₂) (p : Fin a) (q : Fin b) :
    matmul (dims wf) prec lhs rhs (constant ⟨2, ![a, b]⟩ .f32 0x00000000#32) (ix2 p q)
      = ∑ k : Fin c, lhs (ix2 p k) * rhs (ix2 q k) :=
  (Ideal.matmul_constant_zero_apply (dims wf) prec lhs rhs (ix2 p q)).trans (sum_apply wf lhs rhs p q)

end Cert.Lib.RowDot

end
-- ==== Proof.GateSpec.lean ====
/-
  One gate pre-activation of a GRU cell at batch size one, as a function of arrays: for an input row x of length K,
  a row-major weight W of N rows of length K and a bias row b of length N,

      gate x W b (0, q) = (∑ k, x (0, k) * W (q, k)) + b (0, q),

  that is x · Wᵀ + b. Two spellings of it are read at an index here, both over the extended reals:
  * the host's: a plain product of x with the TRANSPOSED weight, plus the bias row (`host_gate`);
  * a kernel body's: a product that contracts the second axis of both operands, into a zero accumulator, of x with
    a BLOCK of B consecutive rows of W, plus the matching block of the bias row (`body_gate`) — entry (0, q) of the
    block is the same sum over k with the block's row q.
  Neither needs more of the extended reals than that they are a commutative additive monoid with a product: the
  two spellings are the same sum, term by term.
-/
import Idealize.ShloMosaic.Lib.ValueIdx
import Idealize.ShloMosaic.Lib.ValueLayout
import Idealize.ShloMosaic.Lib.Pipeline.Value
import Idealize.ShloMosaic.PureOps.Ideal.Laws
import proofs.«168239_j3753801416872_2_alg».proof.Proof.LibPlainDot
import proofs.«168239_j3753801416872_2_alg».proof.Proof.LibRowDot

noncomputable section

namespace Cert.Gru

open Idealize.ShloMosaic Idealize.ShloMosaic.ValueIdx
open scoped BigOperators

variable {K N B : Nat}

/-- Entry `q` of `x · Wᵀ + b`. -/
def gateAt (x : (⟨2, ![1, K]⟩ : Shape).Idx → EReal) (w : (⟨2, ![N, K]⟩ : Shape).Idx → EReal)
    (b : (⟨2, ![1, N]⟩ : Shape).Idx → EReal) (q : Fin N) : EReal :=
  (∑ k : Fin K, x (ix2 (0 : Fin 1) k) * w (ix2 q k)) + b (ix2 (0 : Fin 1) q)

/-- `x · Wᵀ + b` as a 1 × N array. -/
def gate (x : (⟨2, ![1, K]⟩ : Shape).Idx → EReal) (w : (⟨2, ![N, K]⟩ : Shape).Idx → EReal)
    (b : (⟨2, ![1, N]⟩ : Shape).Idx → EReal) : (⟨2, ![1, N]⟩ : Shape).Idx → EReal :=
  fun i => gateAt x w b ⟨(i 1).val, idx2_lt1 i⟩

theorem gate_apply (x : (⟨2, ![1, K]⟩ : Shape).Idx → EReal) (w : (⟨2, ![N, K]⟩ : Shape).Idx → EReal)
    (b : (⟨2, ![1, N]⟩ : Shape).Idx → EReal) (p : Fin 1) (q : Fin N) :
    gate x w b (ix2 p q) = (∑ k : Fin K, x (ix2 (0 : Fin 1) k) * w (ix2 q k)) + b (ix2 (0 : Fin 1) q) := rfl

/-- The host's spelling: the plain product of the row with the transposed weight, plus the bias row. -/
theorem host_gate (wf : DotDims.WF ⟨2, ![1, K]⟩ ⟨2, ![K, N]⟩ ⟨2, ![1, N]⟩ [1] [0] [0] [1] [] [])
    (ht : (⟨2, ![N, K]⟩ : Shape).Transposes [1, 0] ⟨2, ![K, N]⟩)
    (x : FVec Ideal ⟨2, ![1, K]⟩ .f32) (w : FVec Ideal ⟨2, ![N, K]⟩ .f32) (b : FVec Ideal ⟨2, ![1, N]⟩ .f32) :
    addf (Host.dotGeneral (Cert.Lib.PlainDot.dims wf) none x (transpose ⟨2, ![K, N]⟩ [1, 0] w ht)) b
      = gate x w b := by
  funext i
  obtain ⟨p, q, rfl⟩ : ∃ (p : Fin 1) (q : Fin N), i = ix2 p q := ⟨i 0, i 1, eq_ix2 i⟩
  have hp : p = 0 := Subsingleton.elim _ _
  subst hp
  rw [addf_apply, Cert.Lib.PlainDot.dotGeneral_apply, gate_apply]
  exact congrArg₂ (· + ·) (Finset.sum_congr rfl fun k _ => congrArg₂ (· * ·) rfl (transpose_ix2_apply w ht k q)) rfl

/-- A kernel body's spelling, on a block of `B` rows of the weight: entry (p, q) of the product into the zero
    accumulator plus the bias block is the sum over k of the row times the block's row q, plus the bias entry. -/
theorem body_gate (wf : DotDims.WF ⟨2, ![1, K]⟩ ⟨2, ![B, K]⟩ ⟨2, ![1, B]⟩ [1] [1] [0] [0] [] []) {φ₁ φ₂ : FTy}
    (x : FVec Ideal ⟨2, ![1, K]⟩ φ₁) (w : FVec Ideal ⟨2, ![B, K]⟩ φ₂) (b : FVec Ideal ⟨2, ![1, B]⟩ .f32)
    (p : Fin 1) (q : Fin B) :
    addf (matmul (Cert.Lib.RowDot.dims wf) none x w (constant ⟨2, ![1, B]⟩ .f32 0x00000000#32)) b (ix2 p q)
      = (∑ k : Fin K, x (ix2 p k) * w (ix2 q k)) + b (ix2 p q) := by
  rw [addf_apply, Cert.Lib.RowDot.matmul_zero_apply]

end Cert.Gru

end
-- ==== Proof.ProgramSpec.lean ====
/-
  What one decoder step computes, as functions of the contents `U` of the argument buffers at launch, over the
  extended reals.

  The first stretch of host operations is the same in both programs: the embedding row of the input token, the
  stack controls (a softmax of an affine map of the two old hidden rows), the pushed / popped / kept stack blended
  by the controls, and the cell input x = [embedding row, top of the new stack] (1 × 2304). Those values are named
  here by what that stretch leaves in their buffers (`xIn`, `hOld0`, `hOld1`, `stackNew`) — the fold of the stretch's
  operations over `U`, never opened. On top of them the step is two GRU cells and a projection:

      hNew0 = combine (xIn · Wih0ᵀ + bih0) (hOld0 · Whh0ᵀ + bhh0) hOld0
      hNew1 = combine (hNew0 · Wih1ᵀ + bih1) (hOld1 · Whh1ᵀ + bhh1) hOld1
      logits = hNew1 · Wdᵀ + bd,   hidden = [hNew0, hNew1],   stack = stackNew.

  The kernel program computes the four gate rows in two pallas_calls over row blocks of bf16 copies of the operands
  (a change of float format is the identity on the extended reals); the reference computes each as one host
  product with the transposed weight. Both are shown to end at these functions.
-/
import proofs.«168239_j3753801416872_2_alg».proof.Proof.Gen.KernelIdeal.Launch
import proofs.«168239_j3753801416872_2_alg».proof.Proof.CellSpec
import proofs.«168239_j3753801416872_2_alg».proof.Proof.GateSpec
import Idealize.ShloMosaic.Lib.StableHlo.Run

noncomputable section

namespace Cert.KernelIdeal.Spec

open Cert.KernelIdeal Cert.KernelIdeal.Gen Cert.KernelIdeal.Cell Cert.Gru
open Idealize.ShloMosaic Idealize.ShloMosaic.TcCoe Idealize.SL.Sem Idealize.ShloMosaic.StableHlo

variable (U : Valuation τ sig (Elt Ideal))

/-- The first cell's input row: the embedding row beside the top row of the new stack. -/
def xIn : FVec Ideal S1x2304 .f32 := after hostOps0 U (Proc.devRef .tc main_v52)
/-- The first cell's old hidden row. -/
def hOld0 : FVec Ideal S1x2048 .f32 := after hostOps0 U (Proc.devRef .tc main_v54)
/-- The second cell's old hidden row. -/
def hOld1 : FVec Ideal S1x2048 .f32 := after hostOps0 U (Proc.devRef .tc main_v56)
/-- The updated stack. -/
def stackNew : FVec Ideal S1x200x256 .f32 := after hostOps0 U (Proc.devRef .tc main_v49)

/-- A bias vector as a row. -/
def biasRow (b : FVec Ideal S6144 .f32) : FVec Ideal S1x6144 .f32 := shapeCast S1x6144 b shapeCasts_S6144_S1x6144

/-- The first cell's input gate row. -/
def gi0 : FVec Ideal S1x6144 .f32 :=
  gate (K := 2304) (N := 6144) (xIn U) (U (Proc.devRef .tc main_arg8)) (biasRow (U (Proc.devRef .tc main_arg10)))
/-- The first cell's hidden gate row. -/
def gh0 : FVec Ideal S1x6144 .f32 :=
  gate (K := 2048) (N := 6144) (hOld0 U) (U (Proc.devRef .tc main_arg9)) (biasRow (U (Proc.devRef .tc main_arg11)))
/-- The first cell's new hidden row. -/
def hNew0 : FVec Ideal S1x2048 .f32 := combine (gi0 U) (gh0 U) (hOld0 U)
/-- The second cell's input gate row. -/
def gi1 : FVec Ideal S1x6144 .f32 :=
  gate (K := 2048) (N := 6144) (hNew0 U) (U (Proc.devRef .tc main_arg12)) (biasRow (U (Proc.devRef .tc main_arg14)))
/-- The second cell's hidden gate row. -/
def gh1 : FVec Ideal S1x6144 .f32 :=
  gate (K := 2048) (N := 6144) (hOld1 U) (U (Proc.devRef .tc main_arg13)) (biasRow (U (Proc.devRef .tc main_arg15)))
/-- The second cell's new hidden row. -/
def hNew1 : FVec Ideal S1x2048 .f32 := combine (gi1 U) (gh1 U) (hOld1 U)
/-- The logits. -/
def outLogits : FVec Ideal S1x100 .f32 :=
  logits (hNew1 U) (U (Proc.devRef .tc main_arg16)) (U (Proc.devRef .tc main_arg17))
/-- The new hidden state. -/
def outHidden : FVec Ideal S2x1x2048 .f32 := hidden (hNew0 U) (hNew1 U)

end Cert.KernelIdeal.Spec

end
-- ==== Proof.Stretch0.lean ====
/-
  The first stretch of host operations (everything before the first pallas_call), read at the buffers the later
  segments use, from ANY contents `U` of the buffers at its start.

  The stretch computes the embedding row, the stack update and the cell input x (1 × 2304), takes the two old
  hidden rows out of the hidden state, narrows x, the hidden rows and the four weights to bf16, and reshapes three
  bias vectors to rows. Each lemma says what ONE buffer holds after the stretch, relative to the buffers it was
  computed from: a narrowed copy is the narrowing of what the stretch leaves in its source, a bias row is the
  reshape of the argument vector, and an argument array the stretch does not write is what it was.
-/
import proofs.«168239_j3753801416872_2_alg».proof.Proof.Gen.KernelIdeal.Launch
import proofs.«168239_j3753801416872_2_alg».proof.Proof.CellSpec
import Idealize.ShloMosaic.Lib.StableHlo.Run

noncomputable section

namespace Cert.KernelIdeal.Stretch0

open Cert.KernelIdeal Cert.KernelIdeal.Gen Cert.KernelIdeal.Cell
open Idealize.ShloMosaic Idealize.ShloMosaic.TcCoe Idealize.SL.Sem Idealize.ShloMosaic.StableHlo

variable {F : FTy → Type} [FloatOps F] (U : Valuation τ sig (Elt F))

set_option maxRecDepth 8192 in
set_option maxHeartbeats 4000000 in
/-- The narrowed cell input is the narrowing of the cell input. -/
theorem x_bf16 : after hostOps0 U (Proc.devRef .tc main_v57) = truncf .bf16 ((after hostOps0 U (Proc.devRef .tc main_v52) : FVec F S1x2304 .f32)) bitsLt_bf16_f32 := by
  after_results_simp <;> rfl

set_option maxRecDepth 8192 in
set_option maxHeartbeats 4000000 in
/-- The narrowed first hidden row is the narrowing of the first hidden row. -/
theorem h0_bf16 : after hostOps0 U (Proc.devRef .tc main_v58) = truncf .bf16 ((after hostOps0 U (Proc.devRef .tc main_v54) : FVec F S1x2048 .f32)) bitsLt_bf16_f32 := by
  after_results_simp <;> rfl

set_option maxRecDepth 8192 in
set_option maxHeartbeats 4000000 in
/-- The narrowed second hidden row is the narrowing of the second hidden row. -/
theorem h1_bf16 : after hostOps0 U (Proc.devRef .tc main_v59) = truncf .bf16 ((after hostOps0 U (Proc.devRef .tc main_v56) : FVec F S1x2048 .f32)) bitsLt_bf16_f32 := by
  after_results_simp <;> rfl

set_option maxRecDepth 8192 in
set_option maxHeartbeats 4000000 in
/-- The narrowed input weight of cell 0. -/
theorem wih0_bf16 : after hostOps0 U (Proc.devRef .tc main_v60) = truncf .bf16 ((U (Proc.devRef .tc main_arg8) : FVec F S6144x2304 .f32)) bitsLt_bf16_f32 := by
  after_results_simp <;> rfl

set_option maxRecDepth 8192 in
set_option maxHeartbeats 4000000 in
/-- The narrowed hidden weight of cell 0. -/
theorem whh0_bf16 : after hostOps0 U (Proc.devRef .tc main_v61) = truncf .bf16 ((U (Proc.devRef .tc main_arg9) : FVec F S6144x2048 .f32)) bitsLt_bf16_f32 := by
  after_results_simp <;> rfl

set_option maxRecDepth 8192 in
set_option maxHeartbeats 4000000 in
/-- The narrowed hidden weight of cell 1. -/
theorem whh1_bf16 : after hostOps0 U (Proc.devRef .tc main_v62) = truncf .bf16 ((U (Proc.devRef .tc main_arg13) : FVec F S6144x2048 .f32)) bitsLt_bf16_f32 := by
  after_results_simp <;> rfl

set_option maxRecDepth 8192 in
set_option maxHeartbeats 4000000 in
/-- The narrowed input weight of cell 1. -/
theorem wih1_bf16 : after hostOps0 U (Proc.devRef .tc main_v63) = truncf .bf16 ((U (Proc.devRef .tc main_arg12) : FVec F S6144x2048 .f32)) bitsLt_bf16_f32 := by
  after_results_simp <;> rfl

set_option maxRecDepth 8192 in
set_option maxHeartbeats 4000000 in
/-- The input bias of cell 0 as a row. -/
theorem bih0_row : after hostOps0 U (Proc.devRef .tc main_v64) = shapeCast S1x6144 (U (Proc.devRef .tc main_arg10) : FVec F S6144 .f32) shapeCasts_S6144_S1x6144 := by
  after_results_simp <;> rfl

set_option maxRecDepth 8192 in
set_option maxHeartbeats 4000000 in
/-- The hidden bias of cell 0 as a row. -/
theorem bhh0_row : after hostOps0 U (Proc.devRef .tc main_v65) = shapeCast S1x6144 (U (Proc.devRef .tc main_arg11) : FVec F S6144 .f32) shapeCasts_S6144_S1x6144 := by
  after_results_simp <;> rfl

set_option maxRecDepth 8192 in
set_option maxHeartbeats 4000000 in
/-- The hidden bias of cell 1 as a row. -/
theorem bhh1_row : after hostOps0 U (Proc.devRef .tc main_v66) = shapeCast S1x6144 (U (Proc.devRef .tc main_arg15) : FVec F S6144 .f32) shapeCasts_S6144_S1x6144 := by
  after_results_simp <;> rfl

set_option maxRecDepth 8192 in
set_option maxHeartbeats 4000000 in
/-- Argument 14 is not written. -/
theorem kept_arg14 : after hostOps0 U (Proc.devRef .tc main_arg14) = U (Proc.devRef .tc main_arg14) := by
  after_results_simp <;> rfl

set_option maxRecDepth 8192 in
set_option maxHeartbeats 4000000 in
/-- Argument 16 is not written. -/
theorem kept_arg16 : after hostOps0 U (Proc.devRef .tc main_arg16) = U (Proc.devRef .tc main_arg16) := by
  after_results_simp <;> rfl

set_option maxRecDepth 8192 in
set_option maxHeartbeats 4000000 in
/-- Argument 17 is not written. -/
theorem kept_arg17 : after hostOps0 U (Proc.devRef .tc main_arg17) = U (Proc.devRef .tc main_arg17) := by
  after_results_simp <;> rfl

end Cert.KernelIdeal.Stretch0

end
-- ==== Proof.Stretch1.lean ====
/-
  The second stretch of host operations (between the two pallas_calls), from ANY contents `U` at its start: it
  combines the first pallas_call's gate rows gi0 and gh0 with the first old hidden row into the first cell's new
  hidden row, narrows that row to bf16 for the second pallas_call, and reshapes the second cell's input bias to a
  row. The buffers later segments still need (the third gate row, the second old hidden row, the narrowed weight,
  the updated stack, the output projection's arguments) are not written.
-/
import proofs.«168239_j3753801416872_2_alg».proof.Proof.Gen.KernelIdeal.Launch
import proofs.«168239_j3753801416872_2_alg».proof.Proof.CellSpec
import Idealize.ShloMosaic.Lib.StableHlo.Run

noncomputable section

namespace Cert.KernelIdeal.Stretch1

open Cert.KernelIdeal Cert.KernelIdeal.Gen Cert.KernelIdeal.Cell
open Idealize.ShloMosaic Idealize.ShloMosaic.TcCoe Idealize.SL.Sem Idealize.ShloMosaic.StableHlo

variable {F : FTy → Type} [FloatOps F] (U : Valuation τ sig (Elt F))

set_option maxRecDepth 8192 in
set_option maxHeartbeats 4000000 in
/-- The first cell's new hidden row. -/
theorem h0_new : after hostOps1 U (Proc.devRef .tc main_v95) = combine (U (Proc.devRef .tc main_v67_0)) (U (Proc.devRef .tc main_v67_1)) (U (Proc.devRef .tc main_v54)) := by
  after_results_simp <;> rfl

set_option maxRecDepth 8192 in
set_option maxHeartbeats 4000000 in
/-- Its narrowed copy. -/
theorem h0_new_bf16 : after hostOps1 U (Proc.devRef .tc main_v96) = truncf .bf16 ((after hostOps1 U (Proc.devRef .tc main_v95) : FVec F S1x2048 .f32)) bitsLt_bf16_f32 := by
  after_results_simp <;> rfl

set_option maxRecDepth 8192 in
set_option maxHeartbeats 4000000 in
/-- The input bias of cell 1 as a row. -/
theorem bih1_row : after hostOps1 U (Proc.devRef .tc main_v97) = shapeCast S1x6144 (U (Proc.devRef .tc main_arg14) : FVec F S6144 .f32) shapeCasts_S6144_S1x6144 := by
  after_results_simp <;> rfl

set_option maxRecDepth 8192 in
set_option maxHeartbeats 4000000 in
/-- `main_v63` is not written. -/
theorem kept_v63 : after hostOps1 U (Proc.devRef .tc main_v63) = U (Proc.devRef .tc main_v63) := by
  after_results_simp <;> rfl

set_option maxRecDepth 8192 in
set_option maxHeartbeats 4000000 in
/-- `main_v67_2` is not written. -/
theorem kept_v67_2 : after hostOps1 U (Proc.devRef .tc main_v67_2) = U (Proc.devRef .tc main_v67_2) := by
  after_results_simp <;> rfl

set_option maxRecDepth 8192 in
set_option maxHeartbeats 4000000 in
/-- `main_v56` is not written. -/
theorem kept_v56 : after hostOps1 U (Proc.devRef .tc main_v56) = U (Proc.devRef .tc main_v56) := by
  after_results_simp <;> rfl

set_option maxRecDepth 8192 in
set_option maxHeartbeats 4000000 in
/-- `main_v49` is not written. -/
theorem kept_v49 : after hostOps1 U (Proc.devRef .tc main_v49) = U (Proc.devRef .tc main_v49) := by
  after_results_simp <;> rfl

set_option maxRecDepth 8192 in
set_option maxHeartbeats 4000000 in
/-- `main_arg16` is not written. -/
theorem kept_arg16 : after hostOps1 U (Proc.devRef .tc main_arg16) = U (Proc.devRef .tc main_arg16) := by
  after_results_simp <;> rfl

set_option maxRecDepth 8192 in
set_option maxHeartbeats 4000000 in
/-- `main_arg17` is not written. -/
theorem kept_arg17 : after hostOps1 U (Proc.devRef .tc main_arg17) = U (Proc.devRef .tc main_arg17) := by
  after_results_simp <;> rfl

end Cert.KernelIdeal.Stretch1

end
-- ==== Proof.Stretch2.lean ====
/-
  The last stretch of host operations (after the second pallas_call), from ANY contents `U` at its start: it
  combines the second pallas_call's gate row gi1 and the first pallas_call's third gate row gh1 with the second old
  hidden row into the second cell's new hidden row, stacks the two new hidden rows, and projects the second to the
  logits. The updated stack is not written.
-/
import proofs.«168239_j3753801416872_2_alg».proof.Proof.Gen.KernelIdeal.Launch
import proofs.«168239_j3753801416872_2_alg».proof.Proof.CellSpec
import Idealize.ShloMosaic.Lib.StableHlo.Run

noncomputable section

namespace Cert.KernelIdeal.Stretch2

open Cert.KernelIdeal Cert.KernelIdeal.Gen Cert.KernelIdeal.Cell
open Idealize.ShloMosaic Idealize.ShloMosaic.TcCoe Idealize.SL.Sem Idealize.ShloMosaic.StableHlo

variable {F : FTy → Type} [FloatOps F] (U : Valuation τ sig (Elt F))

set_option maxRecDepth 8192 in
set_option maxHeartbeats 4000000 in
/-- The second cell's new hidden row. -/
theorem h1_new : after hostOps2 U (Proc.devRef .tc main_v126) = combine (U (Proc.devRef .tc main_v98)) (U (Proc.devRef .tc main_v67_2)) (U (Proc.devRef .tc main_v56)) := by
  after_results_simp <;> rfl

set_option maxRecDepth 8192 in
set_option maxHeartbeats 4000000 in
/-- The logits are the output projection of the second new hidden row. -/
theorem logits_eq : after hostOps2 U (Proc.devRef .tc main_v133) = logits (after hostOps2 U (Proc.devRef .tc main_v126)) (U (Proc.devRef .tc main_arg16)) (U (Proc.devRef .tc main_arg17)) := by
  after_results_simp <;> rfl

set_option maxRecDepth 8192 in
set_option maxHeartbeats 4000000 in
/-- The new hidden state is the two new hidden rows stacked. -/
theorem hidden_eq : after hostOps2 U (Proc.devRef .tc main_v129) = hidden (U (Proc.devRef .tc main_v95)) (after hostOps2 U (Proc.devRef .tc main_v126)) := by
  after_results_simp <;> rfl

set_option maxRecDepth 8192 in
set_option maxHeartbeats 4000000 in
/-- The updated stack is not written. -/
theorem kept_v49 : after hostOps2 U (Proc.devRef .tc main_v49) = U (Proc.devRef .tc main_v49) := by
  after_results_simp <;> rfl

end Cert.KernelIdeal.Stretch2

end
-- ==== Proof.KernelGates.lean ====
/-
  The four gate rows the two pallas_calls write, each as ONE function of the arrays its pallas_call finds.

  Both kernels run over a grid of six points. At point t the body loads the whole input row x (1 × K), block t of
  the row-major weight (rows 1024 t … 1024 t + 1023, all K columns) and block t of the bias row (lanes 1024 t …),
  multiplies the row with the weight block contracting the K axis of both into a zero accumulator, adds the bias
  block and stores the 1 × 1024 result, which the pipeline writes back as block t of the output row (1 × 6144).
  So lane n of the output row is (∑ k, x (0, k) * W (n, k)) + b (0, n), written by point n / 1024: the row is
  `gate x W b` (the specification's x · Wᵀ + b), whatever the contents `V` of the buffers when the pallas_call is
  entered. The first pallas_call writes three such rows (K = 2304 for the cell input against Wih0, K = 2048 for the
  two old hidden rows against Whh0 and Whh1), the second one (K = 2048).
-/
import proofs.«168239_j3753801416872_2_alg».proof.Proof.Gen.KernelIdeal.Frame
import proofs.«168239_j3753801416872_2_alg».proof.Proof.GateSpec
import Idealize.ShloMosaic.Lib.Pipeline.Value

set_option maxRecDepth 16384

noncomputable section

namespace Cert.KernelIdeal.Gates

open Cert.KernelIdeal Cert.KernelIdeal.Gen Cert.Gru
open Idealize.ShloMosaic Idealize.ShloMosaic.TcCoe Idealize.ShloMosaic.ValueIdx Idealize.SL.Sem
open Idealize.ShloMosaic.Pipeline (Dat Cfg Window)
open scoped BigOperators

/-- The bodies' rectangles all start at the origin. -/
theorem hz : (![0, 0] : Fin 2 → Nat) = fun _ => 0 := funext fun a => by fin_cases a <;> rfl

/-- The first kernel's first payload at a lane: the input row times row q of the weight block, plus the bias lane. -/
theorem pay2304 (x0 : Vec Ideal S1x2304 .bf16) (x3 : Vec Ideal S1024x2304 .bf16) (x6 : Vec Ideal S1x1024 .f32)
    (p : Fin 1) (q : Fin 1024) :
    k0_pay1 x0 x3 x6 (ix2 p q) = (∑ k : Fin 2304, x0 (ix2 p k) * x3 (ix2 q k)) + x6 (ix2 p q) := by
  unfold k0_pay1
  simp only [shapeCast_self]
  exact body_gate dot_S1x2304_S1024x2304_S1x1024_1_1_0_0_n_n_wf x0 x3 x6 p q

/-- The other payloads (the first kernel's second and third, the second kernel's) are one function: a hidden row
    times row q of a weight block, plus the bias lane. -/
theorem pay2048 (x0 : Vec Ideal S1x2048 .bf16) (x3 : Vec Ideal S1024x2048 .bf16) (x6 : Vec Ideal S1x1024 .f32)
    (p : Fin 1) (q : Fin 1024) :
    k0_pay2 x0 x3 x6 (ix2 p q) = (∑ k : Fin 2048, x0 (ix2 p k) * x3 (ix2 q k)) + x6 (ix2 p q) := by
  unfold k0_pay2
  simp only [shapeCast_self]
  exact body_gate dot_S1x2048_S1024x2048_S1x1024_1_1_0_0_n_n_wf x0 x3 x6 p q

variable (V : (c : Dev nD) → (b : Ref sig .tc) → Buf (Elt Ideal) ((c : Thread nD τ).loc b))

/-! ## Output window 9 of pallas_call 0: the gate row `main_v67_0` -/

/-- The printed index maps, decided over the six grid points: the input row's block does not move, the weight's
    block of 1024 rows and the bias row's block of 1024 lanes move with the output row's block of 1024 lanes. -/
theorem idx0_9 : ∀ t : Fin cfg0.N,
    win0_0.index t (0 : Fin 2) = 0 ∧ win0_0.index t (1 : Fin 2) = 0
    ∧ win0_3.index t (0 : Fin 2) = win0_9.index t (1 : Fin 2) ∧ win0_3.index t (1 : Fin 2) = 0
    ∧ win0_6.index t (0 : Fin 2) = 0 ∧ win0_6.index t (1 : Fin 2) = win0_9.index t (1 : Fin 2)
    ∧ win0_9.index t (0 : Fin 2) = 0 ∧ win0_9.index t (1 : Fin 2) ≤ 5 :=
  (by decide +kernel : ∀ t : Fin grid0.N, _)

/-- Every block of 1024 lanes of the output row is some grid point's. -/
theorem onto0_9 : ∀ q : Fin 6, ∃ t : Fin cfg0.N, win0_9.index t = ![0, q.val] :=
  (by decide +kernel : ∀ q : Fin 6, ∃ t : Fin grid0.N, win0_9.index t = ![0, q.val])

/-- WHAT GRID POINT `t` WRITES BACK is block `t` of the gate row of the arrays the pallas_call finds: lane q of the
    block is the inner product of the input row with row q of the weight's block, plus the bias block's lane q. -/
theorem flushed0_9 (c : Dev nD) (t : Fin cfg0.N) :
    (dat0 V c).flushed 9 t = ((cfg0.win 9).blk t).view.read (Elt Ideal)
      (gate (K := 2304) (N := 6144) (V c main_v57) (V c main_v60) (V c main_v64)) := by
  show (cfg0.win 9).cut (grid0.coords t) ((dat0 V c).after 9 t) = _
  rw [after0_9]
  unfold out0_9
  rw [View.canon_unit_zero hz]
  simp only [View.ld_unit_zero (S := S1x2304) hz, View.ld_unit_zero (S := S1024x2304) hz, View.ld_unit_zero (S := S1x1024) hz]
  obtain ⟨e0, e1, e2, e3, e4, e5, e6, e7⟩ := idx0_9 t
  funext j
  obtain ⟨p, q, rfl⟩ : ∃ (p : Fin 1) (q : Fin 1024), j = ix2 p q := ⟨j 0, j 1, eq_ix2 j⟩
  have hp : p.val = 0 := by have := p.isLt; omega
  have hq : q.val < 1024 := q.isLt
  have hQ : win0_9.index t (1 : Fin 2) * 1024 + q.val < 6144 := by omega
  show k0_pay1 (iblk0 V c 0 t) (iblk0 V c 3 t) (iblk0 V c 6 t) (ix2 p q)
    = gate (K := 2304) (N := 6144) (V c main_v57) (V c main_v60) (V c main_v64) (((cfg0.win 9).blk t).view.emb (ix2 p q))
  have ho : ((cfg0.win 9).blk t).view.emb (ix2 p q) = ix2 (0 : Fin 1) (⟨win0_9.index t (1 : Fin 2) * 1024 + q.val, hQ⟩ : Fin 6144) := by
    funext a; apply Fin.ext
    match a with
    | ⟨0, _⟩ => show win0_9.index t (0 : Fin 2) * 1 + 1 * p.val = 0; omega
    | ⟨1, _⟩ => show win0_9.index t (1 : Fin 2) * 1024 + 1 * q.val = win0_9.index t (1 : Fin 2) * 1024 + q.val; omega
  rw [ho, gate_apply, pay2304]
  refine congrArg₂ (· + ·) (Finset.sum_congr rfl fun k _ => congrArg₂ (· * ·) ?_ ?_) ?_
  · show V c main_v57 (((cfg0.win 0).blk t).view.emb (ix2 p k)) = V c main_v57 (ix2 (0 : Fin 1) k)
    refine congrArg (V c main_v57) (funext fun a => Fin.ext ?_)
    match a with
    | ⟨0, _⟩ => show win0_0.index t (0 : Fin 2) * 1 + 1 * p.val = 0; omega
    | ⟨1, _⟩ => show win0_0.index t (1 : Fin 2) * 2304 + 1 * k.val = k.val; omega
  · show V c main_v60 (((cfg0.win 3).blk t).view.emb (ix2 q k)) = V c main_v60 (ix2 (⟨win0_9.index t (1 : Fin 2) * 1024 + q.val, hQ⟩ : Fin 6144) k)
    refine congrArg (V c main_v60) (funext fun a => Fin.ext ?_)
    match a with
    | ⟨0, _⟩ => show win0_3.index t (0 : Fin 2) * 1024 + 1 * q.val = win0_9.index t (1 : Fin 2) * 1024 + q.val; omega
    | ⟨1, _⟩ => show win0_3.index t (1 : Fin 2) * 2304 + 1 * k.val = k.val; omega
  · show V c main_v64 (((cfg0.win 6).blk t).view.emb (ix2 p q)) = V c main_v64 (ix2 (0 : Fin 1) (⟨win0_9.index t (1 : Fin 2) * 1024 + q.val, hQ⟩ : Fin 6144))
    refine congrArg (V c main_v64) (funext fun a => Fin.ext ?_)
    match a with
    | ⟨0, _⟩ => show win0_6.index t (0 : Fin 2) * 1 + 1 * p.val = 0; omega
    | ⟨1, _⟩ => show win0_6.index t (1 : Fin 2) * 1024 + 1 * q.val = win0_9.index t (1 : Fin 2) * 1024 + q.val; omega

/-- An index of the output row is in point `t`'s block iff each coordinate is in the block's range on its axis. -/
theorem mem_blk0_9 (t : Fin cfg0.N) (i : S1x6144.Idx) :
    i ∈ ((cfg0.win 9).blk t).view.set ↔ ∀ a : Fin 2, win0_9.index t a * S1x1024.size a ≤ (i a).val ∧ (i a).val < win0_9.index t a * S1x1024.size a + S1x1024.size a := by
  show i ∈ ((View.whole main_v67_0).slice (win0_9.rect t)).set ↔ _
  rw [View.set_slice_whole, Rect.mem_set_unit]
  exact Iff.rfl

/-- The six blocks cover the output row: lane n is in the block of the point whose block index is n / 1024. -/
theorem cover0_9' (i : S1x6144.Idx) :
    ∃ t : Fin cfg0.N, (cfg0.win 9).flush t = true ∧ i ∈ ((cfg0.win 9).blk t).view.set := by
  have hi0 : (i 0).val < 1 := (i 0).isLt
  have hi1 : (i 1).val < 6144 := (i 1).isLt
  obtain ⟨t, ht⟩ := onto0_9 ⟨(i 1).val / 1024, by omega⟩
  have q0 : win0_9.index t (0 : Fin 2) = 0 := congrFun ht 0
  have q1 : win0_9.index t (1 : Fin 2) = (i 1).val / 1024 := congrFun ht 1
  refine ⟨t, flush0_9 t, ?_⟩
  rw [mem_blk0_9]
  intro a
  match a with
  | ⟨0, _⟩ => show win0_9.index t (0 : Fin 2) * 1 ≤ (i 0).val ∧ (i 0).val < win0_9.index t (0 : Fin 2) * 1 + 1; omega
  | ⟨1, _⟩ => show win0_9.index t (1 : Fin 2) * 1024 ≤ (i 1).val ∧ (i 1).val < win0_9.index t (1 : Fin 2) * 1024 + 1024; omega

/-- THE GATE ROW after the pallas_call: `x · Wᵀ + b` of the arrays it found. -/
theorem final0_9 (c : Dev nD) :
    (dat0 V c).arrAt 9 cfg0.N = gate (K := 2304) (N := 6144) (V c main_v57) (V c main_v60) (V c main_v64) :=
  (dat0 V c).arrAt_eq_of_cover 9 _ (fun t _ => flushed0_9 V c t) (cover0_9' )

/-! ## Output window 10 of pallas_call 0: the gate row `main_v67_1` -/

/-- The printed index maps, decided over the six grid points: the input row's block does not move, the weight's
    block of 1024 rows and the bias row's block of 1024 lanes move with the output row's block of 1024 lanes. -/
theorem idx0_10 : ∀ t : Fin cfg0.N,
    win0_1.index t (0 : Fin 2) = 0 ∧ win0_1.index t (1 : Fin 2) = 0
    ∧ win0_4.index t (0 : Fin 2) = win0_10.index t (1 : Fin 2) ∧ win0_4.index t (1 : Fin 2) = 0
    ∧ win0_7.index t (0 : Fin 2) = 0 ∧ win0_7.index t (1 : Fin 2) = win0_10.index t (1 : Fin 2)
    ∧ win0_10.index t (0 : Fin 2) = 0 ∧ win0_10.index t (1 : Fin 2) ≤ 5 :=
  (by decide +kernel : ∀ t : Fin grid0.N, _)

/-- Every block of 1024 lanes of the output row is some grid point's. -/
theorem onto0_10 : ∀ q : Fin 6, ∃ t : Fin cfg0.N, win0_10.index t = ![0, q.val] :=
  (by decide +kernel : ∀ q : Fin 6, ∃ t : Fin grid0.N, win0_10.index t = ![0, q.val])

/-- WHAT GRID POINT `t` WRITES BACK is block `t` of the gate row of the arrays the pallas_call finds: lane q of the
    block is the inner product of the input row with row q of the weight's block, plus the bias block's lane q. -/
theorem flushed0_10 (c : Dev nD) (t : Fin cfg0.N) :
    (dat0 V c).flushed 10 t = ((cfg0.win 10).blk t).view.read (Elt Ideal)
      (gate (K := 2048) (N := 6144) (V c main_v58) (V c main_v61) (V c main_v65)) := by
  show (cfg0.win 10).cut (grid0.coords t) ((dat0 V c).after 10 t) = _
  rw [after0_10]
  unfold out0_10
  rw [View.canon_unit_zero hz]
  simp only [View.ld_unit_zero (S := S1x2048) hz, View.ld_unit_zero (S := S1024x2048) hz, View.ld_unit_zero (S := S1x1024) hz]
  obtain ⟨e0, e1, e2, e3, e4, e5, e6, e7⟩ := idx0_10 t
  funext j
  obtain ⟨p, q, rfl⟩ : ∃ (p : Fin 1) (q : Fin 1024), j = ix2 p q := ⟨j 0, j 1, eq_ix2 j⟩
  have hp : p.val = 0 := by have := p.isLt; omega
  have hq : q.val < 1024 := q.isLt
  have hQ : win0_10.index t (1 : Fin 2) * 1024 + q.val < 6144 := by omega
  show k0_pay2 (iblk0 V c 1 t) (iblk0 V c 4 t) (iblk0 V c 7 t) (ix2 p q)
    = gate (K := 2048) (N := 6144) (V c main_v58) (V c main_v61) (V c main_v65) (((cfg0.win 10).blk t).view.emb (ix2 p q))
  have ho : ((cfg0.win 10).blk t).view.emb (ix2 p q) = ix2 (0 : Fin 1) (⟨win0_10.index t (1 : Fin 2) * 1024 + q.val, hQ⟩ : Fin 6144) := by
    funext a; apply Fin.ext
    match a with
    | ⟨0, _⟩ => show win0_10.index t (0 : Fin 2) * 1 + 1 * p.val = 0; omega
    | ⟨1, _⟩ => show win0_10.index t (1 : Fin 2) * 1024 + 1 * q.val = win0_10.index t (1 : Fin 2) * 1024 + q.val; omega
  rw [ho, gate_apply, pay2048]
  refine congrArg₂ (· + ·) (Finset.sum_congr rfl fun k _ => congrArg₂ (· * ·) ?_ ?_) ?_
  · show V c main_v58 (((cfg0.win 1).blk t).view.emb (ix2 p k)) = V c main_v58 (ix2 (0 : Fin 1) k)
    refine congrArg (V c main_v58) (funext fun a => Fin.ext ?_)
    match a with
    | ⟨0, _⟩ => show win0_1.index t (0 : Fin 2) * 1 + 1 * p.val = 0; omega
    | ⟨1, _⟩ => show win0_1.index t (1 : Fin 2) * 2048 + 1 * k.val = k.val; omega
  · show V c main_v61 (((cfg0.win 4).blk t).view.emb (ix2 q k)) = V c main_v61 (ix2 (⟨win0_10.index t (1 : Fin 2) * 1024 + q.val, hQ⟩ : Fin 6144) k)
    refine congrArg (V c main_v61) (funext fun a => Fin.ext ?_)
    match a with
    | ⟨0, _⟩ => show win0_4.index t (0 : Fin 2) * 1024 + 1 * q.val = win0_10.index t (1 : Fin 2) * 1024 + q.val; omega
    | ⟨1, _⟩ => show win0_4.index t (1 : Fin 2) * 2048 + 1 * k.val = k.val; omega
  · show V c main_v65 (((cfg0.win 7).blk t).view.emb (ix2 p q)) = V c main_v65 (ix2 (0 : Fin 1) (⟨win0_10.index t (1 : Fin 2) * 1024 + q.val, hQ⟩ : Fin 6144))
    refine congrArg (V c main_v65) (funext fun a => Fin.ext ?_)
    match a with
    | ⟨0, _⟩ => show win0_7.index t (0 : Fin 2) * 1 + 1 * p.val = 0; omega
    | ⟨1, _⟩ => show win0_7.index t (1 : Fin 2) * 1024 + 1 * q.val = win0_10.index t (1 : Fin 2) * 1024 + q.val; omega

/-- An index of the output row is in point `t`'s block iff each coordinate is in the block's range on its axis. -/
theorem mem_blk0_10 (t : Fin cfg0.N) (i : S1x6144.Idx) :
    i ∈ ((cfg0.win 10).blk t).view.set ↔ ∀ a : Fin 2, win0_10.index t a * S1x1024.size a ≤ (i a).val ∧ (i a).val < win0_10.index t a * S1x1024.size a + S1x1024.size a := by
  show i ∈ ((View.whole main_v67_1).slice (win0_10.rect t)).set ↔ _
  rw [View.set_slice_whole, Rect.mem_set_unit]
  exact Iff.rfl

/-- The six blocks cover the output row: lane n is in the block of the point whose block index is n / 1024. -/
theorem cover0_10' (i : S1x6144.Idx) :
    ∃ t : Fin cfg0.N, (cfg0.win 10).flush t = true ∧ i ∈ ((cfg0.win 10).blk t).view.set := by
  have hi0 : (i 0).val < 1 := (i 0).isLt
  have hi1 : (i 1).val < 6144 := (i 1).isLt
  obtain ⟨t, ht⟩ := onto0_10 ⟨(i 1).val / 1024, by omega⟩
  have q0 : win0_10.index t (0 : Fin 2) = 0 := congrFun ht 0
  have q1 : win0_10.index t (1 : Fin 2) = (i 1).val / 1024 := congrFun ht 1
  refine ⟨t, flush0_10 t, ?_⟩
  rw [mem_blk0_10]
  intro a
  match a with
  | ⟨0, _⟩ => show win0_10.index t (0 : Fin 2) * 1 ≤ (i 0).val ∧ (i 0).val < win0_10.index t (0 : Fin 2) * 1 + 1; omega
  | ⟨1, _⟩ => show win0_10.index t (1 : Fin 2) * 1024 ≤ (i 1).val ∧ (i 1).val < win0_10.index t (1 : Fin 2) * 1024 + 1024; omega

/-- THE GATE ROW after the pallas_call: `x · Wᵀ + b` of the arrays it found. -/
theorem final0_10 (c : Dev nD) :
    (dat0 V c).arrAt 10 cfg0.N = gate (K := 2048) (N := 6144) (V c main_v58) (V c main_v61) (V c main_v65) :=
  (dat0 V c).arrAt_eq_of_cover 10 _ (fun t _ => flushed0_10 V c t) (cover0_10' )

/-! ## Output window 11 of pallas_call 0: the gate row `main_v67_2` -/

/-- The printed index maps, decided over the six grid points: the input row's block does not move, the weight's
    block of 1024 rows and the bias row's block of 1024 lanes move with the output row's block of 1024 lanes. -/
theorem idx0_11 : ∀ t : Fin cfg0.N,
    win0_2.index t (0 : Fin 2) = 0 ∧ win0_2.index t (1 : Fin 2) = 0
    ∧ win0_5.index t (0 : Fin 2) = win0_11.index t (1 : Fin 2) ∧ win0_5.index t (1 : Fin 2) = 0
    ∧ win0_8.index t (0 : Fin 2) = 0 ∧ win0_8.index t (1 : Fin 2) = win0_11.index t (1 : Fin 2)
    ∧ win0_11.index t (0 : Fin 2) = 0 ∧ win0_11.index t (1 : Fin 2) ≤ 5 :=
  (by decide +kernel : ∀ t : Fin grid0.N, _)

/-- Every block of 1024 lanes of the output row is some grid point's. -/
theorem onto0_11 : ∀ q : Fin 6, ∃ t : Fin cfg0.N, win0_11.index t = ![0, q.val] :=
  (by decide +kernel : ∀ q : Fin 6, ∃ t : Fin grid0.N, win0_11.index t = ![0, q.val])

/-- WHAT GRID POINT `t` WRITES BACK is block `t` of the gate row of the arrays the pallas_call finds: lane q of the
    block is the inner product of the input row with row q of the weight's block, plus the bias block's lane q. -/
theorem flushed0_11 (c : Dev nD) (t : Fin cfg0.N) :
    (dat0 V c).flushed 11 t = ((cfg0.win 11).blk t).view.read (Elt Ideal)
      (gate (K := 2048) (N := 6144) (V c main_v59) (V c main_v62) (V c main_v66)) := by
  show (cfg0.win 11).cut (grid0.coords t) ((dat0 V c).after 11 t) = _
  rw [after0_11]
  unfold out0_11
  rw [View.canon_unit_zero hz]
  simp only [View.ld_unit_zero (S := S1x2048) hz, View.ld_unit_zero (S := S1024x2048) hz, View.ld_unit_zero (S := S1x1024) hz]
  obtain ⟨e0, e1, e2, e3, e4, e5, e6, e7⟩ := idx0_11 t
  funext j
  obtain ⟨p, q, rfl⟩ : ∃ (p : Fin 1) (q : Fin 1024), j = ix2 p q := ⟨j 0, j 1, eq_ix2 j⟩
  have hp : p.val = 0 := by have := p.isLt; omega
  have hq : q.val < 1024 := q.isLt
  have hQ : win0_11.index t (1 : Fin 2) * 1024 + q.val < 6144 := by omega
  show k0_pay2 (iblk0 V c 2 t) (iblk0 V c 5 t) (iblk0 V c 8 t) (ix2 p q)
    = gate (K := 2048) (N := 6144) (V c main_v59) (V c main_v62) (V c main_v66) (((cfg0.win 11).blk t).view.emb (ix2 p q))
  have ho : ((cfg0.win 11).blk t).view.emb (ix2 p q) = ix2 (0 : Fin 1) (⟨win0_11.index t (1 : Fin 2) * 1024 + q.val, hQ⟩ : Fin 6144) := by
    funext a; apply Fin.ext
    match a with
    | ⟨0, _⟩ => show win0_11.index t (0 : Fin 2) * 1 + 1 * p.val = 0; omega
    | ⟨1, _⟩ => show win0_11.index t (1 : Fin 2) * 1024 + 1 * q.val = win0_11.index t (1 : Fin 2) * 1024 + q.val; omega
  rw [ho, gate_apply, pay2048]
  refine congrArg₂ (· + ·) (Finset.sum_congr rfl fun k _ => congrArg₂ (· * ·) ?_ ?_) ?_
  · show V c main_v59 (((cfg0.win 2).blk t).view.emb (ix2 p k)) = V c main_v59 (ix2 (0 : Fin 1) k)
    refine congrArg (V c main_v59) (funext fun a => Fin.ext ?_)
    match a with
    | ⟨0, _⟩ => show win0_2.index t (0 : Fin 2) * 1 + 1 * p.val = 0; omega
    | ⟨1, _⟩ => show win0_2.index t (1 : Fin 2) * 2048 + 1 * k.val = k.val; omega
  · show V c main_v62 (((cfg0.win 5).blk t).view.emb (ix2 q k)) = V c main_v62 (ix2 (⟨win0_11.index t (1 : Fin 2) * 1024 + q.val, hQ⟩ : Fin 6144) k)
    refine congrArg (V c main_v62) (funext fun a => Fin.ext ?_)
    match a with
    | ⟨0, _⟩ => show win0_5.index t (0 : Fin 2) * 1024 + 1 * q.val = win0_11.index t (1 : Fin 2) * 1024 + q.val; omega
    | ⟨1, _⟩ => show win0_5.index t (1 : Fin 2) * 2048 + 1 * k.val = k.val; omega
  · show V c main_v66 (((cfg0.win 8).blk t).view.emb (ix2 p q)) = V c main_v66 (ix2 (0 : Fin 1) (⟨win0_11.index t (1 : Fin 2) * 1024 + q.val, hQ⟩ : Fin 6144))
    refine congrArg (V c main_v66) (funext fun a => Fin.ext ?_)
    match a with
    | ⟨0, _⟩ => show win0_8.index t (0 : Fin 2) * 1 + 1 * p.val = 0; omega
    | ⟨1, _⟩ => show win0_8.index t (1 : Fin 2) * 1024 + 1 * q.val = win0_11.index t (1 : Fin 2) * 1024 + q.val; omega

/-- An index of the output row is in point `t`'s block iff each coordinate is in the block's range on its axis. -/
theorem mem_blk0_11 (t : Fin cfg0.N) (i : S1x6144.Idx) :
    i ∈ ((cfg0.win 11).blk t).view.set ↔ ∀ a : Fin 2, win0_11.index t a * S1x1024.size a ≤ (i a).val ∧ (i a).val < win0_11.index t a * S1x1024.size a + S1x1024.size a := by
  show i ∈ ((View.whole main_v67_2).slice (win0_11.rect t)).set ↔ _
  rw [View.set_slice_whole, Rect.mem_set_unit]
  exact Iff.rfl

/-- The six blocks cover the output row: lane n is in the block of the point whose block index is n / 1024. -/
theorem cover0_11' (i : S1x6144.Idx) :
    ∃ t : Fin cfg0.N, (cfg0.win 11).flush t = true ∧ i ∈ ((cfg0.win 11).blk t).view.set := by
  have hi0 : (i 0).val < 1 := (i 0).isLt
  have hi1 : (i 1).val < 6144 := (i 1).isLt
  obtain ⟨t, ht⟩ := onto0_11 ⟨(i 1).val / 1024, by omega⟩
  have q0 : win0_11.index t (0 : Fin 2) = 0 := congrFun ht 0
  have q1 : win0_11.index t (1 : Fin 2) = (i 1).val / 1024 := congrFun ht 1
  refine ⟨t, flush0_11 t, ?_⟩
  rw [mem_blk0_11]
  intro a
  match a with
  | ⟨0, _⟩ => show win0_11.index t (0 : Fin 2) * 1 ≤ (i 0).val ∧ (i 0).val < win0_11.index t (0 : Fin 2) * 1 + 1; omega
  | ⟨1, _⟩ => show win0_11.index t (1 : Fin 2) * 1024 ≤ (i 1).val ∧ (i 1).val < win0_11.index t (1 : Fin 2) * 1024 + 1024; omega

/-- THE GATE ROW after the pallas_call: `x · Wᵀ + b` of the arrays it found. -/
theorem final0_11 (c : Dev nD) :
    (dat0 V c).arrAt 11 cfg0.N = gate (K := 2048) (N := 6144) (V c main_v59) (V c main_v62) (V c main_v66) :=
  (dat0 V c).arrAt_eq_of_cover 11 _ (fun t _ => flushed0_11 V c t) (cover0_11' )

/-! ## Output window 3 of pallas_call 1: the gate row `main_v98` -/

/-- The printed index maps, decided over the six grid points: the input row's block does not move, the weight's
    block of 1024 rows and the bias row's block of 1024 lanes move with the output row's block of 1024 lanes. -/
theorem idx1_3 : ∀ t : Fin cfg1.N,
    win1_0.index t (0 : Fin 2) = 0 ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) = 0 ∧ win1_3.index t (1 : Fin 2) ≤ 5 :=
  (by decide +kernel : ∀ t : Fin grid1.N, _)

/-- Every block of 1024 lanes of the output row is some grid point's. -/
theorem onto1_3 : ∀ q : Fin 6, ∃ t : Fin cfg1.N, win1_3.index t = ![0, q.val] :=
  (by decide +kernel : ∀ q : Fin 6, ∃ t : Fin grid1.N, win1_3.index t = ![0, q.val])

/-- WHAT GRID POINT `t` WRITES BACK is block `t` of the gate row of the arrays the pallas_call finds: lane q of the
    block is the inner product of the input row with row q of the weight's block, plus the bias block's lane q. -/
theorem flushed1_3 (c : Dev nD) (t : Fin cfg1.N) :
    (dat1 V c).flushed 3 t = ((cfg1.win 3).blk t).view.read (Elt Ideal)
      (gate (K := 2048) (N := 6144) (V c main_v96) (V c main_v63) (V c main_v97)) := by
  show (cfg1.win 3).cut (grid1.coords t) ((dat1 V c).after 3 t) = _
  rw [after1_3]
  unfold out1_3
  rw [View.canon_unit_zero hz]
  simp only [View.ld_unit_zero (S := S1x2048) hz, View.ld_unit_zero (S := S1024x2048) hz, View.ld_unit_zero (S := S1x1024) hz]
  obtain ⟨e0, e1, e2, e3, e4, e5, e6, e7⟩ := idx1_3 t
  funext j
  obtain ⟨p, q, rfl⟩ : ∃ (p : Fin 1) (q : Fin 1024), j = ix2 p q := ⟨j 0, j 1, eq_ix2 j⟩
  have hp : p.val = 0 := by have := p.isLt; omega
  have hq : q.val < 1024 := q.isLt
  have hQ : win1_3.index t (1 : Fin 2) * 1024 + q.val < 6144 := by omega
  show k0_pay2 (iblk1 V c 0 t) (iblk1 V c 1 t) (iblk1 V c 2 t) (ix2 p q)
    = gate (K := 2048) (N := 6144) (V c main_v96) (V c main_v63) (V c main_v97) (((cfg1.win 3).blk t).view.emb (ix2 p q))
  have ho : ((cfg1.win 3).blk t).view.emb (ix2 p q) = ix2 (0 : Fin 1) (⟨win1_3.index t (1 : Fin 2) * 1024 + q.val, hQ⟩ : Fin 6144) := by
    funext a; apply Fin.ext
    match a with
    | ⟨0, _⟩ => show win1_3.index t (0 : Fin 2) * 1 + 1 * p.val = 0; omega
    | ⟨1, _⟩ => show win1_3.index t (1 : Fin 2) * 1024 + 1 * q.val = win1_3.index t (1 : Fin 2) * 1024 + q.val; omega
  rw [ho, gate_apply, pay2048]
  refine congrArg₂ (· + ·) (Finset.sum_congr rfl fun k _ => congrArg₂ (· * ·) ?_ ?_) ?_
  · show V c main_v96 (((cfg1.win 0).blk t).view.emb (ix2 p k)) = V c main_v96 (ix2 (0 : Fin 1) k)
    refine congrArg (V c main_v96) (funext fun a => Fin.ext ?_)
    match a with
    | ⟨0, _⟩ => show win1_0.index t (0 : Fin 2) * 1 + 1 * p.val = 0; omega
    | ⟨1, _⟩ => show win1_0.index t (1 : Fin 2) * 2048 + 1 * k.val = k.val; omega
  · show V c main_v63 (((cfg1.win 1).blk t).view.emb (ix2 q k)) = V c main_v63 (ix2 (⟨win1_3.index t (1 : Fin 2) * 1024 + q.val, hQ⟩ : Fin 6144) k)
    refine congrArg (V c main_v63) (funext fun a => Fin.ext ?_)
    match a with
    | ⟨0, _⟩ => show win1_1.index t (0 : Fin 2) * 1024 + 1 * q.val = win1_3.index t (1 : Fin 2) * 1024 + q.val; omega
    | ⟨1, _⟩ => show win1_1.index t (1 : Fin 2) * 2048 + 1 * k.val = k.val; omega
  · show V c main_v97 (((cfg1.win 2).blk t).view.emb (ix2 p q)) = V c main_v97 (ix2 (0 : Fin 1) (⟨win1_3.index t (1 : Fin 2) * 1024 + q.val, hQ⟩ : Fin 6144))
    refine congrArg (V c main_v97) (funext fun a => Fin.ext ?_)
    match a with
    | ⟨0, _⟩ => show win1_2.index t (0 : Fin 2) * 1 + 1 * p.val = 0; omega
    | ⟨1, _⟩ => show win1_2.index t (1 : Fin 2) * 1024 + 1 * q.val = win1_3.index t (1 : Fin 2) * 1024 + q.val; omega

/-- An index of the output row is in point `t`'s block iff each coordinate is in the block's range on its axis. -/
theorem mem_blk1_3 (t : Fin cfg1.N) (i : S1x6144.Idx) :
    i ∈ ((cfg1.win 3).blk t).view.set ↔ ∀ a : Fin 2, win1_3.index t a * S1x1024.size a ≤ (i a).val ∧ (i a).val < win1_3.index t a * S1x1024.size a + S1x1024.size a := by
  show i ∈ ((View.whole main_v98).slice (win1_3.rect t)).set ↔ _
  rw [View.set_slice_whole, Rect.mem_set_unit]
  exact Iff.rfl

/-- The six blocks cover the output row: lane n is in the block of the point whose block index is n / 1024. -/
theorem cover1_3' (i : S1x6144.Idx) :
    ∃ t : Fin cfg1.N, (cfg1.win 3).flush t = true ∧ i ∈ ((cfg1.win 3).blk t).view.set := by
  have hi0 : (i 0).val < 1 := (i 0).isLt
  have hi1 : (i 1).val < 6144 := (i 1).isLt
  obtain ⟨t, ht⟩ := onto1_3 ⟨(i 1).val / 1024, by omega⟩
  have q0 : win1_3.index t (0 : Fin 2) = 0 := congrFun ht 0
  have q1 : win1_3.index t (1 : Fin 2) = (i 1).val / 1024 := congrFun ht 1
  refine ⟨t, flush1_3 t, ?_⟩
  rw [mem_blk1_3]
  intro a
  match a with
  | ⟨0, _⟩ => show win1_3.index t (0 : Fin 2) * 1 ≤ (i 0).val ∧ (i 0).val < win1_3.index t (0 : Fin 2) * 1 + 1; omega
  | ⟨1, _⟩ => show win1_3.index t (1 : Fin 2) * 1024 ≤ (i 1).val ∧ (i 1).val < win1_3.index t (1 : Fin 2) * 1024 + 1024; omega

/-- THE GATE ROW after the pallas_call: `x · Wᵀ + b` of the arrays it found. -/
theorem final1_3 (c : Dev nD) :
    (dat1 V c).arrAt 3 cfg1.N = gate (K := 2048) (N := 6144) (V c main_v96) (V c main_v63) (V c main_v97) :=
  (dat1 V c).arrAt_eq_of_cover 3 _ (fun t _ => flushed1_3 V c t) (cover1_3' )

end Cert.KernelIdeal.Gates

end
-- ==== Proof.KernelValue.lean ====
/-
  The kernel program's three results as the specification's functions of the launch contents.

  The buffer contents at the last segment boundary are folded back through the five segments: a host stretch by
  what it leaves in each buffer (the stretch lemmas), a pallas_call by its gate rows (the whole-array lemmas) and
  by leaving every other buffer alone. The narrowed copies the pallas_calls read are, on the extended reals, the
  rows and weights themselves, so each gate row is the specification's `x · Wᵀ + b`, and what the stretches build
  on them is the specification's two cells and projection.
-/
import proofs.«168239_j3753801416872_2_alg».proof.Proof.Gen.KernelIdeal.Frame
import proofs.«168239_j3753801416872_2_alg».proof.Proof.ProgramSpec
import proofs.«168239_j3753801416872_2_alg».proof.Proof.Stretch0
import proofs.«168239_j3753801416872_2_alg».proof.Proof.Stretch1
import proofs.«168239_j3753801416872_2_alg».proof.Proof.Stretch2
import proofs.«168239_j3753801416872_2_alg».proof.Proof.KernelGates

set_option maxRecDepth 16384

noncomputable section

namespace Cert.KernelIdeal.Folded

open Cert.KernelIdeal Cert.KernelIdeal.Gen Cert.KernelIdeal.Cell Cert.KernelIdeal.Spec Cert.Gru
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first pallas_call's first row is the first cell's input gate row. -/
theorem gi0_eq : W2 m ρ c (Proc.devRef .tc main_v67_0) = gi0 (W0 m ρ c) := by
  refine (W2_arr m ρ c 9).trans ?_
  rw [Gates.final0_9]
  show gate (K := 2304) (N := 6144) (after hostOps0 (W0 m ρ c) (Proc.devRef .tc main_v57)) (after hostOps0 (W0 m ρ c) (Proc.devRef .tc main_v60))
    (after hostOps0 (W0 m ρ c) (Proc.devRef .tc main_v64)) = _
  rw [Stretch0.x_bf16, Stretch0.wih0_bf16, Stretch0.bih0_row]
  rfl

/-- Its second row is the first cell's hidden gate row. -/
theorem gh0_eq : W2 m ρ c (Proc.devRef .tc main_v67_1) = gh0 (W0 m ρ c) := by
  refine (W2_arr m ρ c 10).trans ?_
  rw [Gates.final0_10]
  show gate (K := 2048) (N := 6144) (after hostOps0 (W0 m ρ c) (Proc.devRef .tc main_v58)) (after hostOps0 (W0 m ρ c) (Proc.devRef .tc main_v61))
    (after hostOps0 (W0 m ρ c) (Proc.devRef .tc main_v65)) = _
  rw [Stretch0.h0_bf16, Stretch0.whh0_bf16, Stretch0.bhh0_row]
  rfl

/-- Its third row is the second cell's hidden gate row. -/
theorem gh1_first : W2 m ρ c (Proc.devRef .tc main_v67_2) = gh1 (W0 m ρ c) := by
  refine (W2_arr m ρ c 11).trans ?_
  rw [Gates.final0_11]
  show gate (K := 2048) (N := 6144) (after hostOps0 (W0 m ρ c) (Proc.devRef .tc main_v59)) (after hostOps0 (W0 m ρ c) (Proc.devRef .tc main_v62))
    (after hostOps0 (W0 m ρ c) (Proc.devRef .tc main_v66)) = _
  rw [Stretch0.h1_bf16, Stretch0.whh1_bf16, Stretch0.bhh1_row]
  rfl

/-- A buffer the first pallas_call does not own is, after it, what the first stretch left. -/
theorem w2_keep (b : Ref sig .tc) (hb : ∀ w, Pipeline.arrRef spec0 w ≠ b) :
    W2 m ρ c (Proc.devRef .tc b) = after hostOps0 (W0 m ρ c) (Proc.devRef .tc b) := W2_of_ne m ρ c b hb

/-- A buffer the second pallas_call does not own is, after it, what the second stretch left. -/
theorem w4_keep (b : Ref sig .tc) (hb : ∀ w, Pipeline.arrRef spec1 w ≠ b) :
    W4 m ρ c (Proc.devRef .tc b) = after hostOps1 (W2 m ρ c) (Proc.devRef .tc b) := W4_of_ne m ρ c b hb

/-- The second stretch leaves the first cell's new hidden row. -/
theorem h0_eq : after hostOps1 (W2 m ρ c) (Proc.devRef .tc main_v95) = hNew0 (W0 m ρ c) := by
  rw [Stretch1.h0_new, gi0_eq, gh0_eq, w2_keep m ρ c main_v54 (by decide)]
  rfl

/-- The second pallas_call's row is the second cell's input gate row. -/
theorem gi1_eq : W4 m ρ c (Proc.devRef .tc main_v98) = gi1 (W0 m ρ c) := by
  refine (W4_arr m ρ c 3).trans ?_
  rw [Gates.final1_3]
  show gate (K := 2048) (N := 6144) (after hostOps1 (W2 m ρ c) (Proc.devRef .tc main_v96)) (after hostOps1 (W2 m ρ c) (Proc.devRef .tc main_v63))
    (after hostOps1 (W2 m ρ c) (Proc.devRef .tc main_v97)) = _
  rw [Stretch1.h0_new_bf16, Stretch1.kept_v63, Stretch1.bih1_row, h0_eq,
    w2_keep m ρ c main_v63 (by decide), w2_keep m ρ c main_arg14 (by decide), Stretch0.wih1_bf16, Stretch0.kept_arg14]
  rfl

/-- The second cell's hidden gate row is still there after the second pallas_call. -/
theorem gh1_eq : W4 m ρ c (Proc.devRef .tc main_v67_2) = gh1 (W0 m ρ c) := by
  rw [w4_keep m ρ c main_v67_2 (by decide), Stretch1.kept_v67_2, gh1_first]

/-- The last stretch leaves the second cell's new hidden row. -/
theorem h1_eq : after hostOps2 (W4 m ρ c) (Proc.devRef .tc main_v126) = hNew1 (W0 m ρ c) := by
  rw [Stretch2.h1_new, gi1_eq, gh1_eq, w4_keep m ρ c main_v56 (by decide), Stretch1.kept_v56,
    w2_keep m ρ c main_v56 (by decide)]
  rfl

/-- The logits. -/
theorem logits_eq : W5 m ρ c (Proc.devRef .tc main_v133) = outLogits (W0 m ρ c) := by
  show after hostOps2 (W4 m ρ c) (Proc.devRef .tc main_v133) = _
  rw [Stretch2.logits_eq, h1_eq, w4_keep m ρ c main_arg16 (by decide), w4_keep m ρ c main_arg17 (by decide),
    Stretch1.kept_arg16, Stretch1.kept_arg17, w2_keep m ρ c main_arg16 (by decide), w2_keep m ρ c main_arg17 (by decide),
    Stretch0.kept_arg16, Stretch0.kept_arg17]
  rfl

/-- The new hidden state. -/
theorem hidden_eq : W5 m ρ c (Proc.devRef .tc main_v129) = outHidden (W0 m ρ c) := by
  show after hostOps2 (W4 m ρ c) (Proc.devRef .tc main_v129) = _
  rw [Stretch2.hidden_eq, h1_eq, w4_keep m ρ c main_v95 (by decide), h0_eq]
  rfl

/-- The updated stack. -/
theorem stack_eq : W5 m ρ c (Proc.devRef .tc main_v49) = stackNew (W0 m ρ c) := by
  show after hostOps2 (W4 m ρ c) (Proc.devRef .tc main_v49) = _
  rw [Stretch2.kept_v49, w4_keep m ρ c main_v49 (by decide), Stretch1.kept_v49, w2_keep m ρ c main_v49 (by decide)]
  rfl

end Cert.KernelIdeal.Folded

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.RefRun.lean ====
/-
  The reference program's run, read back.

  The reference's @main is one straight line of 152 host operations and no kernel. They are listed here in order,
  grouped into seven stretches after what they compute; @main IS the sequence of the whole list (by unfolding), so
  every weakly fair execution terminates with EVERY buffer at the fold of the list's operations over the launch
  contents (the library's run of a host line). The fold over the whole list is the stretches' folds one after the
  other, which lets the value proof read one short stretch at a time.
-/
import proofs.«168239_j3753801416872_2_alg».proof.Proof.Gen.ReferenceIdeal
import proofs.«168239_j3753801416872_2_alg».proof.Proof.LibAfterAppend
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The first stretch: the embedding row, the stack controls and update, the cell input, the first old hidden row. -/
abbrev opsPre : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 100#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S100x2048_S1x1_S1x2048_1_0_n_n_0_1_12048 x i) : (⟨S100x2048, .f32⟩ : BufTy).Contents (Elt F) → (⟨S1x1, .i32⟩ : BufTy).Contents (Elt F) → (⟨S1x2048, .f32⟩ : BufTy).Contents (Elt F)),
    reshape main_v6 main_v7 rfl shapeCasts_S1x2048_S1x1x2048,
    unary main_arg1 main_v8 ((transpose S1x2x2048 [1, 0, 2] · transposes_S2x1x2048_S1x2x2048_1_0_2) : (⟨S2x1x2048, .f32⟩ : BufTy).Contents (Elt F) → (⟨S1x2x2048, .f32⟩ : BufTy).Contents (Elt F)),
    reshape main_v8 main_v9 rfl shapeCasts_S1x2x2048_S1x4096,
    unary main_arg4 main_v10 ((transpose S4096x3 [1, 0] · transposes_S3x4096_S4096x3_1_0) : (⟨S3x4096, .f32⟩ : BufTy).Contents (Elt F) → (⟨S4096x3, .f32⟩ : BufTy).Contents (Elt F)),
    binary main_v9 main_v10 main_v11 ((fun l r => Host.dotGeneral dot_S1x4096_S4096x3_S1x3_1_0_0_1_n_n none l r) : (⟨S1x4096, .f32⟩ : BufTy).Contents (Elt F) → (⟨S4096x3, .f32⟩ : BufTy).Contents (Elt F) → (⟨S1x3, .f32⟩ : BufTy).Contents (Elt F)),
    unary main_arg5 main_v12 (broadcastInDim S1x3 ![1] bcast_S3_S1x3_1 : (⟨S3, .f32⟩ : BufTy).Contents (Elt F) → (⟨S1x3, .f32⟩ : BufTy).Contents (Elt F)),
    binary main_v11 main_v12 main_v13 (addf : (⟨S1x3, .f32⟩ : BufTy).Contents (Elt F) → (⟨S1x3, .f32⟩ : BufTy).Contents (Elt F) → (⟨S1x3, .f32⟩ : BufTy).Contents (Elt F)),
    nullary main_cst (constant S_ .f32 0xFF800000#32),
    binary main_v13 main_cst main_v14 ((fun x v => Host.reduce FloatOps.maximumf x v reducesTo_S1x3_S1_d1 h_S_) : (⟨S1x3, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v15 (broadcastInDim S1 ![] bcast_S_S1 : (⟨S_, .f32⟩ : BufTy).Contents (Elt F) → (⟨S1, .f32⟩ : BufTy).Contents (Elt F)),
    binary main_v15 main_v14 main_v16 (maximumf : (⟨S1, .f32⟩ : BufTy).Contents (Elt F) → (⟨S1, .f32⟩ : BufTy).Contents (Elt F) → (⟨S1, .f32⟩ : BufTy).Contents (Elt F)),
    unary main_v16 main_v17 (broadcastInDim S1x1 ![0] bcast_S1_S1x1_0 : (⟨S1, .f32⟩ : BufTy).Contents (Elt F) → (⟨S1x1, .f32⟩ : BufTy).Contents (Elt F)),
    unary main_v17 main_v18 (broadcastInDim S1x3 ![0, 1] bcast_S1x1_S1x3_0_1 : (⟨S1x1, .f32⟩ : BufTy).Contents (Elt F) → (⟨S1x3, .f32⟩ : BufTy).Contents (Elt F)),
    binary main_v13 main_v18 main_v19 (subf : (⟨S1x3, .f32⟩ : BufTy).Contents (Elt F) → (⟨S1x3, .f32⟩ : BufTy).Contents (Elt F) → (⟨S1x3, .f32⟩ : BufTy).Contents (Elt F)),
    unary main_v19 main_v20 (Host.exp : (⟨S1x3, .f32⟩ : BufTy).Contents (Elt F) → (⟨S1x3, .f32⟩ : BufTy).Contents (Elt F)),
    nullary main_cst_2 (constant S_ .f32 0x00000000#32),
    binary main_v20 main_cst_2 main_v21 ((fun x v => Host.reduceAdd x v reducesTo_S1x3_S1_d1 h_S_) : (⟨S1x3, .f32⟩ : BufTy).Contents (Elt F) → (⟨S_, .f32⟩ : BufTy).Contents (Elt F) → (⟨S1, .f32⟩ : BufTy).Contents (Elt F)),
    unary main_v21 main_v22 (broadcastInDim S1x1 ![0] bcast_S1_S1x1_0 : (⟨S1, .f32⟩ : BufTy).Contents (Elt F) → (⟨S1x1, .f32⟩ : BufTy).Contents (Elt F)),
    unary main_v22 main_v23 (broadcastInDim S1x3 ![0, 1] bcast_S1x1_S1x3_0_1 : (⟨S1x1, .f32⟩ : BufTy).Contents (Elt F) → (⟨S1x3, .f32⟩ : BufTy).Contents (Elt F)),
    binary main_v20 main_v23 main_v24 (Host.divf : (⟨S1x3, .f32⟩ : BufTy).Contents (Elt F) → (⟨S1x3, .f32⟩ : BufTy).Contents (Elt F) → (⟨S1x3, .f32⟩ : BufTy).Contents (Elt F)),
    unary main_arg6 main_v25 ((transpose S4096x256 [1, 0] · transposes_S256x4096_S4096x256_1_0) : (⟨S256x4096, .f32⟩ : BufTy).Contents (Elt F) → (⟨S4096x256, .f32⟩ : BufTy).Contents (Elt F)),
    binary main_v9 main_v25 main_v26 ((fun l r => Host.dotGeneral dot_S1x4096_S4096x256_S1x256_1_0_0_1_n_n none l r) : (⟨S1x4096, .f32⟩ : BufTy).Contents (Elt F) → (⟨S4096x256, .f32⟩ : BufTy).Contents (Elt F) → (⟨S1x256, .f32⟩ : BufTy).Contents (Elt F)),
    unary main_arg7 main_v27 (broadcastInDim S1x256 ![1] bcast_S256_S1x256_1 : (⟨S256, .f32⟩ : BufTy).Contents (Elt F) → (⟨S1x256, .f32⟩ : BufTy).Contents (Elt F)),
    binary main_v26 main_v27 main_v28 (addf : (⟨S1x256, .f32⟩ : BufTy).Contents (Elt F) → (⟨S1x256, .f32⟩ : BufTy).Contents (Elt F) → (⟨S1x256, .f32⟩ : BufTy).Contents (Elt F)),
    unary main_v28 main_v29 (Host.tanh : (⟨S1x256, .f32⟩ : BufTy).Contents (Elt F) → (⟨S1x256, .f32⟩ : BufTy).Contents (Elt F)),
    reshape main_v29 main_v30 rfl shapeCasts_S1x256_S1x1x256,
    unary main_v24 main_v31 ((extractStridedSlice S1x1 ![0, 0] · slices_S1x3_S1x1_0_0) : (⟨S1x3, .f32⟩ : BufTy).Contents (Elt F) → (⟨S1x1, .f32⟩ : BufTy).Contents (Elt F)),
    reshape main_v31 main_v32 rfl shapeCasts_S1x1_S_,
    unary main_v24 main_v33 ((extractStridedSlice S1x1 ![0, 1] · slices_S1x3_S1x1_0_1) : (⟨S1x3, .f32⟩ : BufTy).Contents (Elt F) → (⟨S1x1, .f32⟩ : BufTy).Contents (Elt F)),
    reshape main_v33 main_v34 rfl shapeCasts_S1x1_S_,
    unary main_v24 main_v35 ((extractStridedSlice S1x1 ![0, 2] · slices_S1x3_S1x1_0_2) : (⟨S1x3, .f32⟩ : BufTy).Contents (Elt F) → (⟨S1x1, .f32⟩ : BufTy).Contents (Elt F)),
    reshape main_v35 main_v36 rfl shapeCasts_S1x1_S_,
    unary main_arg2 main_v37 ((extractStridedSlice S1x199x256 ![0, 0, 0] · slices_S1x200x256_S1x199x256_0_0_0) : (⟨S1x200x256, .f32⟩ : BufTy).Contents (Elt F) → (⟨S1x199x256, .f32⟩ : BufTy).Contents (Elt F)),
    binary main_v30 main_v37 main_v38 ((fun a b => concatenate S1x200x256 1 [⟨S1x1x256, a⟩, ⟨S1x199x256, b⟩] concatenates_S1x1x256_S1x199x256_S1x200x256_d1) : (⟨S1x1x256, .f32⟩ : BufTy).Contents (Elt F) → (⟨S1x199x256, .f32⟩ : BufTy).Contents (Elt F) → (⟨S1x200x256, .f32⟩ : BufTy).Contents (Elt F)),
    unary main_arg2 main_v39 ((extractStridedSlice S1x199x256 ![0, 1, 0] · slices_S1x200x256_S1x199x256_0_1_0) : (⟨S1x200x256, .f32⟩ : BufTy).Contents (Elt F) → (⟨S1x199x256, .f32⟩ : BufTy).Contents (Elt F)),
    nullary main_cst_3 (constant S_ .f32 0x00000000#32),
    unary main_cst_3 main_v40 (broadcastInDim S1x1x256 ![] bcast_S_S1x1x256 : (⟨S_, .f32⟩ : BufTy).Contents (Elt F) → (⟨S1x1x256, .f32⟩ : BufTy).Contents (Elt F)),
    binary main_v39 main_v40 main_v41 ((fun a b => concatenate S1x200x256 1 [⟨S1x199x256, a⟩, ⟨S1x1x256, b⟩] concatenates_S1x199x256_S1x1x256_S1x200x256_d1) : (⟨S1x199x256, .f32⟩ : BufTy).Contents (Elt F) → (⟨S1x1x256, .f32⟩ : BufTy).Contents (Elt F) → (⟨S1x200x256, .f32⟩ : BufTy).Contents (Elt F)),
    unary main_v36 main_v42 (broadcastInDim S1x200x256 ![] bcast_S_S1x200x256 : (⟨S_, .f32⟩ : BufTy).Contents (Elt F) → (⟨S1x200x256, .f32⟩ : BufTy).Contents (Elt F)),
    binary main_v42 main_arg2 main_v43 (mulf : (⟨S1x200x256, .f32⟩ : BufTy).Contents (Elt F) → (⟨S1x200x256, .f32⟩ : BufTy).Contents (Elt F) → (⟨S1x200x256, .f32⟩ : BufTy).Contents (Elt F)),
    unary main_v32 main_v44 (broadcastInDim S1x200x256 ![] bcast_S_S1x200x256 : (⟨S_, .f32⟩ : BufTy).Contents (Elt F) → (⟨S1x200x256, .f32⟩ : BufTy).Contents (Elt F)),
    binary main_v44 main_v38 main_v45 (mulf : (⟨S1x200x256, .f32⟩ : BufTy).Contents (Elt F) → (⟨S1x200x256, .f32⟩ : BufTy).Contents (Elt F) → (⟨S1x200x256, .f32⟩ : BufTy).Contents (Elt F)),
    binary main_v43 main_v45 main_v46 (addf : (⟨S1x200x256, .f32⟩ : BufTy).Contents (Elt F) → (⟨S1x200x256, .f32⟩ : BufTy).Contents (Elt F) → (⟨S1x200x256, .f32⟩ : BufTy).Contents (Elt F)),
    unary main_v34 main_v47 (broadcastInDim S1x200x256 ![] bcast_S_S1x200x256 : (⟨S_, .f32⟩ : BufTy).Contents (Elt F) → (⟨S1x200x256, .f32⟩ : BufTy).Contents (Elt F)),
    binary main_v47 main_v41 main_v48 (mulf : (⟨S1x200x256, .f32⟩ : BufTy).Contents (Elt F) → (⟨S1x200x256, .f32⟩ : BufTy).Contents (Elt F) → (⟨S1x200x256, .f32⟩ : BufTy).Contents (Elt F)),
    binary main_v46 main_v48 main_v49 (addf : (⟨S1x200x256, .f32⟩ : BufTy).Contents (Elt F) → (⟨S1x200x256, .f32⟩ : BufTy).Contents (Elt F) → (⟨S1x200x256, .f32⟩ : BufTy).Contents (Elt F)),
    unary main_v49 main_v50 ((extractStridedSlice S1x1x256 ![0, 0, 0] · slices_S1x200x256_S1x1x256_0_0_0) : (⟨S1x200x256, .f32⟩ : BufTy).Contents (Elt F) → (⟨S1x1x256, .f32⟩ : BufTy).Contents (Elt F)),
    binary main_v7 main_v50 main_v51 ((fun a b => concatenate S1x1x2304 2 [⟨S1x1x2048, a⟩, ⟨S1x1x256, b⟩] concatenates_S1x1x2048_S1x1x256_S1x1x2304_d2) : (⟨S1x1x2048, .f32⟩ : BufTy).Contents (Elt F) → (⟨S1x1x256, .f32⟩ : BufTy).Contents (Elt F) → (⟨S1x1x2304, .f32⟩ : BufTy).Contents (Elt F)),
    reshape main_v51 main_v52 rfl shapeCasts_S1x1x2304_S1x2304,
    unary main_arg1 main_v53 ((extractStridedSlice S1x1x2048 ![0, 0, 0] · slices_S2x1x2048_S1x1x2048_0_0_0) : (⟨S2x1x2048, .f32⟩ : BufTy).Contents (Elt F) → (⟨S1x1x2048, .f32⟩ : BufTy).Contents (Elt F)),
    reshape main_v53 main_v54 rfl shapeCasts_S1x1x2048_S1x2048 ]

/-- The first cell's two gate rows. -/
abbrev opsG0 : List (HloOp τ sig (Elt F)) :=
  [ unary main_arg8 main_v55 ((transpose S2304x6144 [1, 0] · transposes_S6144x2304_S2304x6144_1_0) : (⟨S6144x2304, .f32⟩ : BufTy).Contents (Elt F) → (⟨S2304x6144, .f32⟩ : BufTy).Contents (Elt F)),
    binary main_v52 main_v55 main_v56 ((fun l r => Host.dotGeneral dot_S1x2304_S2304x6144_S1x6144_1_0_0_1_n_n none l r) : (⟨S1x2304, .f32⟩ : BufTy).Contents (Elt F) → (⟨S2304x6144, .f32⟩ : BufTy).Contents (Elt F) → (⟨S1x6144, .f32⟩ : BufTy).Contents (Elt F)),
    unary main_arg10 main_v57 (broadcastInDim S1x6144 ![1] bcast_S6144_S1x6144_1 : (⟨S6144, .f32⟩ : BufTy).Contents (Elt F) → (⟨S1x6144, .f32⟩ : BufTy).Contents (Elt F)),
    binary main_v56 main_v57 main_v58 (addf : (⟨S1x6144, .f32⟩ : BufTy).Contents (Elt F) → (⟨S1x6144, .f32⟩ : BufTy).Contents (Elt F) → (⟨S1x6144, .f32⟩ : BufTy).Contents (Elt F)),
    unary main_arg9 main_v59 ((transpose S2048x6144 [1, 0] · transposes_S6144x2048_S2048x6144_1_0) : (⟨S6144x2048, .f32⟩ : BufTy).Contents (Elt F) → (⟨S2048x6144, .f32⟩ : BufTy).Contents (Elt F)),
    binary main_v54 main_v59 main_v60 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg11 main_v61 (broadcastInDim S1x6144 ![1] bcast_S6144_S1x6144_1 : (⟨S6144, .f32⟩ : BufTy).Contents (Elt F) → (⟨S1x6144, .f32⟩ : BufTy).Contents (Elt F)),
    binary main_v60 main_v61 main_v62 (addf : (⟨S1x6144, .f32⟩ : BufTy).Contents (Elt F) → (⟨S1x6144, .f32⟩ : BufTy).Contents (Elt F) → (⟨S1x6144, .f32⟩ : BufTy).Contents (Elt F)) ]

/-- The first cell's combine. -/
abbrev opsC0 : List (HloOp τ sig (Elt F)) :=
  [ unary main_v58 main_v63 ((extractStridedSlice S1x2048 ![0, 0] · slices_S1x6144_S1x2048_0_0) : (⟨S1x6144, .f32⟩ : BufTy).Contents (Elt F) → (⟨S1x2048, .f32⟩ : BufTy).Contents (Elt F)),
    unary main_v58 main_v64 ((extractStridedSlice S1x2048 ![0, 2048] · slices_S1x6144_S1x2048_0_2048) : (⟨S1x6144, .f32⟩ : BufTy).Contents (Elt F) → (⟨S1x2048, .f32⟩ : BufTy).Contents (Elt F)),
    unary main_v58 main_v65 ((extractStridedSlice S1x2048 ![0, 4096] · slices_S1x6144_S1x2048_0_4096) : (⟨S1x6144, .f32⟩ : BufTy).Contents (Elt F) → (⟨S1x2048, .f32⟩ : BufTy).Contents (Elt F)),
    unary main_v62 main_v66 ((extractStridedSlice S1x2048 ![0, 0] · slices_S1x6144_S1x2048_0_0) : (⟨S1x6144, .f32⟩ : BufTy).Contents (Elt F) → (⟨S1x2048, .f32⟩ : BufTy).Contents (Elt F)),
    unary main_v62 main_v67 ((extractStridedSlice S1x2048 ![0, 2048] · slices_S1x6144_S1x2048_0_2048) : (⟨S1x6144, .f32⟩ : BufTy).Contents (Elt F) → (⟨S1x2048, .f32⟩ : BufTy).Contents (Elt F)),
    unary main_v62 main_v68 ((extractStridedSlice S1x2048 ![0, 4096] · slices_S1x6144_S1x2048_0_4096) : (⟨S1x6144, .f32⟩ : BufTy).Contents (Elt F) → (⟨S1x2048, .f32⟩ : BufTy).Contents (Elt F)),
    binary main_v63 main_v66 main_v69 (addf : (⟨S1x2048, .f32⟩ : BufTy).Contents (Elt F) → (⟨S1x2048, .f32⟩ : BufTy).Contents (Elt F) → (⟨S1x2048, .f32⟩ : BufTy).Contents (Elt F)),
    unary main_v69 main_v70 (Host.negf : (⟨S1x2048, .f32⟩ : BufTy).Contents (Elt F) → (⟨S1x2048, .f32⟩ : BufTy).Contents (Elt F)),
    unary main_v70 main_v71 (Host.exp : (⟨S1x2048, .f32⟩ : BufTy).Contents (Elt F) → (⟨S1x2048, .f32⟩ : BufTy).Contents (Elt F)),
    nullary main_cst_4 (constant S_ .f32 0x3F800000#32),
    unary main_cst_4 main_v72 (broadcastInDim S1x2048 ![] bcast_S_S1x2048 : (⟨S_, .f32⟩ : BufTy).Contents (Elt F) → (⟨S1x2048, .f32⟩ : BufTy).Contents (Elt F)),
    binary main_v72 main_v71 main_v73 (addf : (⟨S1x2048, .f32⟩ : BufTy).Contents (Elt F) → (⟨S1x2048, .f32⟩ : BufTy).Contents (Elt F) → (⟨S1x2048, .f32⟩ : BufTy).Contents (Elt F)),
    nullary main_cst_5 (constant S_ .f32 0x3F800000#32),
    unary main_cst_5 main_v74 (broadcastInDim S1x2048 ![] bcast_S_S1x2048 : (⟨S_, .f32⟩ : BufTy).Contents (Elt F) → (⟨S1x2048, .f32⟩ : BufTy).Contents (Elt F)),
    binary main_v74 main_v73 main_v75 (Host.divf : (⟨S1x2048, .f32⟩ : BufTy).Contents (Elt F) → (⟨S1x2048, .f32⟩ : BufTy).Contents (Elt F) → (⟨S1x2048, .f32⟩ : BufTy).Contents (Elt F)),
    binary main_v64 main_v67 main_v76 (addf : (⟨S1x2048, .f32⟩ : BufTy).Contents (Elt F) → (⟨S1x2048, .f32⟩ : BufTy).Contents (Elt F) → (⟨S1x2048, .f32⟩ : BufTy).Contents (Elt F)),
    unary main_v76 main_v77 (Host.negf : (⟨S1x2048, .f32⟩ : BufTy).Contents (Elt F) → (⟨S1x2048, .f32⟩ : BufTy).Contents (Elt F)),
    unary main_v77 main_v78 (Host.exp : (⟨S1x2048, .f32⟩ : BufTy).Contents (Elt F) → (⟨S1x2048, .f32⟩ : BufTy).Contents (Elt F)),
    nullary main_cst_6 (constant S_ .f32 0x3F800000#32),
    unary main_cst_6 main_v79 (broadcastInDim S1x2048 ![] bcast_S_S1x2048 : (⟨S_, .f32⟩ : BufTy).Contents (Elt F) → (⟨S1x2048, .f32⟩ : BufTy).Contents (Elt F)),
    binary main_v79 main_v78 main_v80 (addf : (⟨S1x2048, .f32⟩ : BufTy).Contents (Elt F) → (⟨S1x2048, .f32⟩ : BufTy).Contents (Elt F) → (⟨S1x2048, .f32⟩ : BufTy).Contents (Elt F)),
    nullary main_cst_7 (constant S_ .f32 0x3F800000#32),
    unary main_cst_7 main_v81 (broadcastInDim S1x2048 ![] bcast_S_S1x2048 : (⟨S_, .f32⟩ : BufTy).Contents (Elt F) → (⟨S1x2048, .f32⟩ : BufTy).Contents (Elt F)),
    binary main_v81 main_v80 main_v82 (Host.divf : (⟨S1x2048, .f32⟩ : BufTy).Contents (Elt F) → (⟨S1x2048, .f32⟩ : BufTy).Contents (Elt F) → (⟨S1x2048, .f32⟩ : BufTy).Contents (Elt F)),
    binary main_v75 main_v68 main_v83 (mulf : (⟨S1x2048, .f32⟩ : BufTy).Contents (Elt F) → (⟨S1x2048, .f32⟩ : BufTy).Contents (Elt F) → (⟨S1x2048, .f32⟩ : BufTy).Contents (Elt F)),
    binary main_v65 main_v83 main_v84 (addf : (⟨S1x2048, .f32⟩ : BufTy).Contents (Elt F) → (⟨S1x2048, .f32⟩ : BufTy).Contents (Elt F) → (⟨S1x2048, .f32⟩ : BufTy).Contents (Elt F)),
    unary main_v84 main_v85 (Host.tanh : (⟨S1x2048, .f32⟩ : BufTy).Contents (Elt F) → (⟨S1x2048, .f32⟩ : BufTy).Contents (Elt F)),
    nullary main_cst_8 (constant S_ .f32 0x3F800000#32),
    unary main_cst_8 main_v86 (broadcastInDim S1x2048 ![] bcast_S_S1x2048 : (⟨S_, .f32⟩ : BufTy).Contents (Elt F) → (⟨S1x2048, .f32⟩ : BufTy).Contents (Elt F)),
    binary main_v86 main_v82 main_v87 (subf : (⟨S1x2048, .f32⟩ : BufTy).Contents (Elt F) → (⟨S1x2048, .f32⟩ : BufTy).Contents (Elt F) → (⟨S1x2048, .f32⟩ : BufTy).Contents (Elt F)),
    binary main_v87 main_v85 main_v88 (mulf : (⟨S1x2048, .f32⟩ : BufTy).Contents (Elt F) → (⟨S1x2048, .f32⟩ : BufTy).Contents (Elt F) → (⟨S1x2048, .f32⟩ : BufTy).Contents (Elt F)),
    binary main_v82 main_v54 main_v89 (mulf : (⟨S1x2048, .f32⟩ : BufTy).Contents (Elt F) → (⟨S1x2048, .f32⟩ : BufTy).Contents (Elt F) → (⟨S1x2048, .f32⟩ : BufTy).Contents (Elt F)),
    binary main_v88 main_v89 main_v90 (addf : (⟨S1x2048, .f32⟩ : BufTy).Contents (Elt F) → (⟨S1x2048, .f32⟩ : BufTy).Contents (Elt F) → (⟨S1x2048, .f32⟩ : BufTy).Contents (Elt F)) ]

/-- The second old hidden row. -/
abbrev opsH1 : List (HloOp τ sig (Elt F)) :=
  [ unary main_arg1 main_v91 ((extractStridedSlice S1x1x2048 ![1, 0, 0] · slices_S2x1x2048_S1x1x2048_1_0_0) : (⟨S2x1x2048, .f32⟩ : BufTy).Contents (Elt F) → (⟨S1x1x2048, .f32⟩ : BufTy).Contents (Elt F)),
    reshape main_v91 main_v92 rfl shapeCasts_S1x1x2048_S1x2048 ]

/-- The second cell's two gate rows. -/
abbrev opsG1 : List (HloOp τ sig (Elt F)) :=
  [ unary main_arg12 main_v93 ((transpose S2048x6144 [1, 0] · transposes_S6144x2048_S2048x6144_1_0) : (⟨S6144x2048, .f32⟩ : BufTy).Contents (Elt F) → (⟨S2048x6144, .f32⟩ : BufTy).Contents (Elt F)),
    binary main_v90 main_v93 main_v94 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg14 main_v95 (broadcastInDim S1x6144 ![1] bcast_S6144_S1x6144_1 : (⟨S6144, .f32⟩ : BufTy).Contents (Elt F) → (⟨S1x6144, .f32⟩ : BufTy).Contents (Elt F)),
    binary main_v94 main_v95 main_v96 (addf : (⟨S1x6144, .f32⟩ : BufTy).Contents (Elt F) → (⟨S1x6144, .f32⟩ : BufTy).Contents (Elt F) → (⟨S1x6144, .f32⟩ : BufTy).Contents (Elt F)),
    unary main_arg13 main_v97 ((transpose S2048x6144 [1, 0] · transposes_S6144x2048_S2048x6144_1_0) : (⟨S6144x2048, .f32⟩ : BufTy).Contents (Elt F) → (⟨S2048x6144, .f32⟩ : BufTy).Contents (Elt F)),
    binary main_v92 main_v97 main_v98 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg15 main_v99 (broadcastInDim S1x6144 ![1] bcast_S6144_S1x6144_1 : (⟨S6144, .f32⟩ : BufTy).Contents (Elt F) → (⟨S1x6144, .f32⟩ : BufTy).Contents (Elt F)),
    binary main_v98 main_v99 main_v100 (addf : (⟨S1x6144, .f32⟩ : BufTy).Contents (Elt F) → (⟨S1x6144, .f32⟩ : BufTy).Contents (Elt F) → (⟨S1x6144, .f32⟩ : BufTy).Contents (Elt F)) ]

/-- The second cell's combine. -/
abbrev opsC1 : List (HloOp τ sig (Elt F)) :=
  [ unary main_v96 main_v101 ((extractStridedSlice S1x2048 ![0, 0] · slices_S1x6144_S1x2048_0_0) : (⟨S1x6144, .f32⟩ : BufTy).Contents (Elt F) → (⟨S1x2048, .f32⟩ : BufTy).Contents (Elt F)),
    unary main_v96 main_v102 ((extractStridedSlice S1x2048 ![0, 2048] · slices_S1x6144_S1x2048_0_2048) : (⟨S1x6144, .f32⟩ : BufTy).Contents (Elt F) → (⟨S1x2048, .f32⟩ : BufTy).Contents (Elt F)),
    unary main_v96 main_v103 ((extractStridedSlice S1x2048 ![0, 4096] · slices_S1x6144_S1x2048_0_4096) : (⟨S1x6144, .f32⟩ : BufTy).Contents (Elt F) → (⟨S1x2048, .f32⟩ : BufTy).Contents (Elt F)),
    unary main_v100 main_v104 ((extractStridedSlice S1x2048 ![0, 0] · slices_S1x6144_S1x2048_0_0) : (⟨S1x6144, .f32⟩ : BufTy).Contents (Elt F) → (⟨S1x2048, .f32⟩ : BufTy).Contents (Elt F)),
    unary main_v100 main_v105 ((extractStridedSlice S1x2048 ![0, 2048] · slices_S1x6144_S1x2048_0_2048) : (⟨S1x6144, .f32⟩ : BufTy).Contents (Elt F) → (⟨S1x2048, .f32⟩ : BufTy).Contents (Elt F)),
    unary main_v100 main_v106 ((extractStridedSlice S1x2048 ![0, 4096] · slices_S1x6144_S1x2048_0_4096) : (⟨S1x6144, .f32⟩ : BufTy).Contents (Elt F) → (⟨S1x2048, .f32⟩ : BufTy).Contents (Elt F)),
    binary main_v101 main_v104 main_v107 (addf : (⟨S1x2048, .f32⟩ : BufTy).Contents (Elt F) → (⟨S1x2048, .f32⟩ : BufTy).Contents (Elt F) → (⟨S1x2048, .f32⟩ : BufTy).Contents (Elt F)),
    unary main_v107 main_v108 (Host.negf : (⟨S1x2048, .f32⟩ : BufTy).Contents (Elt F) → (⟨S1x2048, .f32⟩ : BufTy).Contents (Elt F)),
    unary main_v108 main_v109 (Host.exp : (⟨S1x2048, .f32⟩ : BufTy).Contents (Elt F) → (⟨S1x2048, .f32⟩ : BufTy).Contents (Elt F)),
    nullary main_cst_9 (constant S_ .f32 0x3F800000#32),
    unary main_cst_9 main_v110 (broadcastInDim S1x2048 ![] bcast_S_S1x2048 : (⟨S_, .f32⟩ : BufTy).Contents (Elt F) → (⟨S1x2048, .f32⟩ : BufTy).Contents (Elt F)),
    binary main_v110 main_v109 main_v111 (addf : (⟨S1x2048, .f32⟩ : BufTy).Contents (Elt F) → (⟨S1x2048, .f32⟩ : BufTy).Contents (Elt F) → (⟨S1x2048, .f32⟩ : BufTy).Contents (Elt F)),
    nullary main_cst_10 (constant S_ .f32 0x3F800000#32),
    unary main_cst_10 main_v112 (broadcastInDim S1x2048 ![] bcast_S_S1x2048 : (⟨S_, .f32⟩ : BufTy).Contents (Elt F) → (⟨S1x2048, .f32⟩ : BufTy).Contents (Elt F)),
    binary main_v112 main_v111 main_v113 (Host.divf : (⟨S1x2048, .f32⟩ : BufTy).Contents (Elt F) → (⟨S1x2048, .f32⟩ : BufTy).Contents (Elt F) → (⟨S1x2048, .f32⟩ : BufTy).Contents (Elt F)),
    binary main_v102 main_v105 main_v114 (addf : (⟨S1x2048, .f32⟩ : BufTy).Contents (Elt F) → (⟨S1x2048, .f32⟩ : BufTy).Contents (Elt F) → (⟨S1x2048, .f32⟩ : BufTy).Contents (Elt F)),
    unary main_v114 main_v115 (Host.negf : (⟨S1x2048, .f32⟩ : BufTy).Contents (Elt F) → (⟨S1x2048, .f32⟩ : BufTy).Contents (Elt F)),
    unary main_v115 main_v116 (Host.exp : (⟨S1x2048, .f32⟩ : BufTy).Contents (Elt F) → (⟨S1x2048, .f32⟩ : BufTy).Contents (Elt F)),
    nullary main_cst_11 (constant S_ .f32 0x3F800000#32),
    unary main_cst_11 main_v117 (broadcastInDim S1x2048 ![] bcast_S_S1x2048 : (⟨S_, .f32⟩ : BufTy).Contents (Elt F) → (⟨S1x2048, .f32⟩ : BufTy).Contents (Elt F)),
    binary main_v117 main_v116 main_v118 (addf : (⟨S1x2048, .f32⟩ : BufTy).Contents (Elt F) → (⟨S1x2048, .f32⟩ : BufTy).Contents (Elt F) → (⟨S1x2048, .f32⟩ : BufTy).Contents (Elt F)),
    nullary main_cst_12 (constant S_ .f32 0x3F800000#32),
    unary main_cst_12 main_v119 (broadcastInDim S1x2048 ![] bcast_S_S1x2048 : (⟨S_, .f32⟩ : BufTy).Contents (Elt F) → (⟨S1x2048, .f32⟩ : BufTy).Contents (Elt F)),
    binary main_v119 main_v118 main_v120 (Host.divf : (⟨S1x2048, .f32⟩ : BufTy).Contents (Elt F) → (⟨S1x2048, .f32⟩ : BufTy).Contents (Elt F) → (⟨S1x2048, .f32⟩ : BufTy).Contents (Elt F)),
    binary main_v113 main_v106 main_v121 (mulf : (⟨S1x2048, .f32⟩ : BufTy).Contents (Elt F) → (⟨S1x2048, .f32⟩ : BufTy).Contents (Elt F) → (⟨S1x2048, .f32⟩ : BufTy).Contents (Elt F)),
    binary main_v103 main_v121 main_v122 (addf : (⟨S1x2048, .f32⟩ : BufTy).Contents (Elt F) → (⟨S1x2048, .f32⟩ : BufTy).Contents (Elt F) → (⟨S1x2048, .f32⟩ : BufTy).Contents (Elt F)),
    unary main_v122 main_v123 (Host.tanh : (⟨S1x2048, .f32⟩ : BufTy).Contents (Elt F) → (⟨S1x2048, .f32⟩ : BufTy).Contents (Elt F)),
    nullary main_cst_13 (constant S_ .f32 0x3F800000#32),
    unary main_cst_13 main_v124 (broadcastInDim S1x2048 ![] bcast_S_S1x2048 : (⟨S_, .f32⟩ : BufTy).Contents (Elt F) → (⟨S1x2048, .f32⟩ : BufTy).Contents (Elt F)),
    binary main_v124 main_v120 main_v125 (subf : (⟨S1x2048, .f32⟩ : BufTy).Contents (Elt F) → (⟨S1x2048, .f32⟩ : BufTy).Contents (Elt F) → (⟨S1x2048, .f32⟩ : BufTy).Contents (Elt F)),
    binary main_v125 main_v123 main_v126 (mulf : (⟨S1x2048, .f32⟩ : BufTy).Contents (Elt F) → (⟨S1x2048, .f32⟩ : BufTy).Contents (Elt F) → (⟨S1x2048, .f32⟩ : BufTy).Contents (Elt F)),
    binary main_v120 main_v92 main_v127 (mulf : (⟨S1x2048, .f32⟩ : BufTy).Contents (Elt F) → (⟨S1x2048, .f32⟩ : BufTy).Contents (Elt F) → (⟨S1x2048, .f32⟩ : BufTy).Contents (Elt F)),
    binary main_v126 main_v127 main_v128 (addf : (⟨S1x2048, .f32⟩ : BufTy).Contents (Elt F) → (⟨S1x2048, .f32⟩ : BufTy).Contents (Elt F) → (⟨S1x2048, .f32⟩ : BufTy).Contents (Elt F)) ]

/-- The stacked hidden state and the output projection. -/
abbrev opsT : List (HloOp τ sig (Elt F)) :=
  [ unary main_v90 main_v129 (broadcastInDim S1x1x2048 ![1, 2] bcast_S1x2048_S1x1x2048_1_2 : (⟨S1x2048, .f32⟩ : BufTy).Contents (Elt F) → (⟨S1x1x2048, .f32⟩ : BufTy).Contents (Elt F)),
    unary main_v128 main_v130 (broadcastInDim S1x1x2048 ![1, 2] bcast_S1x2048_S1x1x2048_1_2 : (⟨S1x2048, .f32⟩ : BufTy).Contents (Elt F) → (⟨S1x1x2048, .f32⟩ : BufTy).Contents (Elt F)),
    binary main_v129 main_v130 main_v131 ((fun a b => concatenate S2x1x2048 0 [⟨S1x1x2048, a⟩, ⟨S1x1x2048, b⟩] concatenates_S1x1x2048_S1x1x2048_S2x1x2048_d0) : (⟨S1x1x2048, .f32⟩ : BufTy).Contents (Elt F) → (⟨S1x1x2048, .f32⟩ : BufTy).Contents (Elt F) → (⟨S2x1x2048, .f32⟩ : BufTy).Contents (Elt F)),
    unary main_arg16 main_v132 ((transpose S2048x100 [1, 0] · transposes_S100x2048_S2048x100_1_0) : (⟨S100x2048, .f32⟩ : BufTy).Contents (Elt F) → (⟨S2048x100, .f32⟩ : BufTy).Contents (Elt F)),
    binary main_v128 main_v132 main_v133 ((fun l r => Host.dotGeneral dot_S1x2048_S2048x100_S1x100_1_0_0_1_n_n none l r) : (⟨S1x2048, .f32⟩ : BufTy).Contents (Elt F) → (⟨S2048x100, .f32⟩ : BufTy).Contents (Elt F) → (⟨S1x100, .f32⟩ : BufTy).Contents (Elt F)),
    unary main_arg17 main_v134 (broadcastInDim S1x100 ![1] bcast_S100_S1x100_1 : (⟨S100, .f32⟩ : BufTy).Contents (Elt F) → (⟨S1x100, .f32⟩ : BufTy).Contents (Elt F)),
    binary main_v133 main_v134 main_v135 (addf : (⟨S1x100, .f32⟩ : BufTy).Contents (Elt F) → (⟨S1x100, .f32⟩ : BufTy).Contents (Elt F) → (⟨S1x100, .f32⟩ : BufTy).Contents (Elt F)) ]

/-- @main's 152 operations, in order. -/
abbrev ops : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 100#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S100x2048_S1x1_S1x2048_1_0_n_n_0_1_12048 x i) : (⟨S100x2048, .f32⟩ : BufTy).Contents (Elt F) → (⟨S1x1, .i32⟩ : BufTy).Contents (Elt F) → (⟨S1x2048, .f32⟩ : BufTy).Contents (Elt F)),
    reshape main_v6 main_v7 rfl shapeCasts_S1x2048_S1x1x2048,
    unary main_arg1 main_v8 ((transpose S1x2x2048 [1, 0, 2] · transposes_S2x1x2048_S1x2x2048_1_0_2) : (⟨S2x1x2048, .f32⟩ : BufTy).Contents (Elt F) → (⟨S1x2x2048, .f32⟩ : BufTy).Contents (Elt F)),
    reshape main_v8 main_v9 rfl shapeCasts_S1x2x2048_S1x4096,
    unary main_arg4 main_v10 ((transpose S4096x3 [1, 0] · transposes_S3x4096_S4096x3_1_0) : (⟨S3x4096, .f32⟩ : BufTy).Contents (Elt F) → (⟨S4096x3, .f32⟩ : BufTy).Contents (Elt F)),
    binary main_v9 main_v10 main_v11 ((fun l r => Host.dotGeneral dot_S1x4096_S4096x3_S1x3_1_0_0_1_n_n none l r) : (⟨S1x4096, .f32⟩ : BufTy).Contents (Elt F) → (⟨S4096x3, .f32⟩ : BufTy).Contents (Elt F) → (⟨S1x3, .f32⟩ : BufTy).Contents (Elt F)),
    unary main_arg5 main_v12 (broadcastInDim S1x3 ![1] bcast_S3_S1x3_1 : (⟨S3, .f32⟩ : BufTy).Contents (Elt F) → (⟨S1x3, .f32⟩ : BufTy).Contents (Elt F)),
    binary main_v11 main_v12 main_v13 (addf : (⟨S1x3, .f32⟩ : BufTy).Contents (Elt F) → (⟨S1x3, .f32⟩ : BufTy).Contents (Elt F) → (⟨S1x3, .f32⟩ : BufTy).Contents (Elt F)),
    nullary main_cst (constant S_ .f32 0xFF800000#32),
    binary main_v13 main_cst main_v14 ((fun x v => Host.reduce FloatOps.maximumf x v reducesTo_S1x3_S1_d1 h_S_) : (⟨S1x3, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v15 (broadcastInDim S1 ![] bcast_S_S1 : (⟨S_, .f32⟩ : BufTy).Contents (Elt F) → (⟨S1, .f32⟩ : BufTy).Contents (Elt F)),
    binary main_v15 main_v14 main_v16 (maximumf : (⟨S1, .f32⟩ : BufTy).Contents (Elt F) → (⟨S1, .f32⟩ : BufTy).Contents (Elt F) → (⟨S1, .f32⟩ : BufTy).Contents (Elt F)),
    unary main_v16 main_v17 (broadcastInDim S1x1 ![0] bcast_S1_S1x1_0 : (⟨S1, .f32⟩ : BufTy).Contents (Elt F) → (⟨S1x1, .f32⟩ : BufTy).Contents (Elt F)),
    unary main_v17 main_v18 (broadcastInDim S1x3 ![0, 1] bcast_S1x1_S1x3_0_1 : (⟨S1x1, .f32⟩ : BufTy).Contents (Elt F) → (⟨S1x3, .f32⟩ : BufTy).Contents (Elt F)),
    binary main_v13 main_v18 main_v19 (subf : (⟨S1x3, .f32⟩ : BufTy).Contents (Elt F) → (⟨S1x3, .f32⟩ : BufTy).Contents (Elt F) → (⟨S1x3, .f32⟩ : BufTy).Contents (Elt F)),
    unary main_v19 main_v20 (Host.exp : (⟨S1x3, .f32⟩ : BufTy).Contents (Elt F) → (⟨S1x3, .f32⟩ : BufTy).Contents (Elt F)),
    nullary main_cst_2 (constant S_ .f32 0x00000000#32),
    binary main_v20 main_cst_2 main_v21 ((fun x v => Host.reduceAdd x v reducesTo_S1x3_S1_d1 h_S_) : (⟨S1x3, .f32⟩ : BufTy).Contents (Elt F) → (⟨S_, .f32⟩ : BufTy).Contents (Elt F) → (⟨S1, .f32⟩ : BufTy).Contents (Elt F)),
    unary main_v21 main_v22 (broadcastInDim S1x1 ![0] bcast_S1_S1x1_0 : (⟨S1, .f32⟩ : BufTy).Contents (Elt F) → (⟨S1x1, .f32⟩ : BufTy).Contents (Elt F)),
    unary main_v22 main_v23 (broadcastInDim S1x3 ![0, 1] bcast_S1x1_S1x3_0_1 : (⟨S1x1, .f32⟩ : BufTy).Contents (Elt F) → (⟨S1x3, .f32⟩ : BufTy).Contents (Elt F)),
    binary main_v20 main_v23 main_v24 (Host.divf : (⟨S1x3, .f32⟩ : BufTy).Contents (Elt F) → (⟨S1x3, .f32⟩ : BufTy).Contents (Elt F) → (⟨S1x3, .f32⟩ : BufTy).Contents (Elt F)),
    unary main_arg6 main_v25 ((transpose S4096x256 [1, 0] · transposes_S256x4096_S4096x256_1_0) : (⟨S256x4096, .f32⟩ : BufTy).Contents (Elt F) → (⟨S4096x256, .f32⟩ : BufTy).Contents (Elt F)),
    binary main_v9 main_v25 main_v26 ((fun l r => Host.dotGeneral dot_S1x4096_S4096x256_S1x256_1_0_0_1_n_n none l r) : (⟨S1x4096, .f32⟩ : BufTy).Contents (Elt F) → (⟨S4096x256, .f32⟩ : BufTy).Contents (Elt F) → (⟨S1x256, .f32⟩ : BufTy).Contents (Elt F)),
    unary main_arg7 main_v27 (broadcastInDim S1x256 ![1] bcast_S256_S1x256_1 : (⟨S256, .f32⟩ : BufTy).Contents (Elt F) → (⟨S1x256, .f32⟩ : BufTy).Contents (Elt F)),
    binary main_v26 main_v27 main_v28 (addf : (⟨S1x256, .f32⟩ : BufTy).Contents (Elt F) → (⟨S1x256, .f32⟩ : BufTy).Contents (Elt F) → (⟨S1x256, .f32⟩ : BufTy).Contents (Elt F)),
    unary main_v28 main_v29 (Host.tanh : (⟨S1x256, .f32⟩ : BufTy).Contents (Elt F) → (⟨S1x256, .f32⟩ : BufTy).Contents (Elt F)),
    reshape main_v29 main_v30 rfl shapeCasts_S1x256_S1x1x256,
    unary main_v24 main_v31 ((extractStridedSlice S1x1 ![0, 0] · slices_S1x3_S1x1_0_0) : (⟨S1x3, .f32⟩ : BufTy).Contents (Elt F) → (⟨S1x1, .f32⟩ : BufTy).Contents (Elt F)),
    reshape main_v31 main_v32 rfl shapeCasts_S1x1_S_,
    unary main_v24 main_v33 ((extractStridedSlice S1x1 ![0, 1] · slices_S1x3_S1x1_0_1) : (⟨S1x3, .f32⟩ : BufTy).Contents (Elt F) → (⟨S1x1, .f32⟩ : BufTy).Contents (Elt F)),
    reshape main_v33 main_v34 rfl shapeCasts_S1x1_S_,
    unary main_v24 main_v35 ((extractStridedSlice S1x1 ![0, 2] · slices_S1x3_S1x1_0_2) : (⟨S1x3, .f32⟩ : BufTy).Contents (Elt F) → (⟨S1x1, .f32⟩ : BufTy).Contents (Elt F)),
    reshape main_v35 main_v36 rfl shapeCasts_S1x1_S_,
    unary main_arg2 main_v37 ((extractStridedSlice S1x199x256 ![0, 0, 0] · slices_S1x200x256_S1x199x256_0_0_0) : (⟨S1x200x256, .f32⟩ : BufTy).Contents (Elt F) → (⟨S1x199x256, .f32⟩ : BufTy).Contents (Elt F)),
    binary main_v30 main_v37 main_v38 ((fun a b => concatenate S1x200x256 1 [⟨S1x1x256, a⟩, ⟨S1x199x256, b⟩] concatenates_S1x1x256_S1x199x256_S1x200x256_d1) : (⟨S1x1x256, .f32⟩ : BufTy).Contents (Elt F) → (⟨S1x199x256, .f32⟩ : BufTy).Contents (Elt F) → (⟨S1x200x256, .f32⟩ : BufTy).Contents (Elt F)),
    unary main_arg2 main_v39 ((extractStridedSlice S1x199x256 ![0, 1, 0] · slices_S1x200x256_S1x199x256_0_1_0) : (⟨S1x200x256, .f32⟩ : BufTy).Contents (Elt F) → (⟨S1x199x256, .f32⟩ : BufTy).Contents (Elt F)),
    nullary main_cst_3 (constant S_ .f32 0x00000000#32),
    unary main_cst_3 main_v40 (broadcastInDim S1x1x256 ![] bcast_S_S1x1x256 : (⟨S_, .f32⟩ : BufTy).Contents (Elt F) → (⟨S1x1x256, .f32⟩ : BufTy).Contents (Elt F)),
    binary main_v39 main_v40 main_v41 ((fun a b => concatenate S1x200x256 1 [⟨S1x199x256, a⟩, ⟨S1x1x256, b⟩] concatenates_S1x199x256_S1x1x256_S1x200x256_d1) : (⟨S1x199x256, .f32⟩ : BufTy).Contents (Elt F) → (⟨S1x1x256, .f32⟩ : BufTy).Contents (Elt F) → (⟨S1x200x256, .f32⟩ : BufTy).Contents (Elt F)),
    unary main_v36 main_v42 (broadcastInDim S1x200x256 ![] bcast_S_S1x200x256 : (⟨S_, .f32⟩ : BufTy).Contents (Elt F) → (⟨S1x200x256, .f32⟩ : BufTy).Contents (Elt F)),
    binary main_v42 main_arg2 main_v43 (mulf : (⟨S1x200x256, .f32⟩ : BufTy).Contents (Elt F) → (⟨S1x200x256, .f32⟩ : BufTy).Contents (Elt F) → (⟨S1x200x256, .f32⟩ : BufTy).Contents (Elt F)),
    unary main_v32 main_v44 (broadcastInDim S1x200x256 ![] bcast_S_S1x200x256 : (⟨S_, .f32⟩ : BufTy).Contents (Elt F) → (⟨S1x200x256, .f32⟩ : BufTy).Contents (Elt F)),
    binary main_v44 main_v38 main_v45 (mulf : (⟨S1x200x256, .f32⟩ : BufTy).Contents (Elt F) → (⟨S1x200x256, .f32⟩ : BufTy).Contents (Elt F) → (⟨S1x200x256, .f32⟩ : BufTy).Contents (Elt F)),
    binary main_v43 main_v45 main_v46 (addf : (⟨S1x200x256, .f32⟩ : BufTy).Contents (Elt F) → (⟨S1x200x256, .f32⟩ : BufTy).Contents (Elt F) → (⟨S1x200x256, .f32⟩ : BufTy).Contents (Elt F)),
    unary main_v34 main_v47 (broadcastInDim S1x200x256 ![] bcast_S_S1x200x256 : (⟨S_, .f32⟩ : BufTy).Contents (Elt F) → (⟨S1x200x256, .f32⟩ : BufTy).Contents (Elt F)),
    binary main_v47 main_v41 main_v48 (mulf : (⟨S1x200x256, .f32⟩ : BufTy).Contents (Elt F) → (⟨S1x200x256, .f32⟩ : BufTy).Contents (Elt F) → (⟨S1x200x256, .f32⟩ : BufTy).Contents (Elt F)),
    binary main_v46 main_v48 main_v49 (addf : (⟨S1x200x256, .f32⟩ : BufTy).Contents (Elt F) → (⟨S1x200x256, .f32⟩ : BufTy).Contents (Elt F) → (⟨S1x200x256, .f32⟩ : BufTy).Contents (Elt F)),
    unary main_v49 main_v50 ((extractStridedSlice S1x1x256 ![0, 0, 0] · slices_S1x200x256_S1x1x256_0_0_0) : (⟨S1x200x256, .f32⟩ : BufTy).Contents (Elt F) → (⟨S1x1x256, .f32⟩ : BufTy).Contents (Elt F)),
    binary main_v7 main_v50 main_v51 ((fun a b => concatenate S1x1x2304 2 [⟨S1x1x2048, a⟩, ⟨S1x1x256, b⟩] concatenates_S1x1x2048_S1x1x256_S1x1x2304_d2) : (⟨S1x1x2048, .f32⟩ : BufTy).Contents (Elt F) → (⟨S1x1x256, .f32⟩ : BufTy).Contents (Elt F) → (⟨S1x1x2304, .f32⟩ : BufTy).Contents (Elt F)),
    reshape main_v51 main_v52 rfl shapeCasts_S1x1x2304_S1x2304,
    unary main_arg1 main_v53 ((extractStridedSlice S1x1x2048 ![0, 0, 0] · slices_S2x1x2048_S1x1x2048_0_0_0) : (⟨S2x1x2048, .f32⟩ : BufTy).Contents (Elt F) → (⟨S1x1x2048, .f32⟩ : BufTy).Contents (Elt F)),
    reshape main_v53 main_v54 rfl shapeCasts_S1x1x2048_S1x2048,
    unary main_arg8 main_v55 ((transpose S2304x6144 [1, 0] · transposes_S6144x2304_S2304x6144_1_0) : (⟨S6144x2304, .f32⟩ : BufTy).Contents (Elt F) → (⟨S2304x6144, .f32⟩ : BufTy).Contents (Elt F)),
    binary main_v52 main_v55 main_v56 ((fun l r => Host.dotGeneral dot_S1x2304_S2304x6144_S1x6144_1_0_0_1_n_n none l r) : (⟨S1x2304, .f32⟩ : BufTy).Contents (Elt F) → (⟨S2304x6144, .f32⟩ : BufTy).Contents (Elt F) → (⟨S1x6144, .f32⟩ : BufTy).Contents (Elt F)),
    unary main_arg10 main_v57 (broadcastInDim S1x6144 ![1] bcast_S6144_S1x6144_1 : (⟨S6144, .f32⟩ : BufTy).Contents (Elt F) → (⟨S1x6144, .f32⟩ : BufTy).Contents (Elt F)),
    binary main_v56 main_v57 main_v58 (addf : (⟨S1x6144, .f32⟩ : BufTy).Contents (Elt F) → (⟨S1x6144, .f32⟩ : BufTy).Contents (Elt F) → (⟨S1x6144, .f32⟩ : BufTy).Contents (Elt F)),
    unary main_arg9 main_v59 ((transpose S2048x6144 [1, 0] · transposes_S6144x2048_S2048x6144_1_0) : (⟨S6144x2048, .f32⟩ : BufTy).Contents (Elt F) → (⟨S2048x6144, .f32⟩ : BufTy).Contents (Elt F)),
    binary main_v54 main_v59 main_v60 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg11 main_v61 (broadcastInDim S1x6144 ![1] bcast_S6144_S1x6144_1 : (⟨S6144, .f32⟩ : BufTy).Contents (Elt F) → (⟨S1x6144, .f32⟩ : BufTy).Contents (Elt F)),
    binary main_v60 main_v61 main_v62 (addf : (⟨S1x6144, .f32⟩ : BufTy).Contents (Elt F) → (⟨S1x6144, .f32⟩ : BufTy).Contents (Elt F) → (⟨S1x6144, .f32⟩ : BufTy).Contents (Elt F)),
    unary main_v58 main_v63 ((extractStridedSlice S1x2048 ![0, 0] · slices_S1x6144_S1x2048_0_0) : (⟨S1x6144, .f32⟩ : BufTy).Contents (Elt F) → (⟨S1x2048, .f32⟩ : BufTy).Contents (Elt F)),
    unary main_v58 main_v64 ((extractStridedSlice S1x2048 ![0, 2048] · slices_S1x6144_S1x2048_0_2048) : (⟨S1x6144, .f32⟩ : BufTy).Contents (Elt F) → (⟨S1x2048, .f32⟩ : BufTy).Contents (Elt F)),
    unary main_v58 main_v65 ((extractStridedSlice S1x2048 ![0, 4096] · slices_S1x6144_S1x2048_0_4096) : (⟨S1x6144, .f32⟩ : BufTy).Contents (Elt F) → (⟨S1x2048, .f32⟩ : BufTy).Contents (Elt F)),
    unary main_v62 main_v66 ((extractStridedSlice S1x2048 ![0, 0] · slices_S1x6144_S1x2048_0_0) : (⟨S1x6144, .f32⟩ : BufTy).Contents (Elt F) → (⟨S1x2048, .f32⟩ : BufTy).Contents (Elt F)),
    unary main_v62 main_v67 ((extractStridedSlice S1x2048 ![0, 2048] · slices_S1x6144_S1x2048_0_2048) : (⟨S1x6144, .f32⟩ : BufTy).Contents (Elt F) → (⟨S1x2048, .f32⟩ : BufTy).Contents (Elt F)),
    unary main_v62 main_v68 ((extractStridedSlice S1x2048 ![0, 4096] · slices_S1x6144_S1x2048_0_4096) : (⟨S1x6144, .f32⟩ : BufTy).Contents (Elt F) → (⟨S1x2048, .f32⟩ : BufTy).Contents (Elt F)),
    binary main_v63 main_v66 main_v69 (addf : (⟨S1x2048, .f32⟩ : BufTy).Contents (Elt F) → (⟨S1x2048, .f32⟩ : BufTy).Contents (Elt F) → (⟨S1x2048, .f32⟩ : BufTy).Contents (Elt F)),
    unary main_v69 main_v70 (Host.negf : (⟨S1x2048, .f32⟩ : BufTy).Contents (Elt F) → (⟨S1x2048, .f32⟩ : BufTy).Contents (Elt F)),
    unary main_v70 main_v71 (Host.exp : (⟨S1x2048, .f32⟩ : BufTy).Contents (Elt F) → (⟨S1x2048, .f32⟩ : BufTy).Contents (Elt F)),
    nullary main_cst_4 (constant S_ .f32 0x3F800000#32),
    unary main_cst_4 main_v72 (broadcastInDim S1x2048 ![] bcast_S_S1x2048 : (⟨S_, .f32⟩ : BufTy).Contents (Elt F) → (⟨S1x2048, .f32⟩ : BufTy).Contents (Elt F)),
    binary main_v72 main_v71 main_v73 (addf : (⟨S1x2048, .f32⟩ : BufTy).Contents (Elt F) → (⟨S1x2048, .f32⟩ : BufTy).Contents (Elt F) → (⟨S1x2048, .f32⟩ : BufTy).Contents (Elt F)),
    nullary main_cst_5 (constant S_ .f32 0x3F800000#32),
    unary main_cst_5 main_v74 (broadcastInDim S1x2048 ![] bcast_S_S1x2048 : (⟨S_, .f32⟩ : BufTy).Contents (Elt F) → (⟨S1x2048, .f32⟩ : BufTy).Contents (Elt F)),
    binary main_v74 main_v73 main_v75 (Host.divf : (⟨S1x2048, .f32⟩ : BufTy).Contents (Elt F) → (⟨S1x2048, .f32⟩ : BufTy).Contents (Elt F) → (⟨S1x2048, .f32⟩ : BufTy).Contents (Elt F)),
    binary main_v64 main_v67 main_v76 (addf : (⟨S1x2048, .f32⟩ : BufTy).Contents (Elt F) → (⟨S1x2048, .f32⟩ : BufTy).Contents (Elt F) → (⟨S1x2048, .f32⟩ : BufTy).Contents (Elt F)),
    unary main_v76 main_v77 (Host.negf : (⟨S1x2048, .f32⟩ : BufTy).Contents (Elt F) → (⟨S1x2048, .f32⟩ : BufTy).Contents (Elt F)),
    unary main_v77 main_v78 (Host.exp : (⟨S1x2048, .f32⟩ : BufTy).Contents (Elt F) → (⟨S1x2048, .f32⟩ : BufTy).Contents (Elt F)),
    nullary main_cst_6 (constant S_ .f32 0x3F800000#32),
    unary main_cst_6 main_v79 (broadcastInDim S1x2048 ![] bcast_S_S1x2048 : (⟨S_, .f32⟩ : BufTy).Contents (Elt F) → (⟨S1x2048, .f32⟩ : BufTy).Contents (Elt F)),
    binary main_v79 main_v78 main_v80 (addf : (⟨S1x2048, .f32⟩ : BufTy).Contents (Elt F) → (⟨S1x2048, .f32⟩ : BufTy).Contents (Elt F) → (⟨S1x2048, .f32⟩ : BufTy).Contents (Elt F)),
    nullary main_cst_7 (constant S_ .f32 0x3F800000#32),
    unary main_cst_7 main_v81 (broadcastInDim S1x2048 ![] bcast_S_S1x2048 : (⟨S_, .f32⟩ : BufTy).Contents (Elt F) → (⟨S1x2048, .f32⟩ : BufTy).Contents (Elt F)),
    binary main_v81 main_v80 main_v82 (Host.divf : (⟨S1x2048, .f32⟩ : BufTy).Contents (Elt F) → (⟨S1x2048, .f32⟩ : BufTy).Contents (Elt F) → (⟨S1x2048, .f32⟩ : BufTy).Contents (Elt F)),
    binary main_v75 main_v68 main_v83 (mulf : (⟨S1x2048, .f32⟩ : BufTy).Contents (Elt F) → (⟨S1x2048, .f32⟩ : BufTy).Contents (Elt F) → (⟨S1x2048, .f32⟩ : BufTy).Contents (Elt F)),
    binary main_v65 main_v83 main_v84 (addf : (⟨S1x2048, .f32⟩ : BufTy).Contents (Elt F) → (⟨S1x2048, .f32⟩ : BufTy).Contents (Elt F) → (⟨S1x2048, .f32⟩ : BufTy).Contents (Elt F)),
    unary main_v84 main_v85 (Host.tanh : (⟨S1x2048, .f32⟩ : BufTy).Contents (Elt F) → (⟨S1x2048, .f32⟩ : BufTy).Contents (Elt F)),
    nullary main_cst_8 (constant S_ .f32 0x3F800000#32),
    unary main_cst_8 main_v86 (broadcastInDim S1x2048 ![] bcast_S_S1x2048 : (⟨S_, .f32⟩ : BufTy).Contents (Elt F) → (⟨S1x2048, .f32⟩ : BufTy).Contents (Elt F)),
    binary main_v86 main_v82 main_v87 (subf : (⟨S1x2048, .f32⟩ : BufTy).Contents (Elt F) → (⟨S1x2048, .f32⟩ : BufTy).Contents (Elt F) → (⟨S1x2048, .f32⟩ : BufTy).Contents (Elt F)),
    binary main_v87 main_v85 main_v88 (mulf : (⟨S1x2048, .f32⟩ : BufTy).Contents (Elt F) → (⟨S1x2048, .f32⟩ : BufTy).Contents (Elt F) → (⟨S1x2048, .f32⟩ : BufTy).Contents (Elt F)),
    binary main_v82 main_v54 main_v89 (mulf : (⟨S1x2048, .f32⟩ : BufTy).Contents (Elt F) → (⟨S1x2048, .f32⟩ : BufTy).Contents (Elt F) → (⟨S1x2048, .f32⟩ : BufTy).Contents (Elt F)),
    binary main_v88 main_v89 main_v90 (addf : (⟨S1x2048, .f32⟩ : BufTy).Contents (Elt F) → (⟨S1x2048, .f32⟩ : BufTy).Contents (Elt F) → (⟨S1x2048, .f32⟩ : BufTy).Contents (Elt F)),
    unary main_arg1 main_v91 ((extractStridedSlice S1x1x2048 ![1, 0, 0] · slices_S2x1x2048_S1x1x2048_1_0_0) : (⟨S2x1x2048, .f32⟩ : BufTy).Contents (Elt F) → (⟨S1x1x2048, .f32⟩ : BufTy).Contents (Elt F)),
    reshape main_v91 main_v92 rfl shapeCasts_S1x1x2048_S1x2048,
    unary main_arg12 main_v93 ((transpose S2048x6144 [1, 0] · transposes_S6144x2048_S2048x6144_1_0) : (⟨S6144x2048, .f32⟩ : BufTy).Contents (Elt F) → (⟨S2048x6144, .f32⟩ : BufTy).Contents (Elt F)),
    binary main_v90 main_v93 main_v94 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg14 main_v95 (broadcastInDim S1x6144 ![1] bcast_S6144_S1x6144_1 : (⟨S6144, .f32⟩ : BufTy).Contents (Elt F) → (⟨S1x6144, .f32⟩ : BufTy).Contents (Elt F)),
    binary main_v94 main_v95 main_v96 (addf : (⟨S1x6144, .f32⟩ : BufTy).Contents (Elt F) → (⟨S1x6144, .f32⟩ : BufTy).Contents (Elt F) → (⟨S1x6144, .f32⟩ : BufTy).Contents (Elt F)),
    unary main_arg13 main_v97 ((transpose S2048x6144 [1, 0] · transposes_S6144x2048_S2048x6144_1_0) : (⟨S6144x2048, .f32⟩ : BufTy).Contents (Elt F) → (⟨S2048x6144, .f32⟩ : BufTy).Contents (Elt F)),
    binary main_v92 main_v97 main_v98 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg15 main_v99 (broadcastInDim S1x6144 ![1] bcast_S6144_S1x6144_1 : (⟨S6144, .f32⟩ : BufTy).Contents (Elt F) → (⟨S1x6144, .f32⟩ : BufTy).Contents (Elt F)),
    binary main_v98 main_v99 main_v100 (addf : (⟨S1x6144, .f32⟩ : BufTy).Contents (Elt F) → (⟨S1x6144, .f32⟩ : BufTy).Contents (Elt F) → (⟨S1x6144, .f32⟩ : BufTy).Contents (Elt F)),
    unary main_v96 main_v101 ((extractStridedSlice S1x2048 ![0, 0] · slices_S1x6144_S1x2048_0_0) : (⟨S1x6144, .f32⟩ : BufTy).Contents (Elt F) → (⟨S1x2048, .f32⟩ : BufTy).Contents (Elt F)),
    unary main_v96 main_v102 ((extractStridedSlice S1x2048 ![0, 2048] · slices_S1x6144_S1x2048_0_2048) : (⟨S1x6144, .f32⟩ : BufTy).Contents (Elt F) → (⟨S1x2048, .f32⟩ : BufTy).Contents (Elt F)),
    unary main_v96 main_v103 ((extractStridedSlice S1x2048 ![0, 4096] · slices_S1x6144_S1x2048_0_4096) : (⟨S1x6144, .f32⟩ : BufTy).Contents (Elt F) → (⟨S1x2048, .f32⟩ : BufTy).Contents (Elt F)),
    unary main_v100 main_v104 ((extractStridedSlice S1x2048 ![0, 0] · slices_S1x6144_S1x2048_0_0) : (⟨S1x6144, .f32⟩ : BufTy).Contents (Elt F) → (⟨S1x2048, .f32⟩ : BufTy).Contents (Elt F)),
    unary main_v100 main_v105 ((extractStridedSlice S1x2048 ![0, 2048] · slices_S1x6144_S1x2048_0_2048) : (⟨S1x6144, .f32⟩ : BufTy).Contents (Elt F) → (⟨S1x2048, .f32⟩ : BufTy).Contents (Elt F)),
    unary main_v100 main_v106 ((extractStridedSlice S1x2048 ![0, 4096] · slices_S1x6144_S1x2048_0_4096) : (⟨S1x6144, .f32⟩ : BufTy).Contents (Elt F) → (⟨S1x2048, .f32⟩ : BufTy).Contents (Elt F)),
    binary main_v101 main_v104 main_v107 (addf : (⟨S1x2048, .f32⟩ : BufTy).Contents (Elt F) → (⟨S1x2048, .f32⟩ : BufTy).Contents (Elt F) → (⟨S1x2048, .f32⟩ : BufTy).Contents (Elt F)),
    unary main_v107 main_v108 (Host.negf : (⟨S1x2048, .f32⟩ : BufTy).Contents (Elt F) → (⟨S1x2048, .f32⟩ : BufTy).Contents (Elt F)),
    unary main_v108 main_v109 (Host.exp : (⟨S1x2048, .f32⟩ : BufTy).Contents (Elt F) → (⟨S1x2048, .f32⟩ : BufTy).Contents (Elt F)),
    nullary main_cst_9 (constant S_ .f32 0x3F800000#32),
    unary main_cst_9 main_v110 (broadcastInDim S1x2048 ![] bcast_S_S1x2048 : (⟨S_, .f32⟩ : BufTy).Contents (Elt F) → (⟨S1x2048, .f32⟩ : BufTy).Contents (Elt F)),
    binary main_v110 main_v109 main_v111 (addf : (⟨S1x2048, .f32⟩ : BufTy).Contents (Elt F) → (⟨S1x2048, .f32⟩ : BufTy).Contents (Elt F) → (⟨S1x2048, .f32⟩ : BufTy).Contents (Elt F)),
    nullary main_cst_10 (constant S_ .f32 0x3F800000#32),
    unary main_cst_10 main_v112 (broadcastInDim S1x2048 ![] bcast_S_S1x2048 : (⟨S_, .f32⟩ : BufTy).Contents (Elt F) → (⟨S1x2048, .f32⟩ : BufTy).Contents (Elt F)),
    binary main_v112 main_v111 main_v113 (Host.divf : (⟨S1x2048, .f32⟩ : BufTy).Contents (Elt F) → (⟨S1x2048, .f32⟩ : BufTy).Contents (Elt F) → (⟨S1x2048, .f32⟩ : BufTy).Contents (Elt F)),
    binary main_v102 main_v105 main_v114 (addf : (⟨S1x2048, .f32⟩ : BufTy).Contents (Elt F) → (⟨S1x2048, .f32⟩ : BufTy).Contents (Elt F) → (⟨S1x2048, .f32⟩ : BufTy).Contents (Elt F)),
    unary main_v114 main_v115 (Host.negf : (⟨S1x2048, .f32⟩ : BufTy).Contents (Elt F) → (⟨S1x2048, .f32⟩ : BufTy).Contents (Elt F)),
    unary main_v115 main_v116 (Host.exp : (⟨S1x2048, .f32⟩ : BufTy).Contents (Elt F) → (⟨S1x2048, .f32⟩ : BufTy).Contents (Elt F)),
    nullary main_cst_11 (constant S_ .f32 0x3F800000#32),
    unary main_cst_11 main_v117 (broadcastInDim S1x2048 ![] bcast_S_S1x2048 : (⟨S_, .f32⟩ : BufTy).Contents (Elt F) → (⟨S1x2048, .f32⟩ : BufTy).Contents (Elt F)),
    binary main_v117 main_v116 main_v118 (addf : (⟨S1x2048, .f32⟩ : BufTy).Contents (Elt F) → (⟨S1x2048, .f32⟩ : BufTy).Contents (Elt F) → (⟨S1x2048, .f32⟩ : BufTy).Contents (Elt F)),
    nullary main_cst_12 (constant S_ .f32 0x3F800000#32),
    unary main_cst_12 main_v119 (broadcastInDim S1x2048 ![] bcast_S_S1x2048 : (⟨S_, .f32⟩ : BufTy).Contents (Elt F) → (⟨S1x2048, .f32⟩ : BufTy).Contents (Elt F)),
    binary main_v119 main_v118 main_v120 (Host.divf : (⟨S1x2048, .f32⟩ : BufTy).Contents (Elt F) → (⟨S1x2048, .f32⟩ : BufTy).Contents (Elt F) → (⟨S1x2048, .f32⟩ : BufTy).Contents (Elt F)),
    binary main_v113 main_v106 main_v121 (mulf : (⟨S1x2048, .f32⟩ : BufTy).Contents (Elt F) → (⟨S1x2048, .f32⟩ : BufTy).Contents (Elt F) → (⟨S1x2048, .f32⟩ : BufTy).Contents (Elt F)),
    binary main_v103 main_v121 main_v122 (addf : (⟨S1x2048, .f32⟩ : BufTy).Contents (Elt F) → (⟨S1x2048, .f32⟩ : BufTy).Contents (Elt F) → (⟨S1x2048, .f32⟩ : BufTy).Contents (Elt F)),
    unary main_v122 main_v123 (Host.tanh : (⟨S1x2048, .f32⟩ : BufTy).Contents (Elt F) → (⟨S1x2048, .f32⟩ : BufTy).Contents (Elt F)),
    nullary main_cst_13 (constant S_ .f32 0x3F800000#32),
    unary main_cst_13 main_v124 (broadcastInDim S1x2048 ![] bcast_S_S1x2048 : (⟨S_, .f32⟩ : BufTy).Contents (Elt F) → (⟨S1x2048, .f32⟩ : BufTy).Contents (Elt F)),
    binary main_v124 main_v120 main_v125 (subf : (⟨S1x2048, .f32⟩ : BufTy).Contents (Elt F) → (⟨S1x2048, .f32⟩ : BufTy).Contents (Elt F) → (⟨S1x2048, .f32⟩ : BufTy).Contents (Elt F)),
    binary main_v125 main_v123 main_v126 (mulf : (⟨S1x2048, .f32⟩ : BufTy).Contents (Elt F) → (⟨S1x2048, .f32⟩ : BufTy).Contents (Elt F) → (⟨S1x2048, .f32⟩ : BufTy).Contents (Elt F)),
    binary main_v120 main_v92 main_v127 (mulf : (⟨S1x2048, .f32⟩ : BufTy).Contents (Elt F) → (⟨S1x2048, .f32⟩ : BufTy).Contents (Elt F) → (⟨S1x2048, .f32⟩ : BufTy).Contents (Elt F)),
    binary main_v126 main_v127 main_v128 (addf : (⟨S1x2048, .f32⟩ : BufTy).Contents (Elt F) → (⟨S1x2048, .f32⟩ : BufTy).Contents (Elt F) → (⟨S1x2048, .f32⟩ : BufTy).Contents (Elt F)),
    unary main_v90 main_v129 (broadcastInDim S1x1x2048 ![1, 2] bcast_S1x2048_S1x1x2048_1_2 : (⟨S1x2048, .f32⟩ : BufTy).Contents (Elt F) → (⟨S1x1x2048, .f32⟩ : BufTy).Contents (Elt F)),
    unary main_v128 main_v130 (broadcastInDim S1x1x2048 ![1, 2] bcast_S1x2048_S1x1x2048_1_2 : (⟨S1x2048, .f32⟩ : BufTy).Contents (Elt F) → (⟨S1x1x2048, .f32⟩ : BufTy).Contents (Elt F)),
    binary main_v129 main_v130 main_v131 ((fun a b => concatenate S2x1x2048 0 [⟨S1x1x2048, a⟩, ⟨S1x1x2048, b⟩] concatenates_S1x1x2048_S1x1x2048_S2x1x2048_d0) : (⟨S1x1x2048, .f32⟩ : BufTy).Contents (Elt F) → (⟨S1x1x2048, .f32⟩ : BufTy).Contents (Elt F) → (⟨S2x1x2048, .f32⟩ : BufTy).Contents (Elt F)),
    unary main_arg16 main_v132 ((transpose S2048x100 [1, 0] · transposes_S100x2048_S2048x100_1_0) : (⟨S100x2048, .f32⟩ : BufTy).Contents (Elt F) → (⟨S2048x100, .f32⟩ : BufTy).Contents (Elt F)),
    binary main_v128 main_v132 main_v133 ((fun l r => Host.dotGeneral dot_S1x2048_S2048x100_S1x100_1_0_0_1_n_n none l r) : (⟨S1x2048, .f32⟩ : BufTy).Contents (Elt F) → (⟨S2048x100, .f32⟩ : BufTy).Contents (Elt F) → (⟨S1x100, .f32⟩ : BufTy).Contents (Elt F)),
    unary main_arg17 main_v134 (broadcastInDim S1x100 ![1] bcast_S100_S1x100_1 : (⟨S100, .f32⟩ : BufTy).Contents (Elt F) → (⟨S1x100, .f32⟩ : BufTy).Contents (Elt F)),
    binary main_v133 main_v134 main_v135 (addf : (⟨S1x100, .f32⟩ : BufTy).Contents (Elt F) → (⟨S1x100, .f32⟩ : BufTy).Contents (Elt F) → (⟨S1x100, .f32⟩ : BufTy).Contents (Elt F)) ]

/-- The whole line is the seven stretches one after the other. -/
theorem ops_split : (ops : List (HloOp τ sig (Elt F))) = opsPre ++ (opsG0 ++ (opsC0 ++ (opsH1 ++ (opsG1 ++ (opsC1 ++ opsT))))) := rfl

/-- The fold over the whole line is the stretches' folds composed. -/
theorem after_ops (V : Valuation τ sig (Elt F)) :
    after ops V = after opsT (after opsC1 (after opsG1 (after opsH1 (after opsC0 (after opsG0 (after opsPre V)))))) := by
  rw [ops_split]
  simp only [Cert.Lib.AfterAppend.after_append]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., reshape_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., nullary_bufs_sub .., unary_bufs_sub .., binary_bufs_sub .., unary_bufs_sub .., binary_bufs_sub .., unary_bufs_sub .., binary_bufs_sub .., binary_bufs_sub .., unary_bufs_sub .., binary_bufs_sub .., binary_bufs_sub .., unary_bufs_sub .., binary_bufs_sub .., reshape_bufs_sub .., unary_bufs_sub .., reshape_bufs_sub .., unary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., reshape_bufs_sub .., unary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., unary_bufs_sub .., binary_bufs_sub .., unary_bufs_sub .., binary_bufs_sub .., unary_bufs_sub .., binary_bufs_sub ..⟩

/-- Every weakly fair execution of the reference terminates, nothing faulting, with every buffer at the fold of
    the line over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Line

end
-- ==== Proof.RefStretches.lean ====
/-
  The reference's stretches after the first, each read at the buffers later stretches use, from ANY contents `W` of
  the buffers at its start: a gate stretch leaves each gate row at the host product of its input row with the
  transposed weight plus the broadcast bias; a combine stretch leaves the cell's new hidden row at the
  specification's `combine` of the two gate rows and the old hidden row; the last stretch stacks the new hidden rows
  and projects the second; and a buffer a stretch does not write is what it was.
-/
import proofs.«168239_j3753801416872_2_alg».proof.Proof.RefRun
import proofs.«168239_j3753801416872_2_alg».proof.Proof.CellSpec

noncomputable section

namespace Cert.ReferenceIdeal.Stretches

open Cert.ReferenceIdeal Cert.ReferenceIdeal.Gen Cert.ReferenceIdeal.Line Cert.KernelIdeal.Cell
open Idealize.ShloMosaic Idealize.ShloMosaic.TcCoe Idealize.SL.Sem Idealize.ShloMosaic.StableHlo

variable {F : FTy → Type} [FloatOps F] (W : Valuation τ sig (Elt F))

set_option maxRecDepth 8192 in
set_option maxHeartbeats 4000000 in
/-- The first cell's input gate row. -/
theorem g0_gi : after opsG0 W (Proc.devRef .tc main_v58) = addf (Host.dotGeneral dot_S1x2304_S2304x6144_S1x6144_1_0_0_1_n_n none (W (Proc.devRef .tc main_v52)) (transpose S2304x6144 [1, 0] (W (Proc.devRef .tc main_arg8)) transposes_S6144x2304_S2304x6144_1_0)) (broadcastInDim S1x6144 ![1] bcast_S6144_S1x6144_1 (W (Proc.devRef .tc main_arg10))) := by
  after_results_simp <;> rfl

set_option maxRecDepth 8192 in
set_option maxHeartbeats 4000000 in
/-- The first cell's hidden gate row. -/
theorem g0_gh : after opsG0 W (Proc.devRef .tc main_v62) = addf (Host.dotGeneral dot_S1x2048_S2048x6144_S1x6144_1_0_0_1_n_n none (W (Proc.devRef .tc main_v54)) (transpose S2048x6144 [1, 0] (W (Proc.devRef .tc main_arg9)) transposes_S6144x2048_S2048x6144_1_0)) (broadcastInDim S1x6144 ![1] bcast_S6144_S1x6144_1 (W (Proc.devRef .tc main_arg11))) := by
  after_results_simp <;> rfl

set_option maxRecDepth 8192 in
set_option maxHeartbeats 4000000 in
/-- `main_v54` is not written. -/
theorem g0_kept_v54 : after opsG0 W (Proc.devRef .tc main_v54) = W (Proc.devRef .tc main_v54) := by
  after_results_simp <;> rfl

set_option maxRecDepth 8192 in
set_option maxHeartbeats 4000000 in
/-- `main_v49` is not written. -/
theorem g0_kept_v49 : after opsG0 W (Proc.devRef .tc main_v49) = W (Proc.devRef .tc main_v49) := by
  after_results_simp <;> rfl

set_option maxRecDepth 8192 in
set_option maxHeartbeats 4000000 in
/-- `main_arg1` is not written. -/
theorem g0_kept_arg1 : after opsG0 W (Proc.devRef .tc main_arg1) = W (Proc.devRef .tc main_arg1) := by
  after_results_simp <;> rfl

set_option maxRecDepth 8192 in
set_option maxHeartbeats 4000000 in
/-- `main_arg12` is not written. -/
theorem g0_kept_arg12 : after opsG0 W (Proc.devRef .tc main_arg12) = W (Proc.devRef .tc main_arg12) := by
  after_results_simp <;> rfl

set_option maxRecDepth 8192 in
set_option maxHeartbeats 4000000 in
/-- `main_arg13` is not written. -/
theorem g0_kept_arg13 : after opsG0 W (Proc.devRef .tc main_arg13) = W (Proc.devRef .tc main_arg13) := by
  after_results_simp <;> rfl

set_option maxRecDepth 8192 in
set_option maxHeartbeats 4000000 in
/-- `main_arg14` is not written. -/
theorem g0_kept_arg14 : after opsG0 W (Proc.devRef .tc main_arg14) = W (Proc.devRef .tc main_arg14) := by
  after_results_simp <;> rfl

set_option maxRecDepth 8192 in
set_option maxHeartbeats 4000000 in
/-- `main_arg15` is not written. -/
theorem g0_kept_arg15 : after opsG0 W (Proc.devRef .tc main_arg15) = W (Proc.devRef .tc main_arg15) := by
  after_results_simp <;> rfl

set_option maxRecDepth 8192 in
set_option maxHeartbeats 4000000 in
/-- `main_arg16` is not written. -/
theorem g0_kept_arg16 : after opsG0 W (Proc.devRef .tc main_arg16) = W (Proc.devRef .tc main_arg16) := by
  after_results_simp <;> rfl

set_option maxRecDepth 8192 in
set_option maxHeartbeats 4000000 in
/-- `main_arg17` is not written. -/
theorem g0_kept_arg17 : after opsG0 W (Proc.devRef .tc main_arg17) = W (Proc.devRef .tc main_arg17) := by
  after_results_simp <;> rfl

set_option maxRecDepth 8192 in
set_option maxHeartbeats 4000000 in
/-- The first cell's new hidden row. -/
theorem c0_h : after opsC0 W (Proc.devRef .tc main_v90) = combine (W (Proc.devRef .tc main_v58)) (W (Proc.devRef .tc main_v62)) (W (Proc.devRef .tc main_v54)) := by
  after_results_simp <;> rfl

set_option maxRecDepth 8192 in
set_option maxHeartbeats 4000000 in
/-- `main_v49` is not written. -/
theorem c0_kept_v49 : after opsC0 W (Proc.devRef .tc main_v49) = W (Proc.devRef .tc main_v49) := by
  after_results_simp <;> rfl

set_option maxRecDepth 8192 in
set_option maxHeartbeats 4000000 in
/-- `main_arg1` is not written. -/
theorem c0_kept_arg1 : after opsC0 W (Proc.devRef .tc main_arg1) = W (Proc.devRef .tc main_arg1) := by
  after_results_simp <;> rfl

set_option maxRecDepth 8192 in
set_option maxHeartbeats 4000000 in
/-- `main_arg12` is not written. -/
theorem c0_kept_arg12 : after opsC0 W (Proc.devRef .tc main_arg12) = W (Proc.devRef .tc main_arg12) := by
  after_results_simp <;> rfl

set_option maxRecDepth 8192 in
set_option maxHeartbeats 4000000 in
/-- `main_arg13` is not written. -/
theorem c0_kept_arg13 : after opsC0 W (Proc.devRef .tc main_arg13) = W (Proc.devRef .tc main_arg13) := by
  after_results_simp <;> rfl

set_option maxRecDepth 8192 in
set_option maxHeartbeats 4000000 in
/-- `main_arg14` is not written. -/
theorem c0_kept_arg14 : after opsC0 W (Proc.devRef .tc main_arg14) = W (Proc.devRef .tc main_arg14) := by
  after_results_simp <;> rfl

set_option maxRecDepth 8192 in
set_option maxHeartbeats 4000000 in
/-- `main_arg15` is not written. -/
theorem c0_kept_arg15 : after opsC0 W (Proc.devRef .tc main_arg15) = W (Proc.devRef .tc main_arg15) := by
  after_results_simp <;> rfl

set_option maxRecDepth 8192 in
set_option maxHeartbeats 4000000 in
/-- `main_arg16` is not written. -/
theorem c0_kept_arg16 : after opsC0 W (Proc.devRef .tc main_arg16) = W (Proc.devRef .tc main_arg16) := by
  after_results_simp <;> rfl

set_option maxRecDepth 8192 in
set_option maxHeartbeats 4000000 in
/-- `main_arg17` is not written. -/
theorem c0_kept_arg17 : after opsC0 W (Proc.devRef .tc main_arg17) = W (Proc.devRef .tc main_arg17) := by
  after_results_simp <;> rfl

set_option maxRecDepth 8192 in
set_option maxHeartbeats 4000000 in
/-- The second cell's old hidden row: row 1 of the hidden state. -/
theorem h1_old : after opsH1 W (Proc.devRef .tc main_v92) = shapeCast S1x2048 (extractStridedSlice S1x1x2048 ![1, 0, 0] (W (Proc.devRef .tc main_arg1)) slices_S2x1x2048_S1x1x2048_1_0_0) shapeCasts_S1x1x2048_S1x2048 := by
  after_results_simp <;> rfl

set_option maxRecDepth 8192 in
set_option maxHeartbeats 4000000 in
/-- `main_v90` is not written. -/
theorem h1_kept_v90 : after opsH1 W (Proc.devRef .tc main_v90) = W (Proc.devRef .tc main_v90) := by
  after_results_simp <;> rfl

set_option maxRecDepth 8192 in
set_option maxHeartbeats 4000000 in
/-- `main_v49` is not written. -/
theorem h1_kept_v49 : after opsH1 W (Proc.devRef .tc main_v49) = W (Proc.devRef .tc main_v49) := by
  after_results_simp <;> rfl

set_option maxRecDepth 8192 in
set_option maxHeartbeats 4000000 in
/-- `main_arg12` is not written. -/
theorem h1_kept_arg12 : after opsH1 W (Proc.devRef .tc main_arg12) = W (Proc.devRef .tc main_arg12) := by
  after_results_simp <;> rfl

set_option maxRecDepth 8192 in
set_option maxHeartbeats 4000000 in
/-- `main_arg13` is not written. -/
theorem h1_kept_arg13 : after opsH1 W (Proc.devRef .tc main_arg13) = W (Proc.devRef .tc main_arg13) := by
  after_results_simp <;> rfl

set_option maxRecDepth 8192 in
set_option maxHeartbeats 4000000 in
/-- `main_arg14` is not written. -/
theorem h1_kept_arg14 : after opsH1 W (Proc.devRef .tc main_arg14) = W (Proc.devRef .tc main_arg14) := by
  after_results_simp <;> rfl

set_option maxRecDepth 8192 in
set_option maxHeartbeats 4000000 in
/-- `main_arg15` is not written. -/
theorem h1_kept_arg15 : after opsH1 W (Proc.devRef .tc main_arg15) = W (Proc.devRef .tc main_arg15) := by
  after_results_simp <;> rfl

set_option maxRecDepth 8192 in
set_option maxHeartbeats 4000000 in
/-- `main_arg16` is not written. -/
theorem h1_kept_arg16 : after opsH1 W (Proc.devRef .tc main_arg16) = W (Proc.devRef .tc main_arg16) := by
  after_results_simp <;> rfl

set_option maxRecDepth 8192 in
set_option maxHeartbeats 4000000 in
/-- `main_arg17` is not written. -/
theorem h1_kept_arg17 : after opsH1 W (Proc.devRef .tc main_arg17) = W (Proc.devRef .tc main_arg17) := by
  after_results_simp <;> rfl

set_option maxRecDepth 8192 in
set_option maxHeartbeats 4000000 in
/-- The second cell's input gate row. -/
theorem g1_gi : after opsG1 W (Proc.devRef .tc main_v96) = addf (Host.dotGeneral dot_S1x2048_S2048x6144_S1x6144_1_0_0_1_n_n none (W (Proc.devRef .tc main_v90)) (transpose S2048x6144 [1, 0] (W (Proc.devRef .tc main_arg12)) transposes_S6144x2048_S2048x6144_1_0)) (broadcastInDim S1x6144 ![1] bcast_S6144_S1x6144_1 (W (Proc.devRef .tc main_arg14))) := by
  after_results_simp <;> rfl

set_option maxRecDepth 8192 in
set_option maxHeartbeats 4000000 in
/-- The second cell's hidden gate row. -/
theorem g1_gh : after opsG1 W (Proc.devRef .tc main_v100) = addf (Host.dotGeneral dot_S1x2048_S2048x6144_S1x6144_1_0_0_1_n_n none (W (Proc.devRef .tc main_v92)) (transpose S2048x6144 [1, 0] (W (Proc.devRef .tc main_arg13)) transposes_S6144x2048_S2048x6144_1_0)) (broadcastInDim S1x6144 ![1] bcast_S6144_S1x6144_1 (W (Proc.devRef .tc main_arg15))) := by
  after_results_simp <;> rfl

set_option maxRecDepth 8192 in
set_option maxHeartbeats 4000000 in
/-- `main_v90` is not written. -/
theorem g1_kept_v90 : after opsG1 W (Proc.devRef .tc main_v90) = W (Proc.devRef .tc main_v90) := by
  after_results_simp <;> rfl

set_option maxRecDepth 8192 in
set_option maxHeartbeats 4000000 in
/-- `main_v92` is not written. -/
theorem g1_kept_v92 : after opsG1 W (Proc.devRef .tc main_v92) = W (Proc.devRef .tc main_v92) := by
  after_results_simp <;> rfl

set_option maxRecDepth 8192 in
set_option maxHeartbeats 4000000 in
/-- `main_v49` is not written. -/
theorem g1_kept_v49 : after opsG1 W (Proc.devRef .tc main_v49) = W (Proc.devRef .tc main_v49) := by
  after_results_simp <;> rfl

set_option maxRecDepth 8192 in
set_option maxHeartbeats 4000000 in
/-- `main_arg16` is not written. -/
theorem g1_kept_arg16 : after opsG1 W (Proc.devRef .tc main_arg16) = W (Proc.devRef .tc main_arg16) := by
  after_results_simp <;> rfl

set_option maxRecDepth 8192 in
set_option maxHeartbeats 4000000 in
/-- `main_arg17` is not written. -/
theorem g1_kept_arg17 : after opsG1 W (Proc.devRef .tc main_arg17) = W (Proc.devRef .tc main_arg17) := by
  after_results_simp <;> rfl

set_option maxRecDepth 8192 in
set_option maxHeartbeats 4000000 in
/-- The second cell's new hidden row. -/
theorem c1_h : after opsC1 W (Proc.devRef .tc main_v128) = combine (W (Proc.devRef .tc main_v96)) (W (Proc.devRef .tc main_v100)) (W (Proc.devRef .tc main_v92)) := by
  after_results_simp <;> rfl

set_option maxRecDepth 8192 in
set_option maxHeartbeats 4000000 in
/-- `main_v90` is not written. -/
theorem c1_kept_v90 : after opsC1 W (Proc.devRef .tc main_v90) = W (Proc.devRef .tc main_v90) := by
  after_results_simp <;> rfl

set_option maxRecDepth 8192 in
set_option maxHeartbeats 4000000 in
/-- `main_v49` is not written. -/
theorem c1_kept_v49 : after opsC1 W (Proc.devRef .tc main_v49) = W (Proc.devRef .tc main_v49) := by
  after_results_simp <;> rfl

set_option maxRecDepth 8192 in
set_option maxHeartbeats 4000000 in
/-- `main_arg16` is not written. -/
theorem c1_kept_arg16 : after opsC1 W (Proc.devRef .tc main_arg16) = W (Proc.devRef .tc main_arg16) := by
  after_results_simp <;> rfl

set_option maxRecDepth 8192 in
set_option maxHeartbeats 4000000 in
/-- `main_arg17` is not written. -/
theorem c1_kept_arg17 : after opsC1 W (Proc.devRef .tc main_arg17) = W (Proc.devRef .tc main_arg17) := by
  after_results_simp <;> rfl

set_option maxRecDepth 8192 in
set_option maxHeartbeats 4000000 in
/-- The logits. -/
theorem t_logits : after opsT W (Proc.devRef .tc main_v135) = logits (W (Proc.devRef .tc main_v128)) (W (Proc.devRef .tc main_arg16)) (W (Proc.devRef .tc main_arg17)) := by
  after_results_simp <;> rfl

set_option maxRecDepth 8192 in
set_option maxHeartbeats 4000000 in
/-- The new hidden state. -/
theorem t_hidden : after opsT W (Proc.devRef .tc main_v131) = hidden (W (Proc.devRef .tc main_v90)) (W (Proc.devRef .tc main_v128)) := by
  after_results_simp <;> rfl

set_option maxRecDepth 8192 in
set_option maxHeartbeats 4000000 in
/-- `main_v49` is not written. -/
theorem t_kept_v49 : after opsT W (Proc.devRef .tc main_v49) = W (Proc.devRef .tc main_v49) := by
  after_results_simp <;> rfl

end Cert.ReferenceIdeal.Stretches

end
-- ==== Proof.RefArgs.lean ====
/-
  No operation of the reference's line writes an argument buffer: after the whole line, and after its first
  stretch, each argument array is what it was at launch.
-/
import proofs.«168239_j3753801416872_2_alg».proof.Proof.RefRun
import proofs.«168239_j3753801416872_2_alg».proof.Proof.CellSpec

noncomputable section

namespace Cert.ReferenceIdeal.Args

open Cert.ReferenceIdeal Cert.ReferenceIdeal.Gen Cert.ReferenceIdeal.Line Cert.KernelIdeal.Cell
open Idealize.ShloMosaic Idealize.ShloMosaic.TcCoe Idealize.SL.Sem Idealize.ShloMosaic.StableHlo

variable {F : FTy → Type} [FloatOps F] (W : Valuation τ sig (Elt F))

set_option maxRecDepth 8192 in
set_option maxHeartbeats 4000000 in
/-- Argument 0 after the whole line. -/
theorem kept_arg0 : after ops W (Proc.devRef .tc main_arg0) = W (Proc.devRef .tc main_arg0) := by
  after_results_simp <;> rfl

set_option maxRecDepth 8192 in
set_option maxHeartbeats 4000000 in
/-- Argument 1 after the whole line. -/
theorem kept_arg1 : after ops W (Proc.devRef .tc main_arg1) = W (Proc.devRef .tc main_arg1) := by
  after_results_simp <;> rfl

set_option maxRecDepth 8192 in
set_option maxHeartbeats 4000000 in
/-- Argument 2 after the whole line. -/
theorem kept_arg2 : after ops W (Proc.devRef .tc main_arg2) = W (Proc.devRef .tc main_arg2) := by
  after_results_simp <;> rfl

set_option maxRecDepth 8192 in
set_option maxHeartbeats 4000000 in
/-- Argument 3 after the whole line. -/
theorem kept_arg3 : after ops W (Proc.devRef .tc main_arg3) = W (Proc.devRef .tc main_arg3) := by
  after_results_simp <;> rfl

set_option maxRecDepth 8192 in
set_option maxHeartbeats 4000000 in
/-- Argument 4 after the whole line. -/
theorem kept_arg4 : after ops W (Proc.devRef .tc main_arg4) = W (Proc.devRef .tc main_arg4) := by
  after_results_simp <;> rfl

set_option maxRecDepth 8192 in
set_option maxHeartbeats 4000000 in
/-- Argument 5 after the whole line. -/
theorem kept_arg5 : after ops W (Proc.devRef .tc main_arg5) = W (Proc.devRef .tc main_arg5) := by
  after_results_simp <;> rfl

set_option maxRecDepth 8192 in
set_option maxHeartbeats 4000000 in
/-- Argument 6 after the whole line. -/
theorem kept_arg6 : after ops W (Proc.devRef .tc main_arg6) = W (Proc.devRef .tc main_arg6) := by
  after_results_simp <;> rfl

set_option maxRecDepth 8192 in
set_option maxHeartbeats 4000000 in
/-- Argument 7 after the whole line. -/
theorem kept_arg7 : after ops W (Proc.devRef .tc main_arg7) = W (Proc.devRef .tc main_arg7) := by
  after_results_simp <;> rfl

set_option maxRecDepth 8192 in
set_option maxHeartbeats 4000000 in
/-- Argument 8 after the whole line. -/
theorem kept_arg8 : after ops W (Proc.devRef .tc main_arg8) = W (Proc.devRef .tc main_arg8) := by
  after_results_simp <;> rfl

set_option maxRecDepth 8192 in
set_option maxHeartbeats 4000000 in
/-- Argument 9 after the whole line. -/
theorem kept_arg9 : after ops W (Proc.devRef .tc main_arg9) = W (Proc.devRef .tc main_arg9) := by
  after_results_simp <;> rfl

set_option maxRecDepth 8192 in
set_option maxHeartbeats 4000000 in
/-- Argument 10 after the whole line. -/
theorem kept_arg10 : after ops W (Proc.devRef .tc main_arg10) = W (Proc.devRef .tc main_arg10) := by
  after_results_simp <;> rfl

set_option maxRecDepth 8192 in
set_option maxHeartbeats 4000000 in
/-- Argument 11 after the whole line. -/
theorem kept_arg11 : after ops W (Proc.devRef .tc main_arg11) = W (Proc.devRef .tc main_arg11) := by
  after_results_simp <;> rfl

set_option maxRecDepth 8192 in
set_option maxHeartbeats 4000000 in
/-- Argument 12 after the whole line. -/
theorem kept_arg12 : after ops W (Proc.devRef .tc main_arg12) = W (Proc.devRef .tc main_arg12) := by
  after_results_simp <;> rfl

set_option maxRecDepth 8192 in
set_option maxHeartbeats 4000000 in
/-- Argument 13 after the whole line. -/
theorem kept_arg13 : after ops W (Proc.devRef .tc main_arg13) = W (Proc.devRef .tc main_arg13) := by
  after_results_simp <;> rfl

set_option maxRecDepth 8192 in
set_option maxHeartbeats 4000000 in
/-- Argument 14 after the whole line. -/
theorem kept_arg14 : after ops W (Proc.devRef .tc main_arg14) = W (Proc.devRef .tc main_arg14) := by
  after_results_simp <;> rfl

set_option maxRecDepth 8192 in
set_option maxHeartbeats 4000000 in
/-- Argument 15 after the whole line. -/
theorem kept_arg15 : after ops W (Proc.devRef .tc main_arg15) = W (Proc.devRef .tc main_arg15) := by
  after_results_simp <;> rfl

set_option maxRecDepth 8192 in
set_option maxHeartbeats 4000000 in
/-- Argument 16 after the whole line. -/
theorem kept_arg16 : after ops W (Proc.devRef .tc main_arg16) = W (Proc.devRef .tc main_arg16) := by
  after_results_simp <;> rfl

set_option maxRecDepth 8192 in
set_option maxHeartbeats 4000000 in
/-- Argument 17 after the whole line. -/
theorem kept_arg17 : after ops W (Proc.devRef .tc main_arg17) = W (Proc.devRef .tc main_arg17) := by
  after_results_simp <;> rfl

end Cert.ReferenceIdeal.Args

end
-- ==== Proof.RefPreArgs.lean ====
/-
  The reference's first stretch writes none of the argument buffers the later stretches read.
-/
import proofs.«168239_j3753801416872_2_alg».proof.Proof.RefRun
import proofs.«168239_j3753801416872_2_alg».proof.Proof.CellSpec

noncomputable section

namespace Cert.ReferenceIdeal.PreArgs

open Cert.ReferenceIdeal Cert.ReferenceIdeal.Gen Cert.ReferenceIdeal.Line Cert.KernelIdeal.Cell
open Idealize.ShloMosaic Idealize.ShloMosaic.TcCoe Idealize.SL.Sem Idealize.ShloMosaic.StableHlo

variable {F : FTy → Type} [FloatOps F] (W : Valuation τ sig (Elt F))

set_option maxRecDepth 8192 in
set_option maxHeartbeats 4000000 in
/-- Argument 1 after the first stretch. -/
theorem kept_arg1 : after opsPre W (Proc.devRef .tc main_arg1) = W (Proc.devRef .tc main_arg1) := by
  after_results_simp <;> rfl

set_option maxRecDepth 8192 in
set_option maxHeartbeats 4000000 in
/-- Argument 8 after the first stretch. -/
theorem kept_arg8 : after opsPre W (Proc.devRef .tc main_arg8) = W (Proc.devRef .tc main_arg8) := by
  after_results_simp <;> rfl

set_option maxRecDepth 8192 in
set_option maxHeartbeats 4000000 in
/-- Argument 9 after the first stretch. -/
theorem kept_arg9 : after opsPre W (Proc.devRef .tc main_arg9) = W (Proc.devRef .tc main_arg9) := by
  after_results_simp <;> rfl

set_option maxRecDepth 8192 in
set_option maxHeartbeats 4000000 in
/-- Argument 10 after the first stretch. -/
theorem kept_arg10 : after opsPre W (Proc.devRef .tc main_arg10) = W (Proc.devRef .tc main_arg10) := by
  after_results_simp <;> rfl

set_option maxRecDepth 8192 in
set_option maxHeartbeats 4000000 in
/-- Argument 11 after the first stretch. -/
theorem kept_arg11 : after opsPre W (Proc.devRef .tc main_arg11) = W (Proc.devRef .tc main_arg11) := by
  after_results_simp <;> rfl

set_option maxRecDepth 8192 in
set_option maxHeartbeats 4000000 in
/-- Argument 12 after the first stretch. -/
theorem kept_arg12 : after opsPre W (Proc.devRef .tc main_arg12) = W (Proc.devRef .tc main_arg12) := by
  after_results_simp <;> rfl

set_option maxRecDepth 8192 in
set_option maxHeartbeats 4000000 in
/-- Argument 13 after the first stretch. -/
theorem kept_arg13 : after opsPre W (Proc.devRef .tc main_arg13) = W (Proc.devRef .tc main_arg13) := by
  after_results_simp <;> rfl

set_option maxRecDepth 8192 in
set_option maxHeartbeats 4000000 in
/-- Argument 14 after the first stretch. -/
theorem kept_arg14 : after opsPre W (Proc.devRef .tc main_arg14) = W (Proc.devRef .tc main_arg14) := by
  after_results_simp <;> rfl

set_option maxRecDepth 8192 in
set_option maxHeartbeats 4000000 in
/-- Argument 15 after the first stretch. -/
theorem kept_arg15 : after opsPre W (Proc.devRef .tc main_arg15) = W (Proc.devRef .tc main_arg15) := by
  after_results_simp <;> rfl

set_option maxRecDepth 8192 in
set_option maxHeartbeats 4000000 in
/-- Argument 16 after the first stretch. -/
theorem kept_arg16 : after opsPre W (Proc.devRef .tc main_arg16) = W (Proc.devRef .tc main_arg16) := by
  after_results_simp <;> rfl

set_option maxRecDepth 8192 in
set_option maxHeartbeats 4000000 in
/-- Argument 17 after the first stretch. -/
theorem kept_arg17 : after opsPre W (Proc.devRef .tc main_arg17) = W (Proc.devRef .tc main_arg17) := by
  after_results_simp <;> rfl

end Cert.ReferenceIdeal.PreArgs

end
-- ==== Proof.FirstStretch.lean ====
/-
  The first stretch of the kernel program's host operations, written out.

  The specification names the cell input, the two old hidden rows and the updated stack by the fold of the
  kernel program's first stretch over the launch contents. Here each is read as the explicit composition of that
  stretch's operations on the argument arrays: the gather of the embedding row at the (wrapped) token index; the
  softmax of the stack controls (an affine map of the two old hidden rows, laid side by side); the pushed row (tanh
  of another affine map of them); the kept, pushed and popped stacks blended by the three controls; the top row of
  the result beside the embedding row. The reference's first stretch is the same composition, which is how the two
  programs are compared.
-/
import proofs.«168239_j3753801416872_2_alg».proof.Proof.ProgramSpec

noncomputable section

namespace Cert.KernelIdeal.First

open Cert.KernelIdeal Cert.KernelIdeal.Gen Cert.KernelIdeal.Spec
open Idealize.ShloMosaic Idealize.ShloMosaic.TcCoe Idealize.SL.Sem Idealize.ShloMosaic.StableHlo

section Text
variable {F : FTy → Type} [FloatOps F]

set_option maxRecDepth 8192 in
/-- The cell input as the first stretch's operations on the argument arrays. -/
def xText (U : Valuation τ sig (Elt F)) : (Proc.devRef .tc main_v52 : DevRef τ sig).ty.Contents (Elt F) :=
  (shapeCast _ (concatenate S1x1x2304 2 [⟨S1x1x2048, (shapeCast _ (Host.gather gather_S100x2048_S1x1_S1x2048_1_0_n_n_0_1_12048 (U (Proc.devRef .tc main_arg3)) (broadcastInDim S1x1 ![0] bcast_S1_S1x1_0 (select (cmpi .slt (U (Proc.devRef .tc main_arg0)) (broadcastInDim S1 ![] bcast_S_S1 (constantI S_ 32 0#32))) (addi (U (Proc.devRef .tc main_arg0)) (broadcastInDim S1 ![] bcast_S_S1 (constantI S_ 32 100#32))) (U (Proc.devRef .tc main_arg0))))) shapeCasts_S1x2048_S1x1x2048)⟩, ⟨S1x1x256, (extractStridedSlice S1x1x256 ![0, 0, 0] (addf (addf (mulf (broadcastInDim S1x200x256 ![] bcast_S_S1x200x256 (shapeCast _ (extractStridedSlice S1x1 ![0, 2] (Host.divf (Host.exp (subf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (constant S_ .f32 0xFF800000#32) reducesTo_S1x3_S1_d1 h_S_)))))) (broadcastInDim S1x3 ![0, 1] bcast_S1x1_S1x3_0_1 (broadcastInDim S1x1 ![0] bcast_S1_S1x1_0 (Host.reduceAdd (Host.exp (subf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (constant S_ .f32 0xFF800000#32) reducesTo_S1x3_S1_d1 h_S_)))))) (constant S_ .f32 0x00000000#32) reducesTo_S1x3_S1_d1 h_S_)))) slices_S1x3_S1x1_0_2) shapeCasts_S1x1_S_)) (U (Proc.devRef .tc main_arg2))) (mulf (broadcastInDim S1x200x256 ![] bcast_S_S1x200x256 (shapeCast _ (extractStridedSlice S1x1 ![0, 0] (Host.divf (Host.exp (subf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (constant S_ .f32 0xFF800000#32) reducesTo_S1x3_S1_d1 h_S_)))))) (broadcastInDim S1x3 ![0, 1] bcast_S1x1_S1x3_0_1 (broadcastInDim S1x1 ![0] bcast_S1_S1x1_0 (Host.reduceAdd (Host.exp (subf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (constant S_ .f32 0xFF800000#32) reducesTo_S1x3_S1_d1 h_S_)))))) (constant S_ .f32 0x00000000#32) reducesTo_S1x3_S1_d1 h_S_)))) slices_S1x3_S1x1_0_0) shapeCasts_S1x1_S_)) (concatenate S1x200x256 1 [⟨S1x1x256, (shapeCast _ (Host.tanh (addf (Host.dotGeneral dot_S1x4096_S4096x256_S1x256_1_0_0_1_n_n none (shapeCast _ (transpose S1x2x2048 [1, 0, 2] (U (Proc.devRef .tc main_arg1)) transposes_S2x1x2048_S1x2x2048_1_0_2) shapeCasts_S1x2x2048_S1x4096) (transpose S4096x256 [1, 0] (U (Proc.devRef .tc main_arg6)) transposes_S256x4096_S4096x256_1_0)) (broadcastInDim S1x256 ![1] bcast_S256_S1x256_1 (U (Proc.devRef .tc main_arg7))))) shapeCasts_S1x256_S1x1x256)⟩, ⟨S1x199x256, (extractStridedSlice S1x199x256 ![0, 0, 0] (U (Proc.devRef .tc main_arg2)) slices_S1x200x256_S1x199x256_0_0_0)⟩] concatenates_S1x1x256_S1x199x256_S1x200x256_d1))) (mulf (broadcastInDim S1x200x256 ![] bcast_S_S1x200x256 (shapeCast _ (extractStridedSlice S1x1 ![0, 1] (Host.divf (Host.exp (subf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (constant S_ .f32 0xFF800000#32) reducesTo_S1x3_S1_d1 h_S_)))))) (broadcastInDim S1x3 ![0, 1] bcast_S1x1_S1x3_0_1 (broadcastInDim S1x1 ![0] bcast_S1_S1x1_0 (Host.reduceAdd (Host.exp (subf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (constant S_ .f32 0xFF800000#32) reducesTo_S1x3_S1_d1 h_S_)))))) (constant S_ .f32 0x00000000#32) reducesTo_S1x3_S1_d1 h_S_)))) slices_S1x3_S1x1_0_1) shapeCasts_S1x1_S_)) (concatenate S1x200x256 1 [⟨S1x199x256, (extractStridedSlice S1x199x256 ![0, 1, 0] (U (Proc.devRef .tc main_arg2)) slices_S1x200x256_S1x199x256_0_1_0)⟩, ⟨S1x1x256, (broadcastInDim S1x1x256 ![] bcast_S_S1x1x256 (constant S_ .f32 0x00000000#32))⟩] concatenates_S1x199x256_S1x1x256_S1x200x256_d1))) slices_S1x200x256_S1x1x256_0_0_0)⟩] concatenates_S1x1x2048_S1x1x256_S1x1x2304_d2) shapeCasts_S1x1x2304_S1x2304)

set_option maxRecDepth 8192 in
/-- The first old hidden row: row 0 of the hidden state. -/
def hOld0Text (U : Valuation τ sig (Elt F)) : (Proc.devRef .tc main_v54 : DevRef τ sig).ty.Contents (Elt F) :=
  shapeCast _ (extractStridedSlice S1x1x2048 ![0, 0, 0] (U (Proc.devRef .tc main_arg1)) slices_S2x1x2048_S1x1x2048_0_0_0) shapeCasts_S1x1x2048_S1x2048

set_option maxRecDepth 8192 in
/-- The updated stack as the first stretch's operations on the argument arrays. -/
def stackText (U : Valuation τ sig (Elt F)) : (Proc.devRef .tc main_v49 : DevRef τ sig).ty.Contents (Elt F) :=
  addf (addf (mulf (broadcastInDim S1x200x256 ![] bcast_S_S1x200x256 (shapeCast _ (extractStridedSlice S1x1 ![0, 2] (Host.divf (Host.exp (subf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (constant S_ .f32 0xFF800000#32) reducesTo_S1x3_S1_d1 h_S_)))))) (broadcastInDim S1x3 ![0, 1] bcast_S1x1_S1x3_0_1 (broadcastInDim S1x1 ![0] bcast_S1_S1x1_0 (Host.reduceAdd (Host.exp (subf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (constant S_ .f32 0xFF800000#32) reducesTo_S1x3_S1_d1 h_S_)))))) (constant S_ .f32 0x00000000#32) reducesTo_S1x3_S1_d1 h_S_)))) slices_S1x3_S1x1_0_2) shapeCasts_S1x1_S_)) (U (Proc.devRef .tc main_arg2))) (mulf (broadcastInDim S1x200x256 ![] bcast_S_S1x200x256 (shapeCast _ (extractStridedSlice S1x1 ![0, 0] (Host.divf (Host.exp (subf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (constant S_ .f32 0xFF800000#32) reducesTo_S1x3_S1_d1 h_S_)))))) (broadcastInDim S1x3 ![0, 1] bcast_S1x1_S1x3_0_1 (broadcastInDim S1x1 ![0] bcast_S1_S1x1_0 (Host.reduceAdd (Host.exp (subf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (constant S_ .f32 0xFF800000#32) reducesTo_S1x3_S1_d1 h_S_)))))) (constant S_ .f32 0x00000000#32) reducesTo_S1x3_S1_d1 h_S_)))) slices_S1x3_S1x1_0_0) shapeCasts_S1x1_S_)) (concatenate S1x200x256 1 [⟨S1x1x256, (shapeCast _ (Host.tanh (addf (Host.dotGeneral dot_S1x4096_S4096x256_S1x256_1_0_0_1_n_n none (shapeCast _ (transpose S1x2x2048 [1, 0, 2] (U (Proc.devRef .tc main_arg1)) transposes_S2x1x2048_S1x2x2048_1_0_2) shapeCasts_S1x2x2048_S1x4096) (transpose S4096x256 [1, 0] (U (Proc.devRef .tc main_arg6)) transposes_S256x4096_S4096x256_1_0)) (broadcastInDim S1x256 ![1] bcast_S256_S1x256_1 (U (Proc.devRef .tc main_arg7))))) shapeCasts_S1x256_S1x1x256)⟩, ⟨S1x199x256, (extractStridedSlice S1x199x256 ![0, 0, 0] (U (Proc.devRef .tc main_arg2)) slices_S1x200x256_S1x199x256_0_0_0)⟩] concatenates_S1x1x256_S1x199x256_S1x200x256_d1))) (mulf (broadcastInDim S1x200x256 ![] bcast_S_S1x200x256 (shapeCast _ (extractStridedSlice S1x1 ![0, 1] (Host.divf (Host.exp (subf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (constant S_ .f32 0xFF800000#32) reducesTo_S1x3_S1_d1 h_S_)))))) (broadcastInDim S1x3 ![0, 1] bcast_S1x1_S1x3_0_1 (broadcastInDim S1x1 ![0] bcast_S1_S1x1_0 (Host.reduceAdd (Host.exp (subf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (U (Proc.devRef .tc main_arg1)) transposes_S2x1x2048_S1x2x2048_1_0_2) shapeCasts_S1x2x2048_S1x4096) (transpose S4096x3 [1, 0] (U (Proc.devRef .tc main_arg4)) transposes_S3x4096_S4096x3_1_0)) (broadcastInDim S1x3 ![1] bcast_S3_S1x3_1 (U (Proc.devRef .tc main_arg5)))) (constant S_ .f32 0xFF800000#32) reducesTo_S1x3_S1_d1 h_S_)))))) (constant S_ .f32 0x00000000#32) reducesTo_S1x3_S1_d1 h_S_)))) slices_S1x3_S1x1_0_1) shapeCasts_S1x1_S_)) (concatenate S1x200x256 1 [⟨S1x199x256, (extractStridedSlice S1x199x256 ![0, 1, 0] (U (Proc.devRef .tc main_arg2)) slices_S1x200x256_S1x199x256_0_1_0)⟩, ⟨S1x1x256, (broadcastInDim S1x1x256 ![] bcast_S_S1x1x256 (constant S_ .f32 0x00000000#32))⟩] concatenates_S1x199x256_S1x1x256_S1x200x256_d1))

set_option maxRecDepth 8192 in
/-- The second old hidden row: row 1 of the hidden state. -/
def hOld1Text (U : Valuation τ sig (Elt F)) : (Proc.devRef .tc main_v56 : DevRef τ sig).ty.Contents (Elt F) :=
  shapeCast _ (extractStridedSlice S1x1x2048 ![1, 0, 0] (U (Proc.devRef .tc main_arg1)) slices_S2x1x2048_S1x1x2048_1_0_0) shapeCasts_S1x1x2048_S1x2048
end Text

variable (U : Valuation τ sig (Elt Ideal))

set_option maxRecDepth 8192 in
set_option maxHeartbeats 8000000 in
theorem xIn_eq : xIn U = xText U := by
  unfold xIn xText
  after_results_simp <;> rfl

set_option maxRecDepth 8192 in
set_option maxHeartbeats 8000000 in
theorem hOld0_eq : hOld0 U = hOld0Text U := by
  unfold hOld0 hOld0Text
  after_results_simp <;> rfl

set_option maxRecDepth 8192 in
set_option maxHeartbeats 8000000 in
theorem hOld1_eq : hOld1 U = hOld1Text U := by
  unfold hOld1 hOld1Text
  after_results_simp <;> rfl

set_option maxRecDepth 8192 in
set_option maxHeartbeats 8000000 in
theorem stackNew_eq : stackNew U = stackText U := by
  unfold stackNew stackText
  after_results_simp <;> rfl

end Cert.KernelIdeal.First

end
-- ==== Proof.RefFirst.lean ====
/-
  The first stretch of the reference's line, written out: the cell input, the first old hidden row and the updated
  stack as explicit compositions of the stretch's operations on the argument arrays — the same compositions as the
  kernel program's first stretch.
-/
import proofs.«168239_j3753801416872_2_alg».proof.Proof.RefRun

noncomputable section

namespace Cert.ReferenceIdeal.First

open Cert.ReferenceIdeal Cert.ReferenceIdeal.Gen Cert.ReferenceIdeal.Line
open Idealize.ShloMosaic Idealize.ShloMosaic.TcCoe Idealize.SL.Sem Idealize.ShloMosaic.StableHlo

variable {F : FTy → Type} [FloatOps F]

set_option maxRecDepth 8192 in
/-- The cell input as the first stretch's operations on the argument arrays. -/
def xText (V0 : Valuation τ sig (Elt F)) : (Proc.devRef .tc main_v52 : DevRef τ sig).ty.Contents (Elt F) :=
  (shapeCast _ (concatenate S1x1x2304 2 [⟨S1x1x2048, (shapeCast _ (Host.gather gather_S100x2048_S1x1_S1x2048_1_0_n_n_0_1_12048 (V0 (Proc.devRef .tc main_arg3)) (broadcastInDim S1x1 ![0] bcast_S1_S1x1_0 (select (cmpi .slt (V0 (Proc.devRef .tc main_arg0)) (broadcastInDim S1 ![] bcast_S_S1 (constantI S_ 32 0#32))) (addi (V0 (Proc.devRef .tc main_arg0)) (broadcastInDim S1 ![] bcast_S_S1 (constantI S_ 32 100#32))) (V0 (Proc.devRef .tc main_arg0))))) shapeCasts_S1x2048_S1x1x2048)⟩, ⟨S1x1x256, (extractStridedSlice S1x1x256 ![0, 0, 0] (addf (addf (mulf (broadcastInDim S1x200x256 ![] bcast_S_S1x200x256 (shapeCast _ (extractStridedSlice S1x1 ![0, 2] (Host.divf (Host.exp (subf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (constant S_ .f32 0xFF800000#32) reducesTo_S1x3_S1_d1 h_S_)))))) (broadcastInDim S1x3 ![0, 1] bcast_S1x1_S1x3_0_1 (broadcastInDim S1x1 ![0] bcast_S1_S1x1_0 (Host.reduceAdd (Host.exp (subf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (constant S_ .f32 0xFF800000#32) reducesTo_S1x3_S1_d1 h_S_)))))) (constant S_ .f32 0x00000000#32) reducesTo_S1x3_S1_d1 h_S_)))) slices_S1x3_S1x1_0_2) shapeCasts_S1x1_S_)) (V0 (Proc.devRef .tc main_arg2))) (mulf (broadcastInDim S1x200x256 ![] bcast_S_S1x200x256 (shapeCast _ (extractStridedSlice S1x1 ![0, 0] (Host.divf (Host.exp (subf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (constant S_ .f32 0xFF800000#32) reducesTo_S1x3_S1_d1 h_S_)))))) (broadcastInDim S1x3 ![0, 1] bcast_S1x1_S1x3_0_1 (broadcastInDim S1x1 ![0] bcast_S1_S1x1_0 (Host.reduceAdd (Host.exp (subf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (constant S_ .f32 0xFF800000#32) reducesTo_S1x3_S1_d1 h_S_)))))) (constant S_ .f32 0x00000000#32) reducesTo_S1x3_S1_d1 h_S_)))) slices_S1x3_S1x1_0_0) shapeCasts_S1x1_S_)) (concatenate S1x200x256 1 [⟨S1x1x256, (shapeCast _ (Host.tanh (addf (Host.dotGeneral dot_S1x4096_S4096x256_S1x256_1_0_0_1_n_n none (shapeCast _ (transpose S1x2x2048 [1, 0, 2] (V0 (Proc.devRef .tc main_arg1)) transposes_S2x1x2048_S1x2x2048_1_0_2) shapeCasts_S1x2x2048_S1x4096) (transpose S4096x256 [1, 0] (V0 (Proc.devRef .tc main_arg6)) transposes_S256x4096_S4096x256_1_0)) (broadcastInDim S1x256 ![1] bcast_S256_S1x256_1 (V0 (Proc.devRef .tc main_arg7))))) shapeCasts_S1x256_S1x1x256)⟩, ⟨S1x199x256, (extractStridedSlice S1x199x256 ![0, 0, 0] (V0 (Proc.devRef .tc main_arg2)) slices_S1x200x256_S1x199x256_0_0_0)⟩] concatenates_S1x1x256_S1x199x256_S1x200x256_d1))) (mulf (broadcastInDim S1x200x256 ![] bcast_S_S1x200x256 (shapeCast _ (extractStridedSlice S1x1 ![0, 1] (Host.divf (Host.exp (subf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (constant S_ .f32 0xFF800000#32) reducesTo_S1x3_S1_d1 h_S_)))))) (broadcastInDim S1x3 ![0, 1] bcast_S1x1_S1x3_0_1 (broadcastInDim S1x1 ![0] bcast_S1_S1x1_0 (Host.reduceAdd (Host.exp (subf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (constant S_ .f32 0xFF800000#32) reducesTo_S1x3_S1_d1 h_S_)))))) (constant S_ .f32 0x00000000#32) reducesTo_S1x3_S1_d1 h_S_)))) slices_S1x3_S1x1_0_1) shapeCasts_S1x1_S_)) (concatenate S1x200x256 1 [⟨S1x199x256, (extractStridedSlice S1x199x256 ![0, 1, 0] (V0 (Proc.devRef .tc main_arg2)) slices_S1x200x256_S1x199x256_0_1_0)⟩, ⟨S1x1x256, (broadcastInDim S1x1x256 ![] bcast_S_S1x1x256 (constant S_ .f32 0x00000000#32))⟩] concatenates_S1x199x256_S1x1x256_S1x200x256_d1))) slices_S1x200x256_S1x1x256_0_0_0)⟩] concatenates_S1x1x2048_S1x1x256_S1x1x2304_d2) shapeCasts_S1x1x2304_S1x2304)

set_option maxRecDepth 8192 in
/-- The first old hidden row: row 0 of the hidden state. -/
def hOld0Text (V0 : Valuation τ sig (Elt F)) : (Proc.devRef .tc main_v54 : DevRef τ sig).ty.Contents (Elt F) :=
  shapeCast _ (extractStridedSlice S1x1x2048 ![0, 0, 0] (V0 (Proc.devRef .tc main_arg1)) slices_S2x1x2048_S1x1x2048_0_0_0) shapeCasts_S1x1x2048_S1x2048

set_option maxRecDepth 8192 in
/-- The updated stack as the first stretch's operations on the argument arrays. -/
def stackText (V0 : Valuation τ sig (Elt F)) : (Proc.devRef .tc main_v49 : DevRef τ sig).ty.Contents (Elt F) :=
  addf (addf (mulf (broadcastInDim S1x200x256 ![] bcast_S_S1x200x256 (shapeCast _ (extractStridedSlice S1x1 ![0, 2] (Host.divf (Host.exp (subf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (constant S_ .f32 0xFF800000#32) reducesTo_S1x3_S1_d1 h_S_)))))) (broadcastInDim S1x3 ![0, 1] bcast_S1x1_S1x3_0_1 (broadcastInDim S1x1 ![0] bcast_S1_S1x1_0 (Host.reduceAdd (Host.exp (subf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (constant S_ .f32 0xFF800000#32) reducesTo_S1x3_S1_d1 h_S_)))))) (constant S_ .f32 0x00000000#32) reducesTo_S1x3_S1_d1 h_S_)))) slices_S1x3_S1x1_0_2) shapeCasts_S1x1_S_)) (V0 (Proc.devRef .tc main_arg2))) (mulf (broadcastInDim S1x200x256 ![] bcast_S_S1x200x256 (shapeCast _ (extractStridedSlice S1x1 ![0, 0] (Host.divf (Host.exp (subf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (constant S_ .f32 0xFF800000#32) reducesTo_S1x3_S1_d1 h_S_)))))) (broadcastInDim S1x3 ![0, 1] bcast_S1x1_S1x3_0_1 (broadcastInDim S1x1 ![0] bcast_S1_S1x1_0 (Host.reduceAdd (Host.exp (subf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (constant S_ .f32 0xFF800000#32) reducesTo_S1x3_S1_d1 h_S_)))))) (constant S_ .f32 0x00000000#32) reducesTo_S1x3_S1_d1 h_S_)))) slices_S1x3_S1x1_0_0) shapeCasts_S1x1_S_)) (concatenate S1x200x256 1 [⟨S1x1x256, (shapeCast _ (Host.tanh (addf (Host.dotGeneral dot_S1x4096_S4096x256_S1x256_1_0_0_1_n_n none (shapeCast _ (transpose S1x2x2048 [1, 0, 2] (V0 (Proc.devRef .tc main_arg1)) transposes_S2x1x2048_S1x2x2048_1_0_2) shapeCasts_S1x2x2048_S1x4096) (transpose S4096x256 [1, 0] (V0 (Proc.devRef .tc main_arg6)) transposes_S256x4096_S4096x256_1_0)) (broadcastInDim S1x256 ![1] bcast_S256_S1x256_1 (V0 (Proc.devRef .tc main_arg7))))) shapeCasts_S1x256_S1x1x256)⟩, ⟨S1x199x256, (extractStridedSlice S1x199x256 ![0, 0, 0] (V0 (Proc.devRef .tc main_arg2)) slices_S1x200x256_S1x199x256_0_0_0)⟩] concatenates_S1x1x256_S1x199x256_S1x200x256_d1))) (mulf (broadcastInDim S1x200x256 ![] bcast_S_S1x200x256 (shapeCast _ (extractStridedSlice S1x1 ![0, 1] (Host.divf (Host.exp (subf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (constant S_ .f32 0xFF800000#32) reducesTo_S1x3_S1_d1 h_S_)))))) (broadcastInDim S1x3 ![0, 1] bcast_S1x1_S1x3_0_1 (broadcastInDim S1x1 ![0] bcast_S1_S1x1_0 (Host.reduceAdd (Host.exp (subf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (broadcastInDim S1x3 ![0, 1] bcast_S1x1_S1x3_0_1 (broadcastInDim S1x1 ![0] bcast_S1_S1x1_0 (maximumf (broadcastInDim S1 ![] bcast_S_S1 (constant S_ .f32 0xFF800000#32)) (Host.reduce FloatOps.maximumf (addf (Host.dotGeneral dot_S1x4096_S4096x3_S1x3_1_0_0_1_n_n none (shapeCast _ (transpose S1x2x2048 [1, 0, 2] (V0 (Proc.devRef .tc main_arg1)) transposes_S2x1x2048_S1x2x2048_1_0_2) shapeCasts_S1x2x2048_S1x4096) (transpose S4096x3 [1, 0] (V0 (Proc.devRef .tc main_arg4)) transposes_S3x4096_S4096x3_1_0)) (broadcastInDim S1x3 ![1] bcast_S3_S1x3_1 (V0 (Proc.devRef .tc main_arg5)))) (constant S_ .f32 0xFF800000#32) reducesTo_S1x3_S1_d1 h_S_)))))) (constant S_ .f32 0x00000000#32) reducesTo_S1x3_S1_d1 h_S_)))) slices_S1x3_S1x1_0_1) shapeCasts_S1x1_S_)) (concatenate S1x200x256 1 [⟨S1x199x256, (extractStridedSlice S1x199x256 ![0, 1, 0] (V0 (Proc.devRef .tc main_arg2)) slices_S1x200x256_S1x199x256_0_1_0)⟩, ⟨S1x1x256, (broadcastInDim S1x1x256 ![] bcast_S_S1x1x256 (constant S_ .f32 0x00000000#32))⟩] concatenates_S1x199x256_S1x1x256_S1x200x256_d1))

variable (V0 : Valuation τ sig (Elt F))

set_option maxRecDepth 8192 in
set_option maxHeartbeats 8000000 in
theorem x_eq : after opsPre V0 (Proc.devRef .tc main_v52) = xText V0 := by
  unfold xText
  after_results_simp <;> rfl

set_option maxRecDepth 8192 in
set_option maxHeartbeats 8000000 in
theorem hOld0_eq : after opsPre V0 (Proc.devRef .tc main_v54) = hOld0Text V0 := by
  unfold hOld0Text
  after_results_simp <;> rfl

set_option maxRecDepth 8192 in
set_option maxHeartbeats 8000000 in
theorem stack_eq : after opsPre V0 (Proc.devRef .tc main_v49) = stackText V0 := by
  unfold stackText
  after_results_simp <;> rfl

end Cert.ReferenceIdeal.First

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.RefValue.lean ====
/-
  The reference's run ends at the specification's functions.

  The reference's first stretch is, operation for operation, the kernel program's first stretch up to the first old
  hidden row: written out, the two folds are one term of the argument arrays, so the cell input, the first old
  hidden row and the new stack are the specification's (which names them by the kernel program's fold). Every later
  stretch is read by its own lemma from the contents the stretch before it left: a gate row is a host product with
  the transposed weight plus the bias broadcast along a unit axis — the specification's `x · Wᵀ + b` with the bias
  reshaped to a row —, a combine stretch is the specification's `combine`, and the last stretch its stacking and
  projection. No finiteness is used: both sides are the same sums and the same pointwise operations.
-/
import proofs.«168239_j3753801416872_2_alg».proof.Proof.RefRun
import proofs.«168239_j3753801416872_2_alg».proof.Proof.RefStretches
import proofs.«168239_j3753801416872_2_alg».proof.Proof.RefArgs
import proofs.«168239_j3753801416872_2_alg».proof.Proof.RefPreArgs
import proofs.«168239_j3753801416872_2_alg».proof.Proof.ProgramSpec
import proofs.«168239_j3753801416872_2_alg».proof.Proof.FirstStretch
import proofs.«168239_j3753801416872_2_alg».proof.Proof.RefFirst
import proofs.«168239_j3753801416872_2_alg».proof.Proof.LibRowBroadcasts

set_option maxRecDepth 16384

noncomputable section

namespace Cert.ReferenceIdeal.RefValue

open Cert.ReferenceIdeal Cert.ReferenceIdeal.Gen Cert.ReferenceIdeal.Line
open Cert.KernelIdeal.Cell Cert.KernelIdeal.Spec Cert.Gru
open Idealize.ShloMosaic Idealize.ShloMosaic.TcCoe Idealize.SL.Sem Idealize.ShloMosaic.StableHlo

variable (V0 : Valuation τ sig (Elt Ideal)) (U : Valuation Cert.KernelIdeal.τ Cert.KernelIdeal.sig (Elt Ideal))

/-- The reference's buffers `V0` and the kernel program's buffers `U` hold the same eighteen argument arrays. -/
structure Agree : Prop where
  a0 : V0 (Proc.devRef .tc main_arg0) = U (Proc.devRef .tc Cert.KernelIdeal.main_arg0)
  a1 : V0 (Proc.devRef .tc main_arg1) = U (Proc.devRef .tc Cert.KernelIdeal.main_arg1)
  a2 : V0 (Proc.devRef .tc main_arg2) = U (Proc.devRef .tc Cert.KernelIdeal.main_arg2)
  a3 : V0 (Proc.devRef .tc main_arg3) = U (Proc.devRef .tc Cert.KernelIdeal.main_arg3)
  a4 : V0 (Proc.devRef .tc main_arg4) = U (Proc.devRef .tc Cert.KernelIdeal.main_arg4)
  a5 : V0 (Proc.devRef .tc main_arg5) = U (Proc.devRef .tc Cert.KernelIdeal.main_arg5)
  a6 : V0 (Proc.devRef .tc main_arg6) = U (Proc.devRef .tc Cert.KernelIdeal.main_arg6)
  a7 : V0 (Proc.devRef .tc main_arg7) = U (Proc.devRef .tc Cert.KernelIdeal.main_arg7)
  a8 : V0 (Proc.devRef .tc main_arg8) = U (Proc.devRef .tc Cert.KernelIdeal.main_arg8)
  a9 : V0 (Proc.devRef .tc main_arg9) = U (Proc.devRef .tc Cert.KernelIdeal.main_arg9)
  a10 : V0 (Proc.devRef .tc main_arg10) = U (Proc.devRef .tc Cert.KernelIdeal.main_arg10)
  a11 : V0 (Proc.devRef .tc main_arg11) = U (Proc.devRef .tc Cert.KernelIdeal.main_arg11)
  a12 : V0 (Proc.devRef .tc main_arg12) = U (Proc.devRef .tc Cert.KernelIdeal.main_arg12)
  a13 : V0 (Proc.devRef .tc main_arg13) = U (Proc.devRef .tc Cert.KernelIdeal.main_arg13)
  a14 : V0 (Proc.devRef .tc main_arg14) = U (Proc.devRef .tc Cert.KernelIdeal.main_arg14)
  a15 : V0 (Proc.devRef .tc main_arg15) = U (Proc.devRef .tc Cert.KernelIdeal.main_arg15)
  a16 : V0 (Proc.devRef .tc main_arg16) = U (Proc.devRef .tc Cert.KernelIdeal.main_arg16)
  a17 : V0 (Proc.devRef .tc main_arg17) = U (Proc.devRef .tc Cert.KernelIdeal.main_arg17)

variable {V0 U}

/-! ## The first stretch -/

set_option maxHeartbeats 8000000 in
/-- The cell input: the same operations of the same arguments in both programs. -/
theorem x_agree (h : Agree V0 U) : after opsPre V0 (Proc.devRef .tc main_v52) = xIn U := by
  rw [First.x_eq, Cert.KernelIdeal.First.xIn_eq]
  unfold First.xText Cert.KernelIdeal.First.xText
  rw [h.a0, h.a1, h.a2, h.a3, h.a4, h.a5, h.a6, h.a7]
  all_goals rfl

set_option maxHeartbeats 8000000 in
/-- The first cell's old hidden row: row 0 of the hidden state. -/
theorem hOld0_agree (h : Agree V0 U) : after opsPre V0 (Proc.devRef .tc main_v54) = hOld0 U := by
  rw [First.hOld0_eq, Cert.KernelIdeal.First.hOld0_eq]
  unfold First.hOld0Text Cert.KernelIdeal.First.hOld0Text
  rw [h.a1]
  all_goals rfl

set_option maxHeartbeats 8000000 in
/-- The updated stack. -/
theorem stackNew_agree (h : Agree V0 U) : after opsPre V0 (Proc.devRef .tc main_v49) = stackNew U := by
  rw [First.stack_eq, Cert.KernelIdeal.First.stackNew_eq]
  unfold First.stackText Cert.KernelIdeal.First.stackText
  rw [h.a1, h.a2, h.a4, h.a5, h.a6, h.a7]
  all_goals rfl

/-! ## The later stretches, each from what the one before left -/

/-- The first cell's input gate row. -/
theorem gi0_agree (h : Agree V0 U) : (after opsG0 (after opsPre V0)) (Proc.devRef .tc main_v58) = gi0 U := by
  rw [Stretches.g0_gi, x_agree h, PreArgs.kept_arg8, PreArgs.kept_arg10, h.a8, h.a10]
  refine (host_gate (K := 2304) (N := 6144) dot_S1x2304_S2304x6144_S1x6144_1_0_0_1_n_n_wf transposes_S6144x2304_S2304x6144_1_0 _ _ _).trans ?_
  unfold gi0 biasRow
  rw [Cert.Lib.Rows.castRow_eq_dimRow _ Cert.KernelIdeal.Gen.shapeCasts_S6144_S1x6144 bcast_S6144_S1x6144_1]

/-- The first cell's hidden gate row. -/
theorem gh0_agree (h : Agree V0 U) : (after opsG0 (after opsPre V0)) (Proc.devRef .tc main_v62) = gh0 U := by
  rw [Stretches.g0_gh, hOld0_agree h, PreArgs.kept_arg9, PreArgs.kept_arg11, h.a9, h.a11]
  refine (host_gate (K := 2048) (N := 6144) dot_S1x2048_S2048x6144_S1x6144_1_0_0_1_n_n_wf transposes_S6144x2048_S2048x6144_1_0 _ _ _).trans ?_
  unfold gh0 biasRow
  rw [Cert.Lib.Rows.castRow_eq_dimRow _ Cert.KernelIdeal.Gen.shapeCasts_S6144_S1x6144 bcast_S6144_S1x6144_1]

/-- The first cell's new hidden row. -/
theorem hNew0_agree (h : Agree V0 U) : (after opsC0 (after opsG0 (after opsPre V0))) (Proc.devRef .tc main_v90) = hNew0 U := by
  rw [Stretches.c0_h, gi0_agree h, gh0_agree h, Stretches.g0_kept_v54, hOld0_agree h]
  all_goals rfl

/-- The second cell's old hidden row. -/
theorem hOld1_agree (h : Agree V0 U) : (after opsH1 (after opsC0 (after opsG0 (after opsPre V0)))) (Proc.devRef .tc main_v92) = hOld1 U := by
  rw [Stretches.h1_old, Stretches.c0_kept_arg1, Stretches.g0_kept_arg1, PreArgs.kept_arg1, h.a1, Cert.KernelIdeal.First.hOld1_eq]
  unfold Cert.KernelIdeal.First.hOld1Text
  all_goals rfl

/-- The second cell's input gate row, of the first cell's new hidden row. -/
theorem gi1_agree (h : Agree V0 U) : (after opsG1 (after opsH1 (after opsC0 (after opsG0 (after opsPre V0))))) (Proc.devRef .tc main_v96) = gi1 U := by
  rw [Stretches.g1_gi, Stretches.h1_kept_v90, hNew0_agree h, Stretches.h1_kept_arg12, Stretches.c0_kept_arg12, Stretches.g0_kept_arg12, PreArgs.kept_arg12, h.a12, Stretches.h1_kept_arg14, Stretches.c0_kept_arg14, Stretches.g0_kept_arg14, PreArgs.kept_arg14, h.a14]
  refine (host_gate (K := 2048) (N := 6144) dot_S1x2048_S2048x6144_S1x6144_1_0_0_1_n_n_wf transposes_S6144x2048_S2048x6144_1_0 _ _ _).trans ?_
  unfold gi1 biasRow
  rw [Cert.Lib.Rows.castRow_eq_dimRow _ Cert.KernelIdeal.Gen.shapeCasts_S6144_S1x6144 bcast_S6144_S1x6144_1]

/-- The second cell's hidden gate row. -/
theorem gh1_agree (h : Agree V0 U) : (after opsG1 (after opsH1 (after opsC0 (after opsG0 (after opsPre V0))))) (Proc.devRef .tc main_v100) = gh1 U := by
  rw [Stretches.g1_gh, hOld1_agree h, Stretches.h1_kept_arg13, Stretches.c0_kept_arg13, Stretches.g0_kept_arg13, PreArgs.kept_arg13, h.a13, Stretches.h1_kept_arg15, Stretches.c0_kept_arg15, Stretches.g0_kept_arg15, PreArgs.kept_arg15, h.a15]
  refine (host_gate (K := 2048) (N := 6144) dot_S1x2048_S2048x6144_S1x6144_1_0_0_1_n_n_wf transposes_S6144x2048_S2048x6144_1_0 _ _ _).trans ?_
  unfold gh1 biasRow
  rw [Cert.Lib.Rows.castRow_eq_dimRow _ Cert.KernelIdeal.Gen.shapeCasts_S6144_S1x6144 bcast_S6144_S1x6144_1]

/-- The second cell's new hidden row. -/
theorem hNew1_agree (h : Agree V0 U) : (after opsC1 (after opsG1 (after opsH1 (after opsC0 (after opsG0 (after opsPre V0)))))) (Proc.devRef .tc main_v128) = hNew1 U := by
  rw [Stretches.c1_h, gi1_agree h, gh1_agree h, Stretches.g1_kept_v92, hOld1_agree h]
  all_goals rfl

/-! ## The three results -/

/-- The logits. -/
theorem logits_agree (h : Agree V0 U) : after ops V0 (Proc.devRef .tc main_v135) = outLogits U := by
  rw [after_ops, Stretches.t_logits, hNew1_agree h, Stretches.c1_kept_arg16, Stretches.g1_kept_arg16, Stretches.h1_kept_arg16, Stretches.c0_kept_arg16, Stretches.g0_kept_arg16, PreArgs.kept_arg16, h.a16, Stretches.c1_kept_arg17, Stretches.g1_kept_arg17, Stretches.h1_kept_arg17, Stretches.c0_kept_arg17, Stretches.g0_kept_arg17, PreArgs.kept_arg17, h.a17]
  all_goals rfl

/-- The new hidden state. -/
theorem hidden_agree (h : Agree V0 U) : after ops V0 (Proc.devRef .tc main_v131) = outHidden U := by
  rw [after_ops, Stretches.t_hidden, hNew1_agree h, Stretches.c1_kept_v90, Stretches.g1_kept_v90, Stretches.h1_kept_v90,
    hNew0_agree h]
  all_goals rfl

/-- The updated stack. -/
theorem stack_agree (h : Agree V0 U) : after ops V0 (Proc.devRef .tc main_v49) = stackNew U := by
  rw [after_ops, Stretches.t_kept_v49, Stretches.c1_kept_v49, Stretches.g1_kept_v49, Stretches.h1_kept_v49,
    Stretches.c0_kept_v49, Stretches.g0_kept_v49, stackNew_agree h]

/-- The reference's run, its three results at the specification's functions of the kernel program's launch
    contents `U c`, whenever those hold the reference's argument arrays; the arguments end as launched. -/
theorem run (m : (ℓ : Loc nD τ sig) → Buf (Elt Ideal) ℓ) (ρ : Dev nD → PrngReg)
    (U : Dev nD → Valuation Cert.KernelIdeal.τ Cert.KernelIdeal.sig (Elt Ideal)) (hU : ∀ c, Agree (launchContents m c) (U c)) :
    θ_run defs (onTc (τ := τ) (main (F := Ideal))) ⟨m, fun _ => 0, ρ⟩ fun r => ∀ c : Dev nD,
      r.2.mem ((c.tc : Thread nD τ).loc main_v135) = outLogits (U c)
      ∧ r.2.mem ((c.tc : Thread nD τ).loc main_v131) = outHidden (U c)
      ∧ r.2.mem ((c.tc : Thread nD τ).loc main_v49) = stackNew (U c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c =>
    ⟨(h c main_v135).trans (logits_agree (hU c)),
     (h c main_v131).trans (hidden_agree (hU c)),
     (h c main_v49).trans (stack_agree (hU c)),
     (h c main_arg0).trans (Args.kept_arg0 _),
     (h c main_arg1).trans (Args.kept_arg1 _),
     (h c main_arg2).trans (Args.kept_arg2 _),
     (h c main_arg3).trans (Args.kept_arg3 _),
     (h c main_arg4).trans (Args.kept_arg4 _),
     (h c main_arg5).trans (Args.kept_arg5 _),
     (h c main_arg6).trans (Args.kept_arg6 _),
     (h c main_arg7).trans (Args.kept_arg7 _),
     (h c main_arg8).trans (Args.kept_arg8 _),
     (h c main_arg9).trans (Args.kept_arg9 _),
     (h c main_arg10).trans (Args.kept_arg10 _),
     (h c main_arg11).trans (Args.kept_arg11 _),
     (h c main_arg12).trans (Args.kept_arg12 _),
     (h c main_arg13).trans (Args.kept_arg13 _),
     (h c main_arg14).trans (Args.kept_arg14 _),
     (h c main_arg15).trans (Args.kept_arg15 _),
     (h c main_arg16).trans (Args.kept_arg16 _),
     (h c main_arg17).trans (Args.kept_arg17 _)⟩)
    (Line.run (F := Ideal) m ρ)

/-- The frame: the reference runs and its argument arrays end unchanged. -/
theorem frame (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c =>
    ⟨(h c main_arg0).trans (Args.kept_arg0 _),
     (h c main_arg1).trans (Args.kept_arg1 _),
     (h c main_arg2).trans (Args.kept_arg2 _),
     (h c main_arg3).trans (Args.kept_arg3 _),
     (h c main_arg4).trans (Args.kept_arg4 _),
     (h c main_arg5).trans (Args.kept_arg5 _),
     (h c main_arg6).trans (Args.kept_arg6 _),
     (h c main_arg7).trans (Args.kept_arg7 _),
     (h c main_arg8).trans (Args.kept_arg8 _),
     (h c main_arg9).trans (Args.kept_arg9 _),
     (h c main_arg10).trans (Args.kept_arg10 _),
     (h c main_arg11).trans (Args.kept_arg11 _),
     (h c main_arg12).trans (Args.kept_arg12 _),
     (h c main_arg13).trans (Args.kept_arg13 _),
     (h c main_arg14).trans (Args.kept_arg14 _),
     (h c main_arg15).trans (Args.kept_arg15 _),
     (h c main_arg16).trans (Args.kept_arg16 _),
     (h c main_arg17).trans (Args.kept_arg17 _)⟩)
    (Line.run (F := Ideal) m ρ)

end Cert.ReferenceIdeal.RefValue

end
-- ==== Proof.lean ====
/- The proof of `Cert.Claim` for one decoder step of a two-layer GRU with a differentiable stack, at batch size one.

   Both programs compute, from the token's embedding row, the updated stack and the two old hidden rows,
       h0' = combine (x · Wih0ᵀ + bih0) (h0 · Whh0ᵀ + bhh0) h0,   h1' = combine (h0' · Wih1ᵀ + bih1) (h1 · Whh1ᵀ + bhh1) h1,
       logits = h1' · Wdᵀ + bd,
   and return the logits, the stacked new hidden rows and the updated stack. The kernel program computes the four
   gate rows x · Wᵀ + b in two pallas_calls, each over six blocks of 1024 rows of a bf16 copy of the weight; the
   reference computes each as one host product with the transposed weight. On the extended reals a change of float
   format is the identity and both spellings of a gate row are the same sums, lane by lane (Proof/GateSpec.lean), so
   the two programs end at ONE function of the argument arrays (Proof/ProgramSpec.lean): the kernel program by
   Proof/KernelRun.lean (its run with the results named), Proof/KernelGates.lean (the gate rows its pallas_calls
   leave) and Proof/KernelValue.lean (the host stretches around them); the reference by Proof/RefRun.lean (its line
   of host operations, run) and Proof/RefValue.lean. No law of the extended reals beyond commutative-monoid sums is
   used, so the precondition (finite inputs) is never opened. The three frames are the two generated frame
   certificates and the reference's run with the results dropped; `preserves` has no entry. -/
import proofs.«168239_j3753801416872_2_alg».proof.Defs
import proofs.«168239_j3753801416872_2_alg».proof.Proof.KernelRun
import proofs.«168239_j3753801416872_2_alg».proof.Proof.KernelValue
import proofs.«168239_j3753801416872_2_alg».proof.Proof.RefValue
import proofs.«168239_j3753801416872_2_alg».proof.Proof.Gen.Kernel
import proofs.«168239_j3753801416872_2_alg».proof.Proof.Gen.Kernel.Frame
import proofs.«168239_j3753801416872_2_alg».proof.Proof.Gen.KernelIdeal
import proofs.«168239_j3753801416872_2_alg».proof.Proof.Gen.KernelIdeal.Frame
import proofs.«168239_j3753801416872_2_alg».proof.Proof.Gen.ReferenceIdeal
import proofs.«168239_j3753801416872_2_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.RefValue.frame m ρ

/-- The ideal pass rewrote nothing. -/
theorem preserves : Cert.preserves_Kernel_KernelIdeal := trivial

/-- From memories agreeing on the arguments both programs end with the logits, the new hidden state and the
    updated stack at the specification's functions of the kernel program's launch contents. -/
theorem algebraic : Cert.algebraic_KernelIdeal_ReferenceIdeal := by
  intro m ρ m' ρ' _ hagree
  refine ⟨fun c => Cert.KernelIdeal.Spec.outLogits (Cert.KernelIdeal.Gen.W0 m ρ c),
    fun c => Cert.KernelIdeal.Spec.outHidden (Cert.KernelIdeal.Gen.W0 m ρ c),
    fun c => Cert.KernelIdeal.Spec.stackNew (Cert.KernelIdeal.Gen.W0 m ρ c), ?_, ?_⟩
  · exact (θ_run Cert.KernelIdeal.defs _ _).mono
      (fun r h c => ⟨(h c).1.trans (Cert.KernelIdeal.Folded.logits_eq m ρ c),
        (h c).2.1.trans (Cert.KernelIdeal.Folded.hidden_eq m ρ c),
        (h c).2.2.1.trans (Cert.KernelIdeal.Folded.stack_eq m ρ c), (h c).2.2.2⟩)
      (Cert.KernelIdeal.Results.run (F := Ideal) m ρ)
  · exact Cert.ReferenceIdeal.RefValue.run m' ρ' (fun c => Cert.KernelIdeal.Gen.W0 m ρ c)
      (fun c => ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2⟩)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
